-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S14336x4096 : Shape := ⟨2, ![14336, 4096]⟩
abbrev S112x32 : Shape := ⟨2, ![112, 32]⟩
abbrev S4096x14336 : Shape := ⟨2, ![4096, 14336]⟩
abbrev S32x112 : Shape := ⟨2, ![32, 112]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S112x32 : S_.BroadcastsInDim S112x32 (![] : Fin 0 → Fin S112x32.rank)
  reducesTo_S112x32_S_d0_1 : S112x32.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S32x112 : S_.BroadcastsInDim S32x112 (![] : Fin 0 → Fin S32x112.rank)
  reducesTo_S32x112_S_d0_1 : S32x112.ReducesTo [0, 1] S_

variable [Facts]

def fn_part1 {F : FTy → Type} [FloatOps F] (main_arg4 : FVec F S112x32 .f32) (main_arg5 : FVec F S4096x14336 .f32) (main_arg6 : FVec F S32x112 .f32) (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  let main_v19 : FVec F S112x32 .f32 := Host.absf main_arg4
  let main_cst_6 : FVec F S_ .f32 := constant S_ .f32 0x7F800000#32
  let main_v20 : FVec F S112x32 .f32 := broadcastInDim S112x32 ![] bcast_S_S112x32 main_cst_6
  let main_v21 : IVec S112x32 1 := cmpf .olt main_v19 main_v20
  let main_c_7 : IVec S_ 1 := constantI S_ 1 1#1
  let main_v22 : IVec S_ 1 := (fun x v => Host.reduce IntOp.andi x v reducesTo_S112x32_S_d0_1 h_S_) main_v21 main_c_7
  let main_v23 : IVec S_ 1 := andi main_v18 main_v22
  let main_v24 : FVec F S4096x14336 .f32 := Host.absf main_arg5
  let main_cst_8 : FVec F S_ .f32 := constant S_ .f32 0x7F800000#32
  let main_v25 : FVec F S4096x14336 .f32 := broadcastInDim S4096x14336 ![] bcast_S_S4096x14336 main_cst_8
  let main_v26 : IVec S4096x14336 1 := cmpf .olt main_v24 main_v25
  let main_c_9 : IVec S_ 1 := constantI S_ 1 1#1
  let main_v27 : IVec S_ 1 := (fun x v => Host.reduce IntOp.andi x v reducesTo_S4096x14336_S_d0_1 h_S_) main_v26 main_c_9
  let main_v28 : IVec S_ 1 := andi main_v23 main_v27
  let main_v29 : FVec F S32x112 .f32 := Host.absf main_arg6
  let main_cst_10 : FVec F S_ .f32 := constant S_ .f32 0x7F800000#32
  let main_v30 : FVec F S32x112 .f32 := broadcastInDim S32x112 ![] bcast_S_S32x112 main_cst_10
  let main_v31 : IVec S32x112 1 := cmpf .olt main_v29 main_v30
  let main_c_11 : IVec S_ 1 := constantI S_ 1 1#1
  let main_v32 : IVec S_ 1 := (fun x v => Host.reduce IntOp.andi x v reducesTo_S32x112_S_d0_1 h_S_) main_v31 main_c_11
  let main_v33 : IVec S_ 1 := andi main_v28 main_v32
  main_v33

def fn {F : FTy → Type} [FloatOps F] (main_arg0 : FVec F S2x1024x4096 .f32) (main_arg1 : FVec F S14336x4096 .f32) (main_arg2 : FVec F S112x32 .f32) (main_arg3 : FVec F S14336x4096 .f32) (main_arg4 : FVec F S112x32 .f32) (main_arg5 : FVec F S4096x14336 .f32) (main_arg6 : FVec F S32x112 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S112x32 .f32 := Host.absf main_arg2
  let main_cst_2 : FVec F S_ .f32 := constant S_ .f32 0x7F800000#32
  let main_v10 : FVec F S112x32 .f32 := broadcastInDim S112x32 ![] bcast_S_S112x32 main_cst_2
  let main_v11 : IVec S112x32 1 := cmpf .olt main_v9 main_v10
  let main_c_3 : IVec S_ 1 := constantI S_ 1 1#1
  let main_v12 : IVec S_ 1 := (fun x v => Host.reduce IntOp.andi x v reducesTo_S112x32_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_arg4 main_arg5 main_arg6 main_v13 main_v16
-- ==== Kernel.lean ====
abbrev S2x1024x4096 : Shape := ⟨3, ![2, 1024, 4096]⟩
abbrev S14336x4096 : Shape := ⟨2, ![14336, 4096]⟩
abbrev S112x32 : Shape := ⟨2, ![112, 32]⟩
abbrev S4096x14336 : Shape := ⟨2, ![4096, 14336]⟩
abbrev S32x112 : Shape := ⟨2, ![32, 112]⟩
abbrev S2048x4096 : Shape := ⟨2, ![2048, 4096]⟩
abbrev S1024x4096 : Shape := ⟨2, ![1024, 4096]⟩
abbrev S8x32 : Shape := ⟨2, ![8, 32]⟩
abbrev S8x128x32x128 : Shape := ⟨4, ![8, 128, 32, 128]⟩
abbrev S8x1x32x1 : Shape := ⟨4, ![8, 1, 32, 1]⟩
abbrev S4096x1024 : Shape := ⟨2, ![4096, 1024]⟩
abbrev S32x8 : Shape := ⟨2, ![32, 8]⟩
abbrev S32x128x8x128 : Shape := ⟨4, ![32, 128, 8, 128]⟩
abbrev S32x1x8x1 : Shape := ⟨4, ![32, 1, 8, 1]⟩
abbrev S2048x14336 : Shape := ⟨2, ![2048, 14336]⟩
abbrev S512x2048 : Shape := ⟨2, ![512, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 16
  | .vmem => 32
  | .smem => 0
  | _ => 0

abbrev bufTy : (tb : Table) → Fin (tcTables nBuf tb) → BufTy
  | .hbm, ⟨0, _⟩ => ⟨S2x1024x4096, .f32⟩
  | .hbm, ⟨1, _⟩ => ⟨S14336x4096, .f32⟩
  | .hbm, ⟨2, _⟩ => ⟨S112x32, .f32⟩
  | .hbm, ⟨3, _⟩ => ⟨S14336x4096, .f32⟩
  | .hbm, ⟨4, _⟩ => ⟨S112x32, .f32⟩
  | .hbm, ⟨5, _⟩ => ⟨S4096x14336, .f32⟩
  | .hbm, ⟨6, _⟩ => ⟨S32x112, .f32⟩
  | .hbm, ⟨7, _⟩ => ⟨S2048x4096, .f32⟩
  | .hbm, ⟨8, _⟩ => ⟨S2048x4096, .bf16⟩
  | .hbm, ⟨9, _⟩ => ⟨S14336x4096, .bf16⟩
  | .hbm, ⟨10, _⟩ => ⟨S14336x4096, .bf16⟩
  | .hbm, ⟨11, _⟩ => ⟨S112x32, .f32⟩
  | .hbm, ⟨12, _⟩ => ⟨S4096x14336, .bf16⟩
  | .hbm, ⟨13, _⟩ => ⟨S2048x14336, .bf16⟩
  | .hbm, ⟨14, _⟩ => ⟨S2048x4096, .f32⟩
  | .hbm, ⟨15, _⟩ => ⟨S2x1024x4096, .f32⟩
  | .local _ .vmem, ⟨0, _⟩ => ⟨S1024x4096, .f32⟩
  | .local _ .vmem, ⟨1, _⟩ => ⟨S8x32, .f32⟩
  | .local _ .vmem, ⟨2, _⟩ => ⟨S8x32, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .f32⟩
  | .local _ .vmem, ⟨6, _⟩ => ⟨S8x32, .f32⟩
  | .local _ .vmem, ⟨7, _⟩ => ⟨S8x32, .f32⟩
  | .local _ .vmem, ⟨8, _⟩ => ⟨S1024x4096, .bf16⟩
  | .local _ .vmem, ⟨9, _⟩ => ⟨S1024x4096, .bf16⟩
  | .local _ .vmem, ⟨10, _⟩ => ⟨S4096x1024, .f32⟩
  | .local _ .vmem, ⟨11, _⟩ => ⟨S8x32, .f32⟩
  | .local _ .vmem, ⟨12, _⟩ => ⟨S8x32, .f32⟩
  | .local _ .vmem, ⟨13, _⟩ => ⟨S4096x1024, .bf16⟩
  | .local _ .vmem, ⟨14, _⟩ => ⟨S4096x1024, .bf16⟩
  | .local _ .vmem, ⟨15, _⟩ => ⟨S512x2048, .bf16⟩
  | .local _ .vmem, ⟨16, _⟩ => ⟨S512x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 2 → Memref sig .tc .vmem S8x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![14], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 2 → Memref sig .tc .vmem S8x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 14, 2], ![false, false, false]⟩

def k3_cond2 (i : grid3.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_15 : BitVec 32 := 0#32
  let v23 : BitVec 1 := Scalar.cmpi .ne v22 c0_i32_15
  v23

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 4, 7], ![false, false, false]⟩

def k4_cond2 (i : grid4.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  shapeCasts_S2x1024x4096_S2048x4096 : S2x1024x4096.ShapeCasts S2048x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S8x32_S8x32_0_0 : ∀ a, (![0, 0] : Fin 2 → Nat) a + S8x32.size a ≤ S8x32.size a
  h_S8x32 : 0 < S8x32.numel
  shapeCasts_S1024x4096_S8x128x32x128 : S1024x4096.ShapeCasts S8x128x32x128
  shapeCasts_S8x32_S8x1x32x1 : S8x32.ShapeCasts S8x1x32x1
  broadcasts_S8x1x32x1_S8x128x32x128 : S8x1x32x1.Broadcasts S8x128x32x128
  shapeCasts_S8x128x32x128_S1024x4096 : S8x128x32x128.ShapeCasts S1024x4096
  packedbf16_S1024x4096_S1024x4096_0_0 : (Rect.unit (s := S1024x4096) ![0, 0] S1024x4096.size inb_S1024x4096_S1024x4096_0_0).PackedRows (EltTy.packing .bf16)
  transposes_S32x112_S112x32_1_0 : S32x112.Transposes [1, 0] S112x32
  inb_S4096x1024_S4096x1024_0_0 : ∀ a, (![0, 0] : Fin 2 → Nat) a + S4096x1024.size a ≤ S4096x1024.size a
  h_S4096x1024 : 0 < S4096x1024.numel
  shapeCasts_S8x32_S8x32 : S8x32.ShapeCasts S8x32
  transposes_S8x32_p1_0_S32x8 : S8x32.Transposes [1, 0] S32x8
  shapeCasts_S4096x1024_S32x128x8x128 : S4096x1024.ShapeCasts S32x128x8x128
  shapeCasts_S32x8_S32x1x8x1 : S32x8.ShapeCasts S32x1x8x1
  broadcasts_S32x1x8x1_S32x128x8x128 : S32x1x8x1.Broadcasts S32x128x8x128
  shapeCasts_S32x128x8x128_S4096x1024 : S32x128x8x128.ShapeCasts S4096x1024
  packedbf16_S4096x1024_S4096x1024_0_0 : (Rect.unit (s := S4096x1024) ![0, 0] S4096x1024.size inb_S4096x1024_S4096x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S512x1024_S512x1024_0_0 : (Rect.unit (s := S512x1024) ![0, 0] S512x1024.size inb_S512x1024_S512x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x4096_S2x1024x4096 : S2048x4096.ShapeCasts S2x1024x4096
  dot_S512x2048_S1024x2048_S512x1024_1_1_0_0_n_n_wf : DotDims.WF S512x2048 S1024x2048 S512x1024 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S14336x4096.size a
  hwx0_0 : ∀ i : grid0.Coords, EltTy.bits .f32 = 32 ∨ (Rect.block (s := S14336x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S112x32.size a
  hwx0_1 : ∀ i : grid0.Coords, EltTy.bits .f32 = 32 ∨ (Rect.block (s := S112x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S14336x4096.size a
  hwx0_2 : ∀ i : grid0.Coords, EltTy.bits .bf16 = 32 ∨ (Rect.block (s := S14336x4096) S1024x4096.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S14336x4096.size a
  hwx1_0 : ∀ i : grid1.Coords, EltTy.bits .f32 = 32 ∨ (Rect.block (s := S14336x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32.size a ≤ S112x32.size a
  hwx1_1 : ∀ i : grid1.Coords, EltTy.bits .f32 = 32 ∨ (Rect.block (s := S112x32) S8x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S14336x4096.size a
  hwx1_2 : ∀ i : grid1.Coords, EltTy.bits .bf16 = 32 ∨ (Rect.block (s := S14336x4096) S1024x4096.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x1024.size a ≤ S4096x14336.size a
  hwx2_0 : ∀ i : grid2.Coords, EltTy.bits .f32 = 32 ∨ (Rect.block (s := S4096x14336) S4096x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x32.size a ≤ S112x32.size a
  hwx2_1 : ∀ i : grid2.Coords, EltTy.bits .f32 = 32 ∨ (Rect.block (s := S112x32) S8x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1024.size a ≤ S4096x14336.size a
  hwx2_2 : ∀ i : grid2.Coords, EltTy.bits .bf16 = 32 ∨ (Rect.block (s := S4096x14336) S4096x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S2048x4096.size a
  hwx3_0 : ∀ i : grid3.Coords, EltTy.bits .bf16 = 32 ∨ (Rect.block (s := S2048x4096) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S14336x4096.size a
  hwx3_1 : ∀ i : grid3.Coords, EltTy.bits .bf16 = 32 ∨ (Rect.block (s := S14336x4096) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S14336x4096.size a
  hwx3_2 : ∀ i : grid3.Coords, EltTy.bits .bf16 = 32 ∨ (Rect.block (s := S14336x4096) S1024x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S2048x14336.size a
  hwx3_3 : ∀ i : grid3.Coords, EltTy.bits .bf16 = 32 ∨ (Rect.block (s := S2048x14336) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S2048x14336.size a
  hwx4_0 : ∀ i : grid4.Coords, EltTy.bits .bf16 = 32 ∨ (Rect.block (s := S2048x14336) S1024x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S4096x14336.size a
  hwx4_1 : ∀ i : grid4.Coords, EltTy.bits .bf16 = 32 ∨ (Rect.block (s := S4096x14336) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S2048x4096.size a
  hwx4_2 : ∀ i : grid4.Coords, EltTy.bits .f32 = 32 ∨ (Rect.block (s := S2048x4096) S1024x1024.size (cc4_transform_2 i) (hinb4_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1024x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S4096x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S4096x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v6) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S2x1024x4096 : Shape := ⟨3, ![2, 1024, 4096]⟩
abbrev S14336x4096 : Shape := ⟨2, ![14336, 4096]⟩
abbrev S112x32 : Shape := ⟨2, ![112, 32]⟩
abbrev S4096x14336 : Shape := ⟨2, ![4096, 14336]⟩
abbrev S32x112 : Shape := ⟨2, ![32, 112]⟩
abbrev S2048x4096 : Shape := ⟨2, ![2048, 4096]⟩
abbrev S2048x32x128 : Shape := ⟨3, ![2048, 32, 128]⟩
abbrev S_ : Shape := ⟨0, ![]⟩
abbrev S2048x32 : Shape := ⟨2, ![2048, 32]⟩
abbrev S2048x32x1 : Shape := ⟨3, ![2048, 32, 1]⟩
abbrev S112x128x32x128 : Shape := ⟨4, ![112, 128, 32, 128]⟩
abbrev S112x1x32x1 : Shape := ⟨4, ![112, 1, 32, 1]⟩
abbrev S2048x14336 : Shape := ⟨2, ![2048, 14336]⟩
abbrev S2048x112x128 : Shape := ⟨3, ![2048, 112, 128]⟩
abbrev S2048x112 : Shape := ⟨2, ![2048, 112]⟩
abbrev S2048x112x1 : Shape := ⟨3, ![2048, 112, 1]⟩
abbrev S32x128x112x128 : Shape := ⟨4, ![32, 128, 112, 128]⟩
abbrev S32x1x112x1 : Shape := ⟨4, ![32, 1, 112, 1]⟩

abbrev nBuf : Space → Nat
  | .hbm => 97
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S14336x4096, .f32⟩
  | .hbm, ⟨2, _⟩ => ⟨S112x32, .f32⟩
  | .hbm, ⟨3, _⟩ => ⟨S14336x4096, .f32⟩
  | .hbm, ⟨4, _⟩ => ⟨S112x32, .f32⟩
  | .hbm, ⟨5, _⟩ => ⟨S4096x14336, .f32⟩
  | .hbm, ⟨6, _⟩ => ⟨S32x112, .f32⟩
  | .hbm, ⟨7, _⟩ => ⟨S2048x4096, .f32⟩
  | .hbm, ⟨8, _⟩ => ⟨S2048x32x128, .f32⟩
  | .hbm, ⟨9, _⟩ => ⟨S2048x32x128, .f32⟩
  | .hbm, ⟨10, _⟩ => ⟨S_, .f32⟩
  | .hbm, ⟨11, _⟩ => ⟨S2048x32, .f32⟩
  | .hbm, ⟨12, _⟩ => ⟨S_, .f32⟩
  | .hbm, ⟨13, _⟩ => ⟨S2048x32, .f32⟩
  | .hbm, ⟨14, _⟩ => ⟨S2048x32, .f32⟩
  | .hbm, ⟨15, _⟩ => ⟨S_, .f32⟩
  | .hbm, ⟨16, _⟩ => ⟨S2048x32, .f32⟩
  | .hbm, ⟨17, _⟩ => ⟨S2048x32, .f32⟩
  | .hbm, ⟨18, _⟩ => ⟨S2048x32x1, .f32⟩
  | .hbm, ⟨19, _⟩ => ⟨S2048x32x128, .f32⟩
  | .hbm, ⟨20, _⟩ => ⟨S2048x32x128, .f32⟩
  | .hbm, ⟨21, _⟩ => ⟨S2048x4096, .f32⟩
  | .hbm, ⟨22, _⟩ => ⟨S2048x32x128, .f32⟩
  | .hbm, ⟨23, _⟩ => ⟨S2048x32x1, .f32⟩
  | .hbm, ⟨24, _⟩ => ⟨S2048x32x128, .f32⟩
  | .hbm, ⟨25, _⟩ => ⟨S2048x32x128, .f32⟩
  | .hbm, ⟨26, _⟩ => ⟨S2048x4096, .f32⟩
  | .hbm, ⟨27, _⟩ => ⟨S112x128x32x128, .f32⟩
  | .hbm, ⟨28, _⟩ => ⟨S112x1x32x1, .f32⟩
  | .hbm, ⟨29, _⟩ => ⟨S112x128x32x128, .f32⟩
  | .hbm, ⟨30, _⟩ => ⟨S112x128x32x128, .f32⟩
  | .hbm, ⟨31, _⟩ => ⟨S14336x4096, .f32⟩
  | .hbm, ⟨32, _⟩ => ⟨S4096x14336, .f32⟩
  | .hbm, ⟨33, _⟩ => ⟨S2048x14336, .f32⟩
  | .hbm, ⟨34, _⟩ => ⟨S2048x32x128, .f32⟩
  | .hbm, ⟨35, _⟩ => ⟨S2048x32x128, .f32⟩
  | .hbm, ⟨36, _⟩ => ⟨S_, .f32⟩
  | .hbm, ⟨37, _⟩ => ⟨S2048x32, .f32⟩
  | .hbm, ⟨38, _⟩ => ⟨S_, .f32⟩
  | .hbm, ⟨39, _⟩ => ⟨S2048x32, .f32⟩
  | .hbm, ⟨40, _⟩ => ⟨S2048x32, .f32⟩
  | .hbm, ⟨41, _⟩ => ⟨S_, .f32⟩
  | .hbm, ⟨42, _⟩ => ⟨S2048x32, .f32⟩
  | .hbm, ⟨43, _⟩ => ⟨S2048x32, .f32⟩
  | .hbm, ⟨44, _⟩ => ⟨S2048x32x1, .f32⟩
  | .hbm, ⟨45, _⟩ => ⟨S2048x32x128, .f32⟩
  | .hbm, ⟨46, _⟩ => ⟨S2048x32x128, .f32⟩
  | .hbm, ⟨47, _⟩ => ⟨S2048x4096, .f32⟩
  | .hbm, ⟨48, _⟩ => ⟨S2048x32x128, .f32⟩
  | .hbm, ⟨49, _⟩ => ⟨S2048x32x1, .f32⟩
  | .hbm, ⟨50, _⟩ => ⟨S2048x32x128, .f32⟩
  | .hbm, ⟨51, _⟩ => ⟨S2048x32x128, .f32⟩
  | .hbm, ⟨52, _⟩ => ⟨S2048x4096, .f32⟩
  | .hbm, ⟨53, _⟩ => ⟨S112x128x32x128, .f32⟩
  | .hbm, ⟨54, _⟩ => ⟨S112x1x32x1, .f32⟩
  | .hbm, ⟨55, _⟩ => ⟨S112x128x32x128, .f32⟩
  | .hbm, ⟨56, _⟩ => ⟨S112x128x32x128, .f32⟩
  | .hbm, ⟨57, _⟩ => ⟨S14336x4096, .f32⟩
  | .hbm, ⟨58, _⟩ => ⟨S4096x14336, .f32⟩
  | .hbm, ⟨59, _⟩ => ⟨S2048x14336, .f32⟩
  | .hbm, ⟨60, _⟩ => ⟨S2048x14336, .f32⟩
  | .hbm, ⟨61, _⟩ => ⟨S2048x14336, .f32⟩
  | .hbm, ⟨62, _⟩ => ⟨S_, .f32⟩
  | .hbm, ⟨63, _⟩ => ⟨S2048x14336, .f32⟩
  | .hbm, ⟨64, _⟩ => ⟨S2048x14336, .f32⟩
  | .hbm, ⟨65, _⟩ => ⟨S_, .f32⟩
  | .hbm, ⟨66, _⟩ => ⟨S2048x14336, .f32⟩
  | .hbm, ⟨67, _⟩ => ⟨S2048x14336, .f32⟩
  | .hbm, ⟨68, _⟩ => ⟨S2048x14336, .f32⟩
  | .hbm, ⟨69, _⟩ => ⟨S2048x14336, .f32⟩
  | .hbm, ⟨70, _⟩ => ⟨S2048x112x128, .f32⟩
  | .hbm, ⟨71, _⟩ => ⟨S2048x112x128, .f32⟩
  | .hbm, ⟨72, _⟩ => ⟨S_, .f32⟩
  | .hbm, ⟨73, _⟩ => ⟨S2048x112, .f32⟩
  | .hbm, ⟨74, _⟩ => ⟨S_, .f32⟩
  | .hbm, ⟨75, _⟩ => ⟨S2048x112, .f32⟩
  | .hbm, ⟨76, _⟩ => ⟨S2048x112, .f32⟩
  | .hbm, ⟨77, _⟩ => ⟨S_, .f32⟩
  | .hbm, ⟨78, _⟩ => ⟨S2048x112, .f32⟩
  | .hbm, ⟨79, _⟩ => ⟨S2048x112, .f32⟩
  | .hbm, ⟨80, _⟩ => ⟨S2048x112x1, .f32⟩
  | .hbm, ⟨81, _⟩ => ⟨S2048x112x128, .f32⟩
  | .hbm, ⟨82, _⟩ => ⟨S2048x112x128, .f32⟩
  | .hbm, ⟨83, _⟩ => ⟨S2048x14336, .f32⟩
  | .hbm, ⟨84, _⟩ => ⟨S2048x112x128, .f32⟩
  | .hbm, ⟨85, _⟩ => ⟨S2048x112x1, .f32⟩
  | .hbm, ⟨86, _⟩ => ⟨S2048x112x128, .f32⟩
  | .hbm, ⟨87, _⟩ => ⟨S2048x112x128, .f32⟩
  | .hbm, ⟨88, _⟩ => ⟨S2048x14336, .f32⟩
  | .hbm, ⟨89, _⟩ => ⟨S32x128x112x128, .f32⟩
  | .hbm, ⟨90, _⟩ => ⟨S32x1x112x1, .f32⟩
  | .hbm, ⟨91, _⟩ => ⟨S32x128x112x128, .f32⟩
  | .hbm, ⟨92, _⟩ => ⟨S32x128x112x128, .f32⟩
  | .hbm, ⟨93, _⟩ => ⟨S4096x14336, .f32⟩
  | .hbm, ⟨94, _⟩ => ⟨S14336x4096, .f32⟩
  | .hbm, ⟨95, _⟩ => ⟨S2048x4096, .f32⟩
  | .hbm, ⟨96, _⟩ => ⟨S2x1024x4096, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  shapeCasts_S2x1024x4096_S2048x4096 : S2x1024x4096.ShapeCasts S2048x4096
  shapeCasts_S2048x4096_S2048x32x128 : S2048x4096.ShapeCasts S2048x32x128
  reducesTo_S2048x32x128_S2048x32_d2 : S2048x32x128.ReducesTo [2] S2048x32
  h_S_ : 0 < S_.numel
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S2048x32x1_S2048x32x128_0_1_2 : S2048x32x1.BroadcastsInDim S2048x32x128 (![0, 1, 2] : Fin 3 → Fin S2048x32x128.rank)
  shapeCasts_S2048x32x128_S2048x4096 : S2048x32x128.ShapeCasts S2048x4096
  shapeCasts_S14336x4096_S112x128x32x128 : S14336x4096.ShapeCasts S112x128x32x128
  bcast_S112x32_S112x1x32x1_0_2 : S112x32.BroadcastsInDim S112x1x32x1 (![0, 2] : Fin 2 → Fin S112x1x32x1.rank)
  bcast_S112x1x32x1_S112x128x32x128_0_1_2_3 : S112x1x32x1.BroadcastsInDim S112x128x32x128 (![0, 1, 2, 3] : Fin 4 → Fin S112x128x32x128.rank)
  shapeCasts_S112x128x32x128_S14336x4096 : S112x128x32x128.ShapeCasts S14336x4096
  transposes_S14336x4096_S4096x14336_1_0 : S14336x4096.Transposes [1, 0] S4096x14336
  bcast_S_S2048x14336 : S_.BroadcastsInDim S2048x14336 (![] : Fin 0 → Fin S2048x14336.rank)
  shapeCasts_S2048x14336_S2048x112x128 : S2048x14336.ShapeCasts S2048x112x128
  reducesTo_S2048x112x128_S2048x112_d2 : S2048x112x128.ReducesTo [2] S2048x112
  bcast_S_S2048x112 : S_.BroadcastsInDim S2048x112 (![] : Fin 0 → Fin S2048x112.rank)
  bcast_S2048x112_S2048x112x1_0_1 : S2048x112.BroadcastsInDim S2048x112x1 (![0, 1] : Fin 2 → Fin S2048x112x1.rank)
  bcast_S2048x112x1_S2048x112x128_0_1_2 : S2048x112x1.BroadcastsInDim S2048x112x128 (![0, 1, 2] : Fin 3 → Fin S2048x112x128.rank)
  shapeCasts_S2048x112x128_S2048x14336 : S2048x112x128.ShapeCasts S2048x14336
  shapeCasts_S4096x14336_S32x128x112x128 : S4096x14336.ShapeCasts S32x128x112x128
  bcast_S32x112_S32x1x112x1_0_2 : S32x112.BroadcastsInDim S32x1x112x1 (![0, 2] : Fin 2 → Fin S32x1x112x1.rank)
  bcast_S32x1x112x1_S32x128x112x128_0_1_2_3 : S32x1x112x1.BroadcastsInDim S32x128x112x128 (![0, 1, 2, 3] : Fin 4 → Fin S32x128x112x128.rank)
  shapeCasts_S32x128x112x128_S4096x14336 : S32x128x112x128.ShapeCasts S4096x14336
  transposes_S4096x14336_S14336x4096_1_0 : S4096x14336.Transposes [1, 0] S14336x4096
  shapeCasts_S2048x4096_S2x1024x4096 : S2048x4096.ShapeCasts S2x1024x4096
  dot_S2048x4096_S4096x14336_S2048x14336_1_0_0_1_n_n_wf : DotDims.WF S2048x4096 S4096x14336 S2048x14336 [1] [0] [0] [1] [] []
  dot_S2048x14336_S14336x4096_S2048x4096_1_0_0_1_n_n_wf : DotDims.WF S2048x14336 S14336x4096 S2048x4096 [1] [0] [0] [1] [] []

variable [Facts₀]

def dot_S2048x4096_S4096x14336_S2048x14336_1_0_0_1_n_n : DotDims S2048x4096 S4096x14336 S2048x14336 where
  lhsContracting := [1]
  rhsContracting := [0]
  lhsNonContracting := [0]
  rhsNonContracting := [1]
  lhsBatch := []
  rhsBatch := []
  wf := dot_S2048x4096_S4096x14336_S2048x14336_1_0_0_1_n_n_wf
def dot_S2048x14336_S14336x4096_S2048x4096_1_0_0_1_n_n : DotDims S2048x14336 S14336x4096 S2048x4096 where
  lhsContracting := [1]
  rhsContracting := [0]
  lhsNonContracting := [0]
  rhsNonContracting := [1]
  lhsBatch := []
  rhsBatch := []
  wf := dot_S2048x14336_S14336x4096_S2048x4096_1_0_0_1_n_n_wf

class Facts : Prop extends Facts₀ where

variable [Facts]
-- ==== Proof.Spec.lean ====
/-
  The mathematics of this certificate, stated once over literal shapes on the extended reals.

  A weight matrix arrives divided by per-tile scales: entry (r, k) of the real weight is the stored entry times the
  scale of the 128 x 128 tile it lies in.  With w1, w3 : [14336, 4096] and w2 : [4096, 14336] so rescaled, the layer is
      g = x · w1ᵀ,   u = x · w3ᵀ,   h = (g · logistic g) · u,   y = h · w2ᵀ
  on x : [2048, 4096] (the [2, 1024, 4096] input with its two leading axes merged), y split back to [2, 1024, 4096].
  Every sum below is one sum over the whole contracted axis; how a program groups it is that program's business.
-/
import Idealize.ShloMosaic.PureOps.Ideal
import Idealize.ShloMosaic.Lib.ValueIdx

noncomputable section

namespace Cert.Spec

open Idealize.ShloMosaic Idealize.ShloMosaic.ValueIdx

/-- A rank-2 array of extended reals of the given extents. -/
abbrev A2 (n0 n1 : Nat) : Type := (⟨2, ![n0, n1]⟩ : Shape).Idx → EReal
/-- A rank-3 array of extended reals of the given extents. -/
abbrev A3 (n0 n1 n2 : Nat) : Type := (⟨3, ![n0, n1, n2]⟩ : Shape).Idx → EReal

/-- Row coordinate of a rank-2 index, as a number below the row extent. -/
abbrev row {n0 n1 : Nat} (i : (⟨2, ![n0, n1]⟩ : Shape).Idx) : Fin n0 := ⟨(i 0).val, idx2_lt0 i⟩
/-- Column coordinate of a rank-2 index, as a number below the column extent. -/
abbrev col {n0 n1 : Nat} (i : (⟨2, ![n0, n1]⟩ : Shape).Idx) : Fin n1 := ⟨(i 1).val, idx2_lt1 i⟩

/-- The 128-tile a coordinate below 128·q lies in. -/
abbrev tileOf {q : Nat} (a : Fin (128 * q)) : Fin q := ⟨a.val / 128, by have := a.isLt; omega⟩

/-- Rescaling a [14336, 4096] weight by its [112, 32] tile scales: entry (r, k) times the scale of tile (r / 128, k / 128). -/
def deqRow (w : A2 14336 4096) (s : A2 112 32) : A2 14336 4096 := fun i =>
  w i * s (ix2 (tileOf (q := 112) (row i)) (tileOf (q := 32) (col i)))

/-- Rescaling a [4096, 14336] weight by tile scales handed over TRANSPOSED, as a [112, 32] array: entry (r, k) times
    the entry (k / 128, r / 128) of that array. -/
def deqCol (w : A2 4096 14336) (st : A2 112 32) : A2 4096 14336 := fun i =>
  w i * st (ix2 (tileOf (q := 112) (col i)) (tileOf (q := 32) (row i)))

/-- The transpose of a [32, 112] array. -/
def transp (s : A2 32 112) : A2 112 32 := fun i => s (ix2 (col i) (row i))

/-- The gated layer: entry (t, n) is (g · logistic g) · u with g, u the inner products of row t of x with row n of a and of b. -/
def gated (x : A2 2048 4096) (a b : A2 14336 4096) : A2 2048 14336 := fun i =>
  ((∑ k : Fin 4096, x (ix2 (row i) k) * a (ix2 (col i) k)) * Ideal.logistic (∑ k : Fin 4096, x (ix2 (row i) k) * a (ix2 (col i) k)))
    * (∑ k : Fin 4096, x (ix2 (row i) k) * b (ix2 (col i) k))

/-- The down projection: entry (t, d) is the inner product of row t of h with row d of w. -/
def down (h : A2 2048 14336) (w : A2 4096 14336) : A2 2048 4096 := fun i =>
  ∑ n : Fin 14336, h (ix2 (row i) n) * w (ix2 (col i) n)

/-- Merging the two leading axes of a [2, 1024, 4096] array, row-major. -/
def flat (x : A3 2 1024 4096) : A2 2048 4096 := fun i =>
  x (ix3 (⟨(i 0).val / 1024, by have := idx2_lt0 i; omega⟩ : Fin 2) (⟨(i 0).val % 1024, Nat.mod_lt _ (by norm_num)⟩ : Fin 1024) (col i))

/-- Splitting the leading axis of a [2048, 4096] array back into [2, 1024], row-major. -/
def unflat (y : A2 2048 4096) : A3 2 1024 4096 := fun j =>
  y (ix2 (⟨(j 0).val * 1024 + (j 1).val, by
      have h0 : (j 0).val < 2 := (j 0).isLt
      have h1 : (j 1).val < 1024 := (j 1).isLt
      omega⟩ : Fin 2048) (⟨(j 2).val, (j 2).isLt⟩ : Fin 4096))

/-- Every entry of an array is a real number (neither +∞ nor -∞). -/
def AllReal {s : Shape} (x : s.Idx → EReal) : Prop := ∀ i, ∃ r : ℝ, x i = (r : EReal)

/-- The whole layer as one function of the seven argument arrays. -/
def layer (x : A3 2 1024 4096) (w1 : A2 14336 4096) (s1 : A2 112 32) (w3 : A2 14336 4096) (s3 : A2 112 32)
    (w2 : A2 4096 14336) (s2 : A2 32 112) : A3 2 1024 4096 :=
  unflat (down (gated (flat x) (deqRow w1 s1) (deqRow w3 s3)) (deqCol w2 (transp s2)))

end Cert.Spec

end
-- ==== Proof.KB.RegDequant0.lean ====
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the block-scaled first up-projection weight, tile by tile

Each grid point multiplies one row band of the weight by the matching band of per-tile scales and rounds the
product to bf16. Everything below is stated at the buffer contents `V` the region starts from. -/

/-- The block of window `w` the grid point `t` works on, cut out of the window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight band is in its staging buffer whenever the body starts: a fetch puts it there, and without a fetch the
    band index has not moved and the body left the previous copy alone. True of any proof data over `V`'s array whose
    body keeps the band. -/
theorem in0_0_block_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the band of scales. -/
theorem in0_1_block_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole weight band (also the whole output band), and the whole band of scales, as rectangles. -/
abbrev full0_w : Rect S1024x4096 := Rect.unit (s := S1024x4096) ![0, 0] S1024x4096.size inb_S1024x4096_S1024x4096_0_0
abbrev full0_s : Rect S8x32 := Rect.unit (s := S8x32) ![0, 0] S8x32.size inb_S8x32_S8x32_0_0

/-- What the body leaves in the output band: its single store, of the scaled and rounded product of the two bands
    it loaded, laid over the whole buffer. -/
def out0_2 (x0 : Vec F S1024x4096 .f32) (x1 : Vec F S8x32 .f32) : Vec F S1024x4096 .bf16 :=
  View.canon [⟨full0_w, k0_pay1 (View.ld x0 full0_w) (View.ld x1 full0_s)⟩]

/-- That one store is the whole band, so no output entry is left unwritten. -/
theorem store0_covers (p0 : Vec F S1024x4096 .bf16) (y : S1024x4096.Idx) :
    ∃ pc ∈ ([⟨full0_w, p0⟩] : List (View.Piece (Elt F) S1024x4096 .bf16)), y ∈ pc.1.set :=
  View.cover_of_tiled [⟨full0_w, p0⟩] S1024x4096.size (by rfl) y

set_option maxHeartbeats 1000000 in
/-- The body on three whole staging buffers: with the weight band `x0` and the scales `x1` in the first two and anything
    in the third, it ends with the first two untouched and the third holding `out0_2 x0 x1`. -/
theorem kernel0_triple (c : Dev nD) (E : Set ℕ) (i : grid0.Coords) (arg1 : Memref sig .tc .vmem S1024x4096 .f32) (harg1 : arg1.IsWhole)
    (arg2 : Memref sig .tc .vmem S8x32 .f32) (harg2 : arg2.IsWhole) (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_body i arg1 harg1 arg2 harg2 arg3 harg3) K := by
  simp only [cc0__dequant_body_eq_skeleton]; unfold cc0__dequant_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store0_covers _)

/-- The proof data of this pipeline on core `c`: the arrays are `V`'s; the body leaves each input band as it was and
    the output band at `out0_2` of the two; the rest of the core's state rides through unchanged; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Both input bands are in place when the body starts. -/
theorem in0_0_block (c : Dev nD) (t : Fin cfg0.N) (d) : (dat0 V c).before 0 t d = iblk0 V c 0 t :=
  in0_0_block_of V (dat0 V c) (A_eq0 V c 0) (after0_0 V c) t d
theorem in0_1_block (c : Dev nD) (t : Fin cfg0.N) (d) : (dat0 V c).before 1 t d = iblk0 V c 1 t :=
  in0_1_block_of V (dat0 V c) (A_eq0 V c 1) (after0_1 V c) t d

/-- What the body is started with at point `t`, window by window, -/
def entry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must hand back. -/
def exit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two staging buffers hold the input bands, so `kernel0_triple` applies; the invariant
    and the debt are not looked at. -/
theorem body0_triple (c : Dev nD) (t : Fin cfg0.N) :
    entry0 V c t ⊢ wp frame (wpE (defs₀ (F := F)) Variants.none c none) Set.univ (bodyAt0 t) (fun _ => exit0 V c t) := by
  unfold entry0 exit0 bodyAt0
  simp only [in0_0_block, in0_1_block]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (kernel0_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact body0_triple V c t

end Cert.Kernel.Hand

end
-- ==== Proof.KB.RegDequant1.lean ====
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the block-scaled second up-projection weight, tile by tile

Each grid point multiplies one row band of the weight by the matching band of per-tile scales and rounds the
product to bf16. Everything below is stated at the buffer contents `V` the region starts from. -/

/-- The block of window `w` the grid point `t` works on, cut out of the window's array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight band is in its staging buffer whenever the body starts: a fetch puts it there, and without a fetch the
    band index has not moved and the body left the previous copy alone. True of any proof data over `V`'s array whose
    body keeps the band. -/
theorem in1_0_block_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the band of scales. -/
theorem in1_1_block_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole weight band (also the whole output band), and the whole band of scales, as rectangles. -/
abbrev full1_w : Rect S1024x4096 := Rect.unit (s := S1024x4096) ![0, 0] S1024x4096.size inb_S1024x4096_S1024x4096_0_0
abbrev full1_s : Rect S8x32 := Rect.unit (s := S8x32) ![0, 0] S8x32.size inb_S8x32_S8x32_0_0

/-- What the body leaves in the output band: its single store, of the scaled and rounded product of the two bands
    it loaded, laid over the whole buffer. -/
def out1_2 (x0 : Vec F S1024x4096 .f32) (x1 : Vec F S8x32 .f32) : Vec F S1024x4096 .bf16 :=
  View.canon [⟨full1_w, k1_pay1 (View.ld x0 full1_w) (View.ld x1 full1_s)⟩]

/-- That one store is the whole band, so no output entry is left unwritten. -/
theorem store1_covers (p0 : Vec F S1024x4096 .bf16) (y : S1024x4096.Idx) :
    ∃ pc ∈ ([⟨full1_w, p0⟩] : List (View.Piece (Elt F) S1024x4096 .bf16)), y ∈ pc.1.set :=
  View.cover_of_tiled [⟨full1_w, p0⟩] S1024x4096.size (by rfl) y

set_option maxHeartbeats 1000000 in
/-- The body on three whole staging buffers: with the weight band `x0` and the scales `x1` in the first two and anything
    in the third, it ends with the first two untouched and the third holding `out1_2 x0 x1`. -/
theorem kernel1_triple (c : Dev nD) (E : Set ℕ) (i : grid1.Coords) (arg1 : Memref sig .tc .vmem S1024x4096 .f32) (harg1 : arg1.IsWhole)
    (arg2 : Memref sig .tc .vmem S8x32 .f32) (harg2 : arg2.IsWhole) (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dequant_body i arg1 harg1 arg2 harg2 arg3 harg3) K := by
  simp only [cc1__dequant_body_eq_skeleton]; unfold cc1__dequant_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store1_covers _)

/-- The proof data of this pipeline on core `c`: the arrays are `V`'s; the body leaves each input band as it was and
    the output band at `out1_2` of the two; the rest of the core's state rides through unchanged; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Both input bands are in place when the body starts. -/
theorem in1_0_block (c : Dev nD) (t : Fin cfg1.N) (d) : (dat1 V c).before 0 t d = iblk1 V c 0 t :=
  in1_0_block_of V (dat1 V c) (A_eq1 V c 0) (after1_0 V c) t d
theorem in1_1_block (c : Dev nD) (t : Fin cfg1.N) (d) : (dat1 V c).before 1 t d = iblk1 V c 1 t :=
  in1_1_block_of V (dat1 V c) (A_eq1 V c 1) (after1_1 V c) t d

/-- What the body is started with at point `t`, window by window, -/
def entry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must hand back. -/
def exit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two staging buffers hold the input bands, so `kernel1_triple` applies; the invariant
    and the debt are not looked at. -/
theorem body1_triple (c : Dev nD) (t : Fin cfg1.N) :
    entry1 V c t ⊢ wp frame (wpE (defs₀ (F := F)) Variants.none c none) Set.univ (bodyAt1 t) (fun _ => exit1 V c t) := by
  unfold entry1 exit1 bodyAt1
  simp only [in1_0_block, in1_1_block]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (kernel1_triple c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact body1_triple V c t

end Cert.Kernel.Hand

end
-- ==== Proof.KB.RegDequant2.lean ====
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the block-scaled down-projection weight, tile by tile

Each grid point multiplies one row band of the weight by the matching band of per-tile scales and rounds the
product to bf16. Everything below is stated at the buffer contents `V` the region starts from. -/

/-- The block of window `w` the grid point `t` works on, cut out of the window's array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight band is in its staging buffer whenever the body starts: a fetch puts it there, and without a fetch the
    band index has not moved and the body left the previous copy alone. True of any proof data over `V`'s array whose
    body keeps the band. -/
theorem in2_0_block_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the band of scales. -/
theorem in2_1_block_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole weight band (also the whole output band), and the whole band of scales, as rectangles. -/
abbrev full2_w : Rect S4096x1024 := Rect.unit (s := S4096x1024) ![0, 0] S4096x1024.size inb_S4096x1024_S4096x1024_0_0
abbrev full2_s : Rect S8x32 := Rect.unit (s := S8x32) ![0, 0] S8x32.size inb_S8x32_S8x32_0_0

/-- What the body leaves in the output band: its single store, of the scaled and rounded product of the two bands
    it loaded, laid over the whole buffer. -/
def out2_2 (x0 : Vec F S4096x1024 .f32) (x1 : Vec F S8x32 .f32) : Vec F S4096x1024 .bf16 :=
  View.canon [⟨full2_w, k2_pay1 (View.ld x0 full2_w) (View.ld x1 full2_s)⟩]

/-- That one store is the whole band, so no output entry is left unwritten. -/
theorem store2_covers (p0 : Vec F S4096x1024 .bf16) (y : S4096x1024.Idx) :
    ∃ pc ∈ ([⟨full2_w, p0⟩] : List (View.Piece (Elt F) S4096x1024 .bf16)), y ∈ pc.1.set :=
  View.cover_of_tiled [⟨full2_w, p0⟩] S4096x1024.size (by rfl) y

set_option maxHeartbeats 1000000 in
/-- The body on three whole staging buffers: with the weight band `x0` and the scales `x1` in the first two and anything
    in the third, it ends with the first two untouched and the third holding `out2_2 x0 x1`. -/
theorem kernel2_triple (c : Dev nD) (E : Set ℕ) (i : grid2.Coords) (arg1 : Memref sig .tc .vmem S4096x1024 .f32) (harg1 : arg1.IsWhole)
    (arg2 : Memref sig .tc .vmem S8x32 .f32) (harg2 : arg2.IsWhole) (arg3 : Memref sig .tc .vmem S4096x1024 .bf16) (harg3 : arg3.IsWhole)
    (x0 : Vec F S4096x1024 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dequant_body i arg1 harg1 arg2 harg2 arg3 harg3) K := by
  simp only [cc2__dequant_body_eq_skeleton]; unfold cc2__dequant_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store2_covers _)

/-- The proof data of this pipeline on core `c`: the arrays are `V`'s; the body leaves each input band as it was and
    the output band at `out2_2` of the two; the rest of the core's state rides through unchanged; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Both input bands are in place when the body starts. -/
theorem in2_0_block (c : Dev nD) (t : Fin cfg2.N) (d) : (dat2 V c).before 0 t d = iblk2 V c 0 t :=
  in2_0_block_of V (dat2 V c) (A_eq2 V c 0) (after2_0 V c) t d
theorem in2_1_block (c : Dev nD) (t : Fin cfg2.N) (d) : (dat2 V c).before 1 t d = iblk2 V c 1 t :=
  in2_1_block_of V (dat2 V c) (A_eq2 V c 1) (after2_1 V c) t d

/-- What the body is started with at point `t`, window by window, -/
def entry2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it must hand back. -/
def exit2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two staging buffers hold the input bands, so `kernel2_triple` applies; the invariant
    and the debt are not looked at. -/
theorem body2_triple (c : Dev nD) (t : Fin cfg2.N) :
    entry2 V c t ⊢ wp frame (wpE (defs₀ (F := F)) Variants.none c none) Set.univ (bodyAt2 t) (fun _ => exit2 V c t) := by
  unfold entry2 exit2 bodyAt2
  simp only [in2_0_block, in2_1_block]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel2_triple c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact body2_triple V c t

end Cert.Kernel.Hand

end
-- ==== Proof.KB.RegDequant.lean ====
import proofs.«151961_j22153441312857_2_alg».proof.Proof.KB.RegDequant0
import proofs.«151961_j22153441312857_2_alg».proof.Proof.KB.RegDequant1
import proofs.«151961_j22153441312857_2_alg».proof.Proof.KB.RegDequant2

/-! The three block-scaled weight regions, gathered. -/
-- ==== Proof.KB.RegGatedRuns.lean ====
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gate/up product region: what its two control cases share -/

/-! ## The windows' blocks -/

/-- What window `w` stages at grid point `t`: the block its index map selects from the array as entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation window's current buffer holds its block at every point, whether or not the point fetched it:
    when the block index does not move the block is the same one. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the gate weight's window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for the up weight's window. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- "This is the first step along the contracted axis": the test guarding the zeroing of both accumulators. -/
abbrev cond3_0 (i : grid3.Coords) : Prop := (Scalar.cmpi .ne (Scalar.extui (Scalar.cmpi .eq (BitVec.ofNat 32 (i 2).val) 0#32)) 0#32) = 1#1
/-- The contracted axis is innermost and has two steps, so the first step is the even positions. -/
theorem hcond3_0 : ∀ t : Fin cfg3.N, cond3_0 (grid3.coords t) ↔ t.val % 2 = 0 :=
  (by decide +kernel : ∀ t : Fin grid3.N, cond3_0 (grid3.coords t) ↔ t.val % 2 = 0)

/-- "This is the last step along the contracted axis": the test guarding the activation and the output store. -/
abbrev cond3_1 (i : grid3.Coords) : Prop := k3_cond2 i = 1#1
/-- The last step is the odd positions. -/
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- On a first step nothing is stored to the output block, -/
theorem idleAt3_3_A : ∀ t : Fin cfg3.N, cond3_0 (grid3.coords t) → ¬cond3_1 (grid3.coords t) → cfg3.idle 3 (grid3.coords t) = true := by decide +kernel
/-- and the block is not written back there. -/
theorem noFlush3_3_A : ∀ t : Fin cfg3.N, cond3_0 (grid3.coords t) → ¬cond3_1 (grid3.coords t) → (cfg3.win 3).flush t = false := by decide +kernel
/-- On a last step the output block is stored. -/
theorem liveAt3_3_B : ∀ t : Fin cfg3.N, ¬cond3_0 (grid3.coords t) → cond3_1 (grid3.coords t) → cfg3.idle 3 (grid3.coords t) = false := by decide +kernel

/-! ## The memrefs the body is called on -/

/-- One staging buffer of the output window, through which contents of the block are stated. -/
abbrev VO3_3 : View sig .tc .vmem S512x1024 .bf16 := (Memref.whole cc3_stg3_0 : Memref sig .tc .vmem S512x1024 .bf16).view
abbrev ms3_0 (t : Fin cfg3.N) : Memref sig .tc .vmem S512x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .bf16 := win3_3.stage (cfg3.slots t 3)
abbrev hs3_3 (t : Fin cfg3.N) : (ms3_3 t).IsWhole := hstage3_3 ((cfg3.slots t 3).cast nbuf3_3)
/-- The gate accumulator and the up accumulator: whole scoped buffers, the same at every point. -/
abbrev scM3_0 : Memref sig .tc .vmem S512x1024 .f32 := Memref.whole cc3_scratch0
abbrev scM3_1 : Memref sig .tc .vmem S512x1024 .f32 := Memref.whole cc3_scratch1
abbrev VS3_0 : View sig .tc .vmem S512x1024 .f32 := scM3_0.view
abbrev VS3_1 : View sig .tc .vmem S512x1024 .f32 := scM3_1.view

/-- The core's scoped buffers other than this call's staging buffers and its two accumulators, each at some contents:
    never opened here. -/
abbrev Rest3 (c : Dev nD) : sProp 𝕄 :=
  Pipeline.scopedRestBut (Ix := Unit) (Name := ℕ) (U := UR sig nD τ) (Lvl := ℕ) (Val := Elt F) spec3 c [cc3_scratch0, cc3_scratch1]

/-- The region's entry invariant with the two accumulators taken out of the scoped rest, each owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Rest3 c) ∗ (∃ r, prngReg c r)) := by
  unfold Pipeline.ΦA
  rw [Pipeline.scopedRest_split_of_list spec3 c [cc3_scratch0, cc3_scratch1] (by decide) (by decide)]
  simp only [scM3_0, scM3_1, owns_whole, bigSepL_cons_cons, bigSepL_singleton]
  try rfl

end Cert.Kernel.Hand

end
-- ==== Proof.KB.RegGatedA.lean ====
import proofs.«151961_j22153441312857_2_alg».proof.Proof.KB.RegGatedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body on a FIRST step of the contracted axis -/

set_option maxHeartbeats 4000000 in
/-- On a first step (the zeroing branch taken, the output branch not taken) the body, run on whole memrefs — the
    three inputs at contents `x0 x1 x2`, the output buffer at contents `xi3` it never touches, both accumulators at
    anything —, reaches its continuation with the inputs and the output buffer as they were and each accumulator
    holding the recorded stores (last first). The recorded stores are the witness of the existence claim. -/
noncomputable def kernelRun3_A (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i)
    (x0 : Vec F S512x2048 .bf16) (x1 : Vec F S1024x2048 .bf16) (x2 : Vec F S1024x2048 .bf16) :
    Σ' (L3 : List (View.Piece (Elt F) S512x1024 .bf16)) (LS0 : List (View.Piece (Elt F) S512x1024 .f32)), { LS1 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__gated_body i arg3 harg3 arg4 harg4 arg5 harg5 arg6 harg6 arg7 harg7 arg8 harg8) K } := by
  refine ⟨[], ?_, ?_, fun xi3 E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.KB.RegGatedB.lean ====
import proofs.«151961_j22153441312857_2_alg».proof.Proof.KB.RegGatedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body on a LAST step of the contracted axis -/

set_option maxHeartbeats 4000000 in
/-- On a last step (the zeroing branch not taken, the output branch taken) the body, run on whole memrefs — the three
    inputs at contents `x0 x1 x2`, the output buffer at anything, the accumulators at the contents `xs0 xs1` the step
    before left —, reaches its continuation with the inputs as they were and the output buffer and each accumulator
    holding the recorded stores (last first). The recorded stores are the witness of the existence claim. -/
noncomputable def kernelRun3_B (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i)
    (x0 : Vec F S512x2048 .bf16) (x1 : Vec F S1024x2048 .bf16) (x2 : Vec F S1024x2048 .bf16) (xs0 : Vec F S512x1024 .f32) (xs1 : Vec F S512x1024 .f32) :
    Σ' (L3 : List (View.Piece (Elt F) S512x1024 .bf16)) (LS0 : List (View.Piece (Elt F) S512x1024 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__gated_body i arg3 harg3 arg4 harg4 arg5 harg5 arg6 harg6 arg7 harg7 arg8 harg8) K } := by
  refine ⟨?_, ?_, ?_, fun E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.KB.RegGated.lean ====
import proofs.«151961_j22153441312857_2_alg».proof.Proof.KB.RegGatedA
import proofs.«151961_j22153441312857_2_alg».proof.Proof.KB.RegGatedB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gate/up product region: contents point by point, proof data, body obligation -/

/-! ## What each case leaves -/

/-- A first step stores nothing to the output block: a placeholder nothing reads (the block is neither written back
    at such a point nor read at the next). -/
def out3_A_3 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) : Vec F S512x1024 .bf16 :=
  VO3_3.read (Elt F) (VO3_3.writes (Elt F) VO3_3.junk (kernelRun3_A c i arg3 harg3 arg4 harg4 arg5 harg5 arg6 harg6 arg7 harg7 arg8 harg8 hc0 hc1 x0 x1 x2).1)

/-- On a first step the stores to the gate accumulator cover it, -/
theorem scover3_A_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) (y : S512x1024.Idx) :
    ∃ pc ∈ (kernelRun3_A c i arg3 harg3 arg4 harg4 arg5 harg5 arg6 harg6 arg7 harg7 arg8 harg8 hc0 hc1 x0 x1 x2).2.1, y ∈ pc.1.set :=
  View.cover_of_tiledL (kernelRun3_A c i arg3 harg3 arg4 harg4 arg5 harg5 arg6 harg6 arg7 harg7 arg8 harg8 hc0 hc1 x0 x1 x2).2.1 S512x1024.size (by sl_kernel_rfl) y

/-- so it ends holding them read back. -/
def sout3_A_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) : Vec F S512x1024 .f32 :=
  VS3_0.read (Elt F) (VS3_0.writes (Elt F) VS3_0.junk (kernelRun3_A c i arg3 harg3 arg4 harg4 arg5 harg5 arg6 harg6 arg7 harg7 arg8 harg8 hc0 hc1 x0 x1 x2).2.1)

/-- The same for the up accumulator. -/
theorem scover3_A_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) (y : S512x1024.Idx) :
    ∃ pc ∈ (kernelRun3_A c i arg3 harg3 arg4 harg4 arg5 harg5 arg6 harg6 arg7 harg7 arg8 harg8 hc0 hc1 x0 x1 x2).2.2.1, y ∈ pc.1.set :=
  View.cover_of_tiledL (kernelRun3_A c i arg3 harg3 arg4 harg4 arg5 harg5 arg6 harg6 arg7 harg7 arg8 harg8 hc0 hc1 x0 x1 x2).2.2.1 S512x1024.size (by sl_kernel_rfl) y

def sout3_A_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) : Vec F S512x1024 .f32 :=
  VS3_1.read (Elt F) (VS3_1.writes (Elt F) VS3_1.junk (kernelRun3_A c i arg3 harg3 arg4 harg4 arg5 harg5 arg6 harg6 arg7 harg7 arg8 harg8 hc0 hc1 x0 x1 x2).2.2.1)

/-- On a last step the one store to the output block covers it, -/
theorem cover3_B_3 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) (y : S512x1024.Idx) :
    ∃ pc ∈ (kernelRun3_B c i arg3 harg3 arg4 harg4 arg5 harg5 arg6 harg6 arg7 harg7 arg8 harg8 hc0 hc1 x0 x1 x2 xs0 xs1).1, y ∈ pc.1.set :=
  View.cover_of_tiledL (kernelRun3_B c i arg3 harg3 arg4 harg4 arg5 harg5 arg6 harg6 arg7 harg7 arg8 harg8 hc0 hc1 x0 x1 x2 xs0 xs1).1 S512x1024.size (by sl_kernel_rfl) y

/-- so the block's buffer ends holding it read back. -/
def out3_B_3 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) : Vec F S512x1024 .bf16 :=
  VO3_3.read (Elt F) (VO3_3.writes (Elt F) VO3_3.junk (kernelRun3_B c i arg3 harg3 arg4 harg4 arg5 harg5 arg6 harg6 arg7 harg7 arg8 harg8 hc0 hc1 x0 x1 x2 xs0 xs1).1)

theorem scover3_B_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) (y : S512x1024.Idx) :
    ∃ pc ∈ (kernelRun3_B c i arg3 harg3 arg4 harg4 arg5 harg5 arg6 harg6 arg7 harg7 arg8 harg8 hc0 hc1 x0 x1 x2 xs0 xs1).2.1, y ∈ pc.1.set :=
  View.cover_of_tiledL (kernelRun3_B c i arg3 harg3 arg4 harg4 arg5 harg5 arg6 harg6 arg7 harg7 arg8 harg8 hc0 hc1 x0 x1 x2 xs0 xs1).2.1 S512x1024.size (by sl_kernel_rfl) y

def sout3_B_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) : Vec F S512x1024 .f32 :=
  VS3_0.read (Elt F) (VS3_0.writes (Elt F) VS3_0.junk (kernelRun3_B c i arg3 harg3 arg4 harg4 arg5 harg5 arg6 harg6 arg7 harg7 arg8 harg8 hc0 hc1 x0 x1 x2 xs0 xs1).2.1)

theorem scover3_B_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) (y : S512x1024.Idx) :
    ∃ pc ∈ (kernelRun3_B c i arg3 harg3 arg4 harg4 arg5 harg5 arg6 harg6 arg7 harg7 arg8 harg8 hc0 hc1 x0 x1 x2 xs0 xs1).2.2.1, y ∈ pc.1.set :=
  View.cover_of_tiledL (kernelRun3_B c i arg3 harg3 arg4 harg4 arg5 harg5 arg6 harg6 arg7 harg7 arg8 harg8 hc0 hc1 x0 x1 x2 xs0 xs1).2.2.1 S512x1024.size (by sl_kernel_rfl) y

def sout3_B_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) : Vec F S512x1024 .f32 :=
  VS3_1.read (Elt F) (VS3_1.writes (Elt F) VS3_1.junk (kernelRun3_B c i arg3 harg3 arg4 harg4 arg5 harg5 arg6 harg6 arg7 harg7 arg8 harg8 hc0 hc1 x0 x1 x2 xs0 xs1).2.2.1)

/-! ## The two conditions at a point, from the parity of its position -/

theorem hA0 (t : Fin cfg3.N) (h : t.val % 2 = 0) : cond3_0 (grid3.coords t) := (hcond3_0 t).mpr h
theorem hA1 (t : Fin cfg3.N) (h : t.val % 2 = 0) : ¬cond3_1 (grid3.coords t) := fun h' => by
  have := (hcond3_1 t).mp h'; omega
theorem hB0 (t : Fin cfg3.N) (h : ¬t.val % 2 = 0) : ¬cond3_0 (grid3.coords t) := fun h' => h ((hcond3_0 t).mp h')
theorem hB1 (t : Fin cfg3.N) (h : ¬t.val % 2 = 0) : cond3_1 (grid3.coords t) := (hcond3_1 t).mpr (by omega)

/-! ## What the output buffer and the accumulators hold after each point -/

/-- An even position: the first-step case at the point's memrefs and input blocks. -/
def ptA3 (c : Dev nD) (t : Fin cfg3.N) (h : t.val % 2 = 0) : Vec F S512x1024 .bf16 × Vec F S512x1024 .f32 × Vec F S512x1024 .f32 :=
  (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hA0 t h) (hA1 t h) (iblk3 V c 0 t) (iblk3 V c 1 t) (iblk3 V c 2 t),
   sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hA0 t h) (hA1 t h) (iblk3 V c 0 t) (iblk3 V c 1 t) (iblk3 V c 2 t),
   sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hA0 t h) (hA1 t h) (iblk3 V c 0 t) (iblk3 V c 1 t) (iblk3 V c 2 t))

/-- An odd position: the last-step case at the point's memrefs and input blocks, over accumulator contents `xs0 xs1`. -/
def ptB3 (c : Dev nD) (t : Fin cfg3.N) (h : ¬t.val % 2 = 0) (xs0 xs1 : Vec F S512x1024 .f32) : Vec F S512x1024 .bf16 × Vec F S512x1024 .f32 × Vec F S512x1024 .f32 :=
  (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hB0 t h) (hB1 t h) (iblk3 V c 0 t) (iblk3 V c 1 t) (iblk3 V c 2 t) xs0 xs1,
   sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hB0 t h) (hB1 t h) (iblk3 V c 0 t) (iblk3 V c 1 t) (iblk3 V c 2 t) xs0 xs1,
   sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hB0 t h) (hB1 t h) (iblk3 V c 0 t) (iblk3 V c 1 t) (iblk3 V c 2 t) xs0 xs1)

/-- After the body at position `n`: (the output block's buffer, the gate accumulator, the up accumulator). An even
    position restarts both accumulators; an odd one continues from what the position before left in them. -/
def outsAt3 (c : Dev nD) : (n : ℕ) → n < cfg3.N → Vec F S512x1024 .bf16 × Vec F S512x1024 .f32 × Vec F S512x1024 .f32
  | 0, hn => ptA3 V c ⟨0, hn⟩ (Nat.zero_mod _)
  | n + 1, hn =>
    if h : (n + 1) % 2 = 0 then ptA3 V c ⟨n + 1, hn⟩ h
    else ptB3 V c ⟨n + 1, hn⟩ h (outsAt3 c n (Nat.lt_of_succ_lt hn)).2.1 (outsAt3 c n (Nat.lt_of_succ_lt hn)).2.2

theorem outsAt3_A (c : Dev nD) (t : Fin cfg3.N) (h : t.val % 2 = 0) : outsAt3 V c t.val t.isLt = ptA3 V c t h := by
  obtain ⟨n, hn⟩ := t
  cases n with
  | zero => exact rfl
  | succ n => exact (dif_pos h).trans rfl

theorem outsAt3_B (c : Dev nD) (t : Fin cfg3.N) (h : ¬t.val % 2 = 0) :
    outsAt3 V c t.val t.isLt = ptB3 V c t h (outsAt3 V c (t.val - 1) (Nat.lt_of_le_of_lt (Nat.sub_le _ _) t.isLt)).2.1
      (outsAt3 V c (t.val - 1) (Nat.lt_of_le_of_lt (Nat.sub_le _ _) t.isLt)).2.2 := by
  obtain ⟨n, hn⟩ := t
  cases n with
  | zero => exact absurd (Nat.zero_mod _) h
  | succ n => exact (dif_neg h).trans rfl

/-! ## The region invariant -/

/-- Before position `n`: at the start what the launch hands over; afterwards both accumulators at what the position
    before left, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2) ∗ Rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2) ∗ Rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2) ∗ Rest3 c) ∗ (∃ r, prngReg c r)) := by
  cases n with
  | zero => exact absurd rfl hz
  | succ n => rfl

/-! ## The proof data -/

/-- Region 3 on core `c`.  Its arrays start at the entry contents; once the body has run at a point, each input buffer
    still shows its block and the output buffer shows the first component of `outsAt3`; between points the invariant is
    `PhiS3`; the core owes nothing and holds every array whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The input buffers hold their blocks; the parity of the position says which case runs. On an
    even position the accumulators are handed over at anything (at the very first point out of the launch's scoped rest,
    later out of the invariant, their named contents forgotten) and the output buffer goes back untouched; on an odd one
    the accumulators are handed over at what the position before left and the output buffer at anything. Either way
    the invariant takes the accumulators back at this position's contents, which the covering stores determine. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 112 := lt_of_lt_of_eq t.isLt (show cfg3.N = 112 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · rw [Dat.leavesExact_idle (dat3 V c) 3 t (idleAt3_3_A t (hA0 t h0) (hA1 t h0)) (noFlush3_3_A t (hA0 t h0) (hA1 t h0))]
    rw [outsAt3_A V c t h0]
    unfold ptA3 sout3_A_0 sout3_A_1; (try dsimp only)
    by_cases hz : t.val = 0
    · rw [PhiS3_castSucc V c t, PhiS3_zero V c _ _ hz, PhiA3_eq]
      iintro ⟨⟨⟨⟨HS0, HS1⟩, HR⟩, Hg⟩, Ho, ⟨%d0, H0⟩, ⟨%d1, H1⟩, ⟨%d2, H2⟩, ⟨%d3, H3⟩⟩
      iapply ((kernelRun3_A c (grid3.coords t) _ _ _ _ _ _ _ _ _ _ _ _ (hA0 t h0) (hA1 t h0) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _)
            · unfold owns; iexists _; isplitr
              swap; · iexact HS1
              ipureintro; exact View.read_writes_of_cover _ _ _ _ _ (scover3_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun3_A c (grid3.coords t) _ _ _ _ _ _ _ _ _ _ _ _ (hA0 t h0) (hA1 t h0) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _)
            · unfold owns; iexists _; isplitr
              swap; · iexact HS1
              ipureintro; exact View.read_writes_of_cover _ _ _ _ _ (scover3_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [show (dat3 V c).leavesExact 3 t = owns (c : Thread nD τ) (ms3_3 t) fullShare ((dat3 V c).after 3 t) from by
      unfold Dat.leavesExact; rw [liveAt3_3_B t (hB0 t h0) (hB1 t h0)], after3_3]
    rw [outsAt3_B V c t h0]
    unfold ptB3 out3_B_3 sout3_B_0 sout3_B_1; (try dsimp only)
    rw [PhiS3_castSucc V c t, PhiS3_pos V c _ _ hz]
    iintro ⟨⟨⟨⟨HS0, HS1⟩, HR⟩, Hg⟩, Ho, ⟨%d0, H0⟩, ⟨%d1, H1⟩, ⟨%d2, H2⟩, ⟨%d3, H3⟩⟩
    iapply ((kernelRun3_B c (grid3.coords t) _ _ _ _ _ _ _ _ _ _ _ _ (hB0 t h0) (hB1 t h0) (iblk3 V c 0 t) (iblk3 V c 1 t) (iblk3 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          · unfold owns; iexists _; isplitr
            swap; · iexact HS1
            ipureintro; exact View.read_writes_of_cover _ _ _ _ _ (scover3_B_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _ _ _ _)

/-- What the pipeline demands of the body, met at every grid point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's form back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 112 := N_3; omega)

end Cert.Kernel.Hand

end
-- ==== Proof.KB.RegDownRuns.lean ====
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The down projection (pipeline 4): what its three control cases share

The grid is 2 x 4 x 7, the last coordinate fastest: a point's position modulo 7 is the index of the
2048-wide slab of the contracted axis it multiplies. -/

/-- What window `w` stages at grid point `t`: the block its index map selects from the array as entered. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation window's staging buffer holds its block at every point, whenever the proof data's array is
    the entry contents and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the weight window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body -/

/-- "This is the first slab of the contraction": the body then clears the accumulator. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 7 = 0 :=
  (by decide +kernel : ∀ t : Fin grid4.N, cond4_0 (grid4.coords t) ↔ t.val % 7 = 0)

/-- "This is the last slab": the body then copies the accumulator into the output block. -/
abbrev cond4_1 (i : grid4.Coords) : Prop := k4_cond2 i = 1#1
theorem hcond4_1 : ∀ t : Fin cfg4.N, cond4_1 (grid4.coords t) ↔ t.val % 7 = 6 :=
  (by decide +kernel : ∀ t : Fin grid4.N, cond4_1 (grid4.coords t) ↔ t.val % 7 = 6)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Off the last slab nothing is stored into the output block, and the block is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- On the last slab the output block is stored. -/
theorem liveAt4_2 : ∀ t : Fin cfg4.N, cond4_1 (grid4.coords t) → cfg4.idle 2 (grid4.coords t) = false := by decide +kernel

/-! ## The memrefs the body is called with -/

/-- One staging buffer of the output window: its contents are stated through this view. -/
abbrev VO4_2 : View sig .tc .vmem S1024x1024 .f32 := (Memref.whole cc4_stg2_0 : Memref sig .tc .vmem S1024x1024 .f32).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S1024x1024 .f32 := Memref.whole cc4_scratch0
abbrev VS4_0 : View sig .tc .vmem S1024x1024 .f32 := scM4_0.view

/-- The region invariant with the accumulator split off as an owned memref: the accumulator at some contents,
    every other scoped buffer unopened, the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.KB.RegDownA.lean ====
import proofs.«151961_j22153441312857_2_alg».proof.Proof.KB.RegDownRuns
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE FIRST SLAB of a contraction (the accumulator is cleared, then this slab's products are added): what the
    body's stores leave in the output's staging memref (nothing) and in the accumulator, as pieces, last first,
    with the proof that from whole memrefs — the two inputs at their contents, the output at contents handed back
    untouched, the accumulator at anything — the body runs to a continuation holding the inputs and the output as
    they were and the accumulator with its pieces written. -/
noncomputable def kernelRun4_A (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__down_body i arg3 harg3 arg4 harg4 arg5 harg5 arg6 harg6) K } := by
  refine ⟨[], ?_, fun xi2 E K => ?run⟩
  case run =>
    simp only [cc4__down_body_eq_skeleton]; unfold cc4__down_body_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.RegDownB.lean ====
import proofs.«151961_j22153441312857_2_alg».proof.Proof.KB.RegDownA
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- A MIDDLE SLAB (this slab's products are added onto what the slab before left): the accumulator comes in at
    the contents `xs0`; the output is handed back untouched. -/
noncomputable def kernelRun4_B (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__down_body i arg3 harg3 arg4 harg4 arg5 harg5 arg6 harg6) K } := by
  refine ⟨[], ?_, fun xi2 E K => ?run⟩
  case run =>
    simp only [cc4__down_body_eq_skeleton]; unfold cc4__down_body_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.RegDownC.lean ====
import proofs.«151961_j22153441312857_2_alg».proof.Proof.KB.RegDownB
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE LAST SLAB (its products are added onto what the slab before left, then the accumulator is copied into the
    output block): the accumulator comes in at `xs0`, the output at anything; both end with their pieces written. -/
noncomputable def kernelRun4_C (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__down_body i arg3 harg3 arg4 harg4 arg5 harg5 arg6 harg6) K } := by
  refine ⟨?_, ?_, fun E K => ?run⟩
  case run =>
    simp only [cc4__down_body_eq_skeleton]; unfold cc4__down_body_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.RegDown.lean ====
import proofs.«151961_j22153441312857_2_alg».proof.Proof.KB.RegDownC
import proofs.«151961_j22153441312857_2_alg».proof.Proof.Gen.Kernel.Launch
import proofs.«151961_j22153441312857_2_alg».proof.Proof.Gen.Kernel.Skeleton
import proofs.«151961_j22153441312857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The down projection (pipeline 4): what each point leaves, the proof data, the body obligation -/

/-! ## What each case leaves in the output block and in the accumulator -/

/-- On the first slab nothing is stored into the output block: no pieces, a placeholder nothing consults. -/
def out4_A_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) : Vec F S1024x1024 .f32 :=
  VO4_2.read (Elt F) (VO4_2.writes (Elt F) VO4_2.junk (kernelRun4_A c i arg3 harg3 arg4 harg4 arg5 harg5 arg6 harg6 hc0 hc1 x0 x1).1)

/-- The first slab's stores into the accumulator cover it. -/
theorem scover4_A_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) (y : S1024x1024.Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 S1024x1024.size (by sl_kernel_rfl) y

/-- What the first slab leaves in the accumulator: its pieces read back. -/
def sout4_A_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) : Vec F S1024x1024 .f32 :=
  VS4_0.read (Elt F) (VS4_0.writes (Elt F) VS4_0.junk (kernelRun4_A c i arg3 harg3 arg4 harg4 arg5 harg5 arg6 harg6 hc0 hc1 x0 x1).2.1)

/-- On a middle slab nothing is stored into the output block either. -/
def out4_B_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) : Vec F S1024x1024 .f32 :=
  VO4_2.read (Elt F) (VO4_2.writes (Elt F) VO4_2.junk (kernelRun4_B c i arg3 harg3 arg4 harg4 arg5 harg5 arg6 harg6 hc0 hc1 x0 x1 xs0).1)

theorem scover4_B_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) (y : S1024x1024.Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 S1024x1024.size (by sl_kernel_rfl) y

/-- What a middle slab leaves in the accumulator. -/
def sout4_B_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 hc0 hc1 x0 x1 xs0).2.1)

/-- The last slab's one store into the output block covers it. -/
theorem cover4_C_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) (y : S1024x1024.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S1024x1024.size (by sl_kernel_rfl) y

/-- What the last slab leaves in the output block. -/
def out4_C_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) : Vec F S1024x1024 .f32 :=
  VO4_2.read (Elt F) (VO4_2.writes (Elt F) VO4_2.junk (kernelRun4_C c i arg3 harg3 arg4 harg4 arg5 harg5 arg6 harg6 hc0 hc1 x0 x1 xs0).1)

theorem scover4_C_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) (y : S1024x1024.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S1024x1024.size (by sl_kernel_rfl) y

/-- What the last slab leaves in the accumulator. -/
def sout4_C_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) : Vec F S1024x1024 .f32 :=
  VS4_0.read (Elt F) (VS4_0.writes (Elt F) VS4_0.junk (kernelRun4_C c i arg3 harg3 arg4 harg4 arg5 harg5 arg6 harg6 hc0 hc1 x0 x1 xs0).2.1)

/-! ## The accumulation, point by point -/

/-- What the output window's staging buffer and the accumulator hold after the body at position `n`: the case
    the position's residue modulo 7 selects, run on the point's blocks, the accumulator taken (off the first slab)
    at what position `n - 1` left in it. -/
def outsAt4 (c : Dev nD) : (n : ℕ) → n < cfg4.N → Vec F S1024x1024 .f32 × Vec F S1024x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 7 = 0 then
      if h1 : (n + 1) % 7 = 6 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 7 = 6 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- At a first slab. -/
theorem outsAt4_A (c : Dev nD) (t : Fin cfg4.N) (h0 : t.val % 7 = 0) (h1 : ¬t.val % 7 = 6) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- At a middle slab: over what the point before left. -/
theorem outsAt4_B (c : Dev nD) (t : Fin cfg4.N) (h0 : ¬t.val % 7 = 0) (h1 : ¬t.val % 7 = 6) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last slab: over what the point before left. -/
theorem outsAt4_C (c : Dev nD) (t : Fin cfg4.N) (h0 : ¬t.val % 7 = 0) (h1 : t.val % 7 = 6) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class's invariant; afterwards the accumulator at what the point before
    left in it, beside every other scoped buffer unopened and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- Region 4 on core `c`.  Its arrays start at the entry contents; once the body has run at a point, each input buffer
    still shows its block and the output buffer shows the first component of `outsAt4`; between points the invariant is
    `PhiS4`; the core owes nothing and holds every array whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the position's residue modulo 7 says which case
    the point is in; the invariant hands the body the accumulator at what the point before left (at anything at the
    very first point), and takes it back at this point's contents, its stores covering it; off the last slab the
    output's buffer passes through untouched, on the last slab it is taken at anything and returned covered. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 56 := lt_of_lt_of_eq t.isLt (show cfg4.N = 56 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 7 = 0
  · by_cases h1 : t.val % 7 = 6
    · exfalso; omega
    · rw [Dat.leavesExact_idle (dat4 V c) 2 t (idleAt4_2 t (fun h => h1 ((hcond4_1 t).mp h))) (noFlush4_2 t (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun hz => h0 (by rw [hz])
    by_cases h1 : t.val % 7 = 6
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _)
          iexact HR
        iexact Hg
      isplitl [Ho]; · iexact Ho
      isplitl [H0]; · iexact H0
      isplitl [H1]; · iexact H1
      iexists _; iexact H2

/-- What the pipeline demands of the body, met at every grid point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 56 := N_4; omega)

end Cert.Kernel.Hand

end
-- ==== Proof.KB.Run.lean ====
/-
  The run of the whole program as a chain of its eight items — three stretches of host operations and five kernel
  regions — with the contents of every unscoped buffer NAMED at each boundary: the launch memory, then each host stretch
  applied, then each region's output array replaced by what that region's write-backs leave.  From the one run both
  conclusions are read: every argument array ends as launched, and the result buffer ends at the last stretch's
  reshape of region 4's output.
-/
import proofs.«151961_j22153441312857_2_alg».proof.Proof.KB.RegDequant
import proofs.«151961_j22153441312857_2_alg».proof.Proof.KB.RegGated
import proofs.«151961_j22153441312857_2_alg».proof.Proof.KB.RegDown
import proofs.«151961_j22153441312857_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- What core `c` holds in its unscoped buffers when the program starts. -/
abbrev W0 (c : Dev nD) : Valuation τ sig (Elt F) := fun b => m (c, b)
/-- After the first host stretch (the input's two leading axes merged, then rounded to the matmuls' operand format). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After region 0: its windows' arrays at what the pipeline's write-backs leave, every other buffer as it was. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- These contents, indexed by the TensorCore's own references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its windows' arrays at what the pipeline's write-backs leave, every other buffer as it was. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- These contents, indexed by the TensorCore's own references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (the third weight's scales transposed). -/
abbrev W4 (c : Dev nD) : Valuation τ sig (Elt F) := StableHlo.after hostOps2 (W3 m c)
abbrev V4 : (c : Dev nD) → (b : Ref sig .tc) → Buf (Elt F) ((c : Thread nD τ).loc b) := fun c b => W4 m c b

/-- After region 2: its windows' arrays at what the pipeline's write-backs leave, every other buffer as it was. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- These contents, indexed by the TensorCore's own references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After region 3: its windows' arrays at what the pipeline's write-backs leave, every other buffer as it was. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- These contents, indexed by the TensorCore's own references. -/
abbrev V6 : (c : Dev nD) → (b : Ref sig .tc) → Buf (Elt F) ((c : Thread nD τ).loc b) := fun c b => W6 m c b
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-- After region 4: its windows' arrays at what the pipeline's write-backs leave, every other buffer as it was. -/
def W7 (c : Dev nD) : Valuation τ sig (Elt F) :=
  Pipeline.withArrays spec4 c (W6 m c) fun w => (dat4 (V6 m) c).arrAt w cfg4.N
theorem W7_arr (c : Dev nD) (w : Fin cfg4.W) :
    W7 m c (Proc.devRef .tc (Pipeline.arrRef spec4 w)) = (dat4 (V6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
/-- These contents, indexed by the TensorCore's own references. -/
abbrev V7 : (c : Dev nD) → (b : Ref sig .tc) → Buf (Elt F) ((c : Thread nD τ).loc b) := fun c b => W7 m c b
theorem hF4 (c : Dev nD) (w : Fin cfg4.W) : (dat4 (V6 m) c).arrAt w cfg4.N = V7 m c (Pipeline.arrRef spec4 w) :=
  (W7_arr m c w).symm
theorem hrest4 (c : Dev nD) : ∀ b, b ∉ Finset.univ.image (Pipeline.arrRef spec4) → V7 m c b = V6 m c b :=
  fun b hb => W7_of_ne m c b fun w e => hb (Finset.mem_image.mpr ⟨w, Finset.mem_univ _, e⟩)

/-- After the last host stretch (the result split back into its two leading axes). -/
abbrev W8 (c : Dev nD) : Valuation τ sig (Elt F) := StableHlo.after hostOps5 (W7 m c)

/-! ## A host stretch changes only what it writes; a region only its output array -/

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h
theorem W8_of (c : Dev nD) (r : Ref sig .tc) (h : r ∉ hostOps5_W) : W8 m c r = W7 m c r :=
  StableHlo.after_of_writes_sub hostOps5 _ hostOps5_writes h
/-- An input window's array is handed back as it was found. -/
theorem W2_in (c : Dev nD) (w : Fin cfg0.W) (hw : (cfg0.win w).isOut = false) : W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

theorem W3_in (c : Dev nD) (w : Fin cfg1.W) (hw : (cfg1.win w).isOut = false) : W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))
theorem W5_in (c : Dev nD) (w : Fin cfg2.W) (hw : (cfg2.win w).isOut = false) : W5 m c (Proc.devRef .tc (Pipeline.arrRef spec2 w)) = W4 m c (Proc.devRef .tc (Pipeline.arrRef spec2 w)) :=
  (W5_arr m c w).trans (((dat2 (V4 m) c).arrAt_in w hw _).trans (A_eq2 (V4 m) c w))
theorem W6_in (c : Dev nD) (w : Fin cfg3.W) (hw : (cfg3.win w).isOut = false) : W6 m c (Proc.devRef .tc (Pipeline.arrRef spec3 w)) = W5 m c (Proc.devRef .tc (Pipeline.arrRef spec3 w)) :=
  (W6_arr m c w).trans (((dat3 (V5 m) c).arrAt_in w hw _).trans (A_eq3 (V5 m) c w))
theorem W7_in (c : Dev nD) (w : Fin cfg4.W) (hw : (cfg4.win w).isOut = false) : W7 m c (Proc.devRef .tc (Pipeline.arrRef spec4 w)) = W6 m c (Proc.devRef .tc (Pipeline.arrRef spec4 w)) :=
  (W7_arr m c w).trans (((dat4 (V6 m) c).arrAt_in w hw _).trans (A_eq4 (V6 m) c w))

/-! ## The proof data of the five pipelines, each at its region's entry contents -/

/-- None of the five kernels prefetches a table. -/
abbrev adm : (p : Fin 5) → (pcfgs (F := F) p).Adm := fun p => (cfgs p).toPCfg_adm
/-- The five regions' proof data, chosen by the region's number. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V5 m) c
  | ⟨4, _⟩ => fun c => dat4 (V6 m) c
abbrev 𝒱₀ : Variants := Variants.none
/-- Nothing is ever owed between cores here. -/
abbrev L : GSem nD τ sig → Finset Unit := fun _ => ∅
abbrev lv : GSem nD τ sig → Unit → ℕ := fun _ _ => 0
/-- Besides the buffers, every boundary carries the generator register in an unknown state and an empty debt. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Region 0 as a segment: entered with every unscoped buffer at `W1`, left with them at `W2`.  Its windows' arrays are
    split out of the unscoped buffers on entry and put back, at what the write-backs left, on exit; the generator register
    goes into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`.  Its windows' arrays are
    split out of the unscoped buffers on entry and put back, at what the write-backs left, on exit; the generator register
    goes into the kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`.  Its windows' arrays are
    split out of the unscoped buffers on entry and put back, at what the write-backs left, on exit; the generator register
    goes into the kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W5`, left with them at `W6`.  Its windows' arrays are
    split out of the unscoped buffers on entry and put back, at what the write-backs left, on exit; the generator register
    goes into the kernel's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m) c)
    unfold Pipeline.ΦA
    iintro ⟨Hp, -, Hr⟩
    isplitl [Hr]; · iexact Hr
    iexact Hp
  hout c := by
    rw [Pipeline.ownSems0_none]
    refine BIBase.Entails.trans (hout3 (V5 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W6`, left with them at `W7`.  Its windows' arrays are
    split out of the unscoped buffers on entry and put back, at what the write-backs left, on exit; the generator register
    goes into the kernel's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m) c).loose
  hwaits := Pipeline.hwaits_of_owed_zero _ _ _ _ L lv 4 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec4 c (V6 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V6 m) c)
    unfold Pipeline.ΦA
    iintro ⟨Hp, -, Hr⟩
    isplitl [Hr]; · iexact Hr
    iexact Hp
  hout c := by
    rw [Pipeline.ownSems0_none]
    refine BIBase.Entails.trans (hout4 (V6 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V6 m c) (V7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments end as launched -/

/-- `main_arg0` reaches the end as launched: no host operation writes it, and a region hands an input window's array back as found. -/
theorem W8_main_arg0 (c : Dev nD) : W8 m c (Proc.devRef .tc main_arg0) = m ((c : Thread nD τ).loc main_arg0) :=
  (W8_of m c main_arg0 (by decide)).trans <| (W7_of_ne m c main_arg0 (by decide)).trans <| (W6_of_ne m c main_arg0 (by decide)).trans <| (W5_of_ne m c main_arg0 (by decide)).trans <| (W4_of m c main_arg0 (by decide)).trans <| (W3_of_ne m c main_arg0 (by decide)).trans <| (W2_of_ne m c main_arg0 (by decide)).trans <| (W1_of m c main_arg0 (by decide)).trans <| rfl
/-- `main_arg1` reaches the end as launched: no host operation writes it, and a region hands an input window's array back as found. -/
theorem W8_main_arg1 (c : Dev nD) : W8 m c (Proc.devRef .tc main_arg1) = m ((c : Thread nD τ).loc main_arg1) :=
  (W8_of m c main_arg1 (by decide)).trans <| (W7_of_ne m c main_arg1 (by decide)).trans <| (W6_of_ne m c main_arg1 (by decide)).trans <| (W5_of_ne m c main_arg1 (by decide)).trans <| (W4_of m c main_arg1 (by decide)).trans <| (W3_of_ne m c main_arg1 (by decide)).trans <| (W2_in m c 0 rfl).trans <| (W1_of m c main_arg1 (by decide)).trans <| rfl
/-- `main_arg2` reaches the end as launched: no host operation writes it, and a region hands an input window's array back as found. -/
theorem W8_main_arg2 (c : Dev nD) : W8 m c (Proc.devRef .tc main_arg2) = m ((c : Thread nD τ).loc main_arg2) :=
  (W8_of m c main_arg2 (by decide)).trans <| (W7_of_ne m c main_arg2 (by decide)).trans <| (W6_of_ne m c main_arg2 (by decide)).trans <| (W5_of_ne m c main_arg2 (by decide)).trans <| (W4_of m c main_arg2 (by decide)).trans <| (W3_of_ne m c main_arg2 (by decide)).trans <| (W2_in m c 1 rfl).trans <| (W1_of m c main_arg2 (by decide)).trans <| rfl
/-- `main_arg3` reaches the end as launched: no host operation writes it, and a region hands an input window's array back as found. -/
theorem W8_main_arg3 (c : Dev nD) : W8 m c (Proc.devRef .tc main_arg3) = m ((c : Thread nD τ).loc main_arg3) :=
  (W8_of m c main_arg3 (by decide)).trans <| (W7_of_ne m c main_arg3 (by decide)).trans <| (W6_of_ne m c main_arg3 (by decide)).trans <| (W5_of_ne m c main_arg3 (by decide)).trans <| (W4_of m c main_arg3 (by decide)).trans <| (W3_in m c 0 rfl).trans <| (W2_of_ne m c main_arg3 (by decide)).trans <| (W1_of m c main_arg3 (by decide)).trans <| rfl
/-- `main_arg4` reaches the end as launched: no host operation writes it, and a region hands an input window's array back as found. -/
theorem W8_main_arg4 (c : Dev nD) : W8 m c (Proc.devRef .tc main_arg4) = m ((c : Thread nD τ).loc main_arg4) :=
  (W8_of m c main_arg4 (by decide)).trans <| (W7_of_ne m c main_arg4 (by decide)).trans <| (W6_of_ne m c main_arg4 (by decide)).trans <| (W5_of_ne m c main_arg4 (by decide)).trans <| (W4_of m c main_arg4 (by decide)).trans <| (W3_in m c 1 rfl).trans <| (W2_of_ne m c main_arg4 (by decide)).trans <| (W1_of m c main_arg4 (by decide)).trans <| rfl
/-- `main_arg5` reaches the end as launched: no host operation writes it, and a region hands an input window's array back as found. -/
theorem W8_main_arg5 (c : Dev nD) : W8 m c (Proc.devRef .tc main_arg5) = m ((c : Thread nD τ).loc main_arg5) :=
  (W8_of m c main_arg5 (by decide)).trans <| (W7_of_ne m c main_arg5 (by decide)).trans <| (W6_of_ne m c main_arg5 (by decide)).trans <| (W5_in m c 0 rfl).trans <| (W4_of m c main_arg5 (by decide)).trans <| (W3_of_ne m c main_arg5 (by decide)).trans <| (W2_of_ne m c main_arg5 (by decide)).trans <| (W1_of m c main_arg5 (by decide)).trans <| rfl
/-- `main_arg6` reaches the end as launched: no host operation writes it, and a region hands an input window's array back as found. -/
theorem W8_main_arg6 (c : Dev nD) : W8 m c (Proc.devRef .tc main_arg6) = m ((c : Thread nD τ).loc main_arg6) :=
  (W8_of m c main_arg6 (by decide)).trans <| (W7_of_ne m c main_arg6 (by decide)).trans <| (W6_of_ne m c main_arg6 (by decide)).trans <| (W5_of_ne m c main_arg6 (by decide)).trans <| (W4_of m c main_arg6 (by decide)).trans <| (W3_of_ne m c main_arg6 (by decide)).trans <| (W2_of_ne m c main_arg6 (by decide)).trans <| (W1_of m c main_arg6 (by decide)).trans <| rfl

/-! ## @main as segments, and the run -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .region (reg4 m),
    .host (hseg hostOps5 hostOps5_sub hostOps5_fresh (W7 m)) ]
/-- @main is the run of these segments. -/
theorem main_run (c : Dev nD) : main (F := F) c = Pipeline.Seg.run (segs m) := (main_chain c).trans (by chain_rfl)

/-- Each unscoped reference of the TensorCore is one of those whose final contents the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of @main on the TensorCores terminates, nothing
    faulting, and in every final state each unscoped buffer holds the last boundary's contents `W8`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W8 m c) ∗ R c)
          ⊢ iprop((StableHlo.held (c : Thread nD τ) (Pipeline.ucRefs τ sig) (W8 m c) ∗ ∃ r, prngReg c r) ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run m ρ)

end Cert.Kernel.Hand

end
-- ==== Proof.KI.RegDequant0.lean ====
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the block-scaled first up-projection weight, tile by tile

Each grid point multiplies one row band of the weight by the matching band of per-tile scales and rounds the
product to bf16. Everything below is stated at the buffer contents `V` the region starts from. -/

/-- The block of window `w` the grid point `t` works on, cut out of the window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight band is in its staging buffer whenever the body starts: a fetch puts it there, and without a fetch the
    band index has not moved and the body left the previous copy alone. True of any proof data over `V`'s array whose
    body keeps the band. -/
theorem in0_0_block_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the band of scales. -/
theorem in0_1_block_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole weight band (also the whole output band), and the whole band of scales, as rectangles. -/
abbrev full0_w : Rect S1024x4096 := Rect.unit (s := S1024x4096) ![0, 0] S1024x4096.size inb_S1024x4096_S1024x4096_0_0
abbrev full0_s : Rect S8x32 := Rect.unit (s := S8x32) ![0, 0] S8x32.size inb_S8x32_S8x32_0_0

/-- What the body leaves in the output band: its single store, of the scaled and rounded product of the two bands
    it loaded, laid over the whole buffer. -/
def out0_2 (x0 : Vec F S1024x4096 .f32) (x1 : Vec F S8x32 .f32) : Vec F S1024x4096 .bf16 :=
  View.canon [⟨full0_w, k0_pay1 (View.ld x0 full0_w) (View.ld x1 full0_s)⟩]

/-- That one store is the whole band, so no output entry is left unwritten. -/
theorem store0_covers (p0 : Vec F S1024x4096 .bf16) (y : S1024x4096.Idx) :
    ∃ pc ∈ ([⟨full0_w, p0⟩] : List (View.Piece (Elt F) S1024x4096 .bf16)), y ∈ pc.1.set :=
  View.cover_of_tiled [⟨full0_w, p0⟩] S1024x4096.size (by rfl) y

set_option maxHeartbeats 1000000 in
/-- The body on three whole staging buffers: with the weight band `x0` and the scales `x1` in the first two and anything
    in the third, it ends with the first two untouched and the third holding `out0_2 x0 x1`. -/
theorem kernel0_triple (c : Dev nD) (E : Set ℕ) (i : grid0.Coords) (arg1 : Memref sig .tc .vmem S1024x4096 .f32) (harg1 : arg1.IsWhole)
    (arg2 : Memref sig .tc .vmem S8x32 .f32) (harg2 : arg2.IsWhole) (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_body i arg1 harg1 arg2 harg2 arg3 harg3) K := by
  simp only [cc0__dequant_body_eq_skeleton]; unfold cc0__dequant_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store0_covers _)

/-- The proof data of this pipeline on core `c`: the arrays are `V`'s; the body leaves each input band as it was and
    the output band at `out0_2` of the two; the rest of the core's state rides through unchanged; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Both input bands are in place when the body starts. -/
theorem in0_0_block (c : Dev nD) (t : Fin cfg0.N) (d) : (dat0 V c).before 0 t d = iblk0 V c 0 t :=
  in0_0_block_of V (dat0 V c) (A_eq0 V c 0) (after0_0 V c) t d
theorem in0_1_block (c : Dev nD) (t : Fin cfg0.N) (d) : (dat0 V c).before 1 t d = iblk0 V c 1 t :=
  in0_1_block_of V (dat0 V c) (A_eq0 V c 1) (after0_1 V c) t d

/-- What the body is started with at point `t`, window by window, -/
def entry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must hand back. -/
def exit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two staging buffers hold the input bands, so `kernel0_triple` applies; the invariant
    and the debt are not looked at. -/
theorem body0_triple (c : Dev nD) (t : Fin cfg0.N) :
    entry0 V c t ⊢ wp frame (wpE (defs₀ (F := F)) Variants.none c none) Set.univ (bodyAt0 t) (fun _ => exit0 V c t) := by
  unfold entry0 exit0 bodyAt0
  simp only [in0_0_block, in0_1_block]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (kernel0_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact body0_triple V c t

end Cert.KernelIdeal.Hand

end
-- ==== Proof.KI.RegDequant1.lean ====
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the block-scaled second up-projection weight, tile by tile

Each grid point multiplies one row band of the weight by the matching band of per-tile scales and rounds the
product to bf16. Everything below is stated at the buffer contents `V` the region starts from. -/

/-- The block of window `w` the grid point `t` works on, cut out of the window's array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight band is in its staging buffer whenever the body starts: a fetch puts it there, and without a fetch the
    band index has not moved and the body left the previous copy alone. True of any proof data over `V`'s array whose
    body keeps the band. -/
theorem in1_0_block_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the band of scales. -/
theorem in1_1_block_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole weight band (also the whole output band), and the whole band of scales, as rectangles. -/
abbrev full1_w : Rect S1024x4096 := Rect.unit (s := S1024x4096) ![0, 0] S1024x4096.size inb_S1024x4096_S1024x4096_0_0
abbrev full1_s : Rect S8x32 := Rect.unit (s := S8x32) ![0, 0] S8x32.size inb_S8x32_S8x32_0_0

/-- What the body leaves in the output band: its single store, of the scaled and rounded product of the two bands
    it loaded, laid over the whole buffer. -/
def out1_2 (x0 : Vec F S1024x4096 .f32) (x1 : Vec F S8x32 .f32) : Vec F S1024x4096 .bf16 :=
  View.canon [⟨full1_w, k1_pay1 (View.ld x0 full1_w) (View.ld x1 full1_s)⟩]

/-- That one store is the whole band, so no output entry is left unwritten. -/
theorem store1_covers (p0 : Vec F S1024x4096 .bf16) (y : S1024x4096.Idx) :
    ∃ pc ∈ ([⟨full1_w, p0⟩] : List (View.Piece (Elt F) S1024x4096 .bf16)), y ∈ pc.1.set :=
  View.cover_of_tiled [⟨full1_w, p0⟩] S1024x4096.size (by rfl) y

set_option maxHeartbeats 1000000 in
/-- The body on three whole staging buffers: with the weight band `x0` and the scales `x1` in the first two and anything
    in the third, it ends with the first two untouched and the third holding `out1_2 x0 x1`. -/
theorem kernel1_triple (c : Dev nD) (E : Set ℕ) (i : grid1.Coords) (arg1 : Memref sig .tc .vmem S1024x4096 .f32) (harg1 : arg1.IsWhole)
    (arg2 : Memref sig .tc .vmem S8x32 .f32) (harg2 : arg2.IsWhole) (arg3 : Memref sig .tc .vmem S1024x4096 .bf16) (harg3 : arg3.IsWhole)
    (x0 : Vec F S1024x4096 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dequant_body i arg1 harg1 arg2 harg2 arg3 harg3) K := by
  simp only [cc1__dequant_body_eq_skeleton]; unfold cc1__dequant_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store1_covers _)

/-- The proof data of this pipeline on core `c`: the arrays are `V`'s; the body leaves each input band as it was and
    the output band at `out1_2` of the two; the rest of the core's state rides through unchanged; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Both input bands are in place when the body starts. -/
theorem in1_0_block (c : Dev nD) (t : Fin cfg1.N) (d) : (dat1 V c).before 0 t d = iblk1 V c 0 t :=
  in1_0_block_of V (dat1 V c) (A_eq1 V c 0) (after1_0 V c) t d
theorem in1_1_block (c : Dev nD) (t : Fin cfg1.N) (d) : (dat1 V c).before 1 t d = iblk1 V c 1 t :=
  in1_1_block_of V (dat1 V c) (A_eq1 V c 1) (after1_1 V c) t d

/-- What the body is started with at point `t`, window by window, -/
def entry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must hand back. -/
def exit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two staging buffers hold the input bands, so `kernel1_triple` applies; the invariant
    and the debt are not looked at. -/
theorem body1_triple (c : Dev nD) (t : Fin cfg1.N) :
    entry1 V c t ⊢ wp frame (wpE (defs₀ (F := F)) Variants.none c none) Set.univ (bodyAt1 t) (fun _ => exit1 V c t) := by
  unfold entry1 exit1 bodyAt1
  simp only [in1_0_block, in1_1_block]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (kernel1_triple c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact body1_triple V c t

end Cert.KernelIdeal.Hand

end
-- ==== Proof.KI.RegDequant2.lean ====
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the block-scaled down-projection weight, tile by tile

Each grid point multiplies one row band of the weight by the matching band of per-tile scales and rounds the
product to bf16. Everything below is stated at the buffer contents `V` the region starts from. -/

/-- The block of window `w` the grid point `t` works on, cut out of the window's array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight band is in its staging buffer whenever the body starts: a fetch puts it there, and without a fetch the
    band index has not moved and the body left the previous copy alone. True of any proof data over `V`'s array whose
    body keeps the band. -/
theorem in2_0_block_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the band of scales. -/
theorem in2_1_block_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole weight band (also the whole output band), and the whole band of scales, as rectangles. -/
abbrev full2_w : Rect S4096x1024 := Rect.unit (s := S4096x1024) ![0, 0] S4096x1024.size inb_S4096x1024_S4096x1024_0_0
abbrev full2_s : Rect S8x32 := Rect.unit (s := S8x32) ![0, 0] S8x32.size inb_S8x32_S8x32_0_0

/-- What the body leaves in the output band: its single store, of the scaled and rounded product of the two bands
    it loaded, laid over the whole buffer. -/
def out2_2 (x0 : Vec F S4096x1024 .f32) (x1 : Vec F S8x32 .f32) : Vec F S4096x1024 .bf16 :=
  View.canon [⟨full2_w, k2_pay1 (View.ld x0 full2_w) (View.ld x1 full2_s)⟩]

/-- That one store is the whole band, so no output entry is left unwritten. -/
theorem store2_covers (p0 : Vec F S4096x1024 .bf16) (y : S4096x1024.Idx) :
    ∃ pc ∈ ([⟨full2_w, p0⟩] : List (View.Piece (Elt F) S4096x1024 .bf16)), y ∈ pc.1.set :=
  View.cover_of_tiled [⟨full2_w, p0⟩] S4096x1024.size (by rfl) y

set_option maxHeartbeats 1000000 in
/-- The body on three whole staging buffers: with the weight band `x0` and the scales `x1` in the first two and anything
    in the third, it ends with the first two untouched and the third holding `out2_2 x0 x1`. -/
theorem kernel2_triple (c : Dev nD) (E : Set ℕ) (i : grid2.Coords) (arg1 : Memref sig .tc .vmem S4096x1024 .f32) (harg1 : arg1.IsWhole)
    (arg2 : Memref sig .tc .vmem S8x32 .f32) (harg2 : arg2.IsWhole) (arg3 : Memref sig .tc .vmem S4096x1024 .bf16) (harg3 : arg3.IsWhole)
    (x0 : Vec F S4096x1024 .f32) (x1 : Vec F S8x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dequant_body i arg1 harg1 arg2 harg2 arg3 harg3) K := by
  simp only [cc2__dequant_body_eq_skeleton]; unfold cc2__dequant_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store2_covers _)

/-- The proof data of this pipeline on core `c`: the arrays are `V`'s; the body leaves each input band as it was and
    the output band at `out2_2` of the two; the rest of the core's state rides through unchanged; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Both input bands are in place when the body starts. -/
theorem in2_0_block (c : Dev nD) (t : Fin cfg2.N) (d) : (dat2 V c).before 0 t d = iblk2 V c 0 t :=
  in2_0_block_of V (dat2 V c) (A_eq2 V c 0) (after2_0 V c) t d
theorem in2_1_block (c : Dev nD) (t : Fin cfg2.N) (d) : (dat2 V c).before 1 t d = iblk2 V c 1 t :=
  in2_1_block_of V (dat2 V c) (A_eq2 V c 1) (after2_1 V c) t d

/-- What the body is started with at point `t`, window by window, -/
def entry2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it must hand back. -/
def exit2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two staging buffers hold the input bands, so `kernel2_triple` applies; the invariant
    and the debt are not looked at. -/
theorem body2_triple (c : Dev nD) (t : Fin cfg2.N) :
    entry2 V c t ⊢ wp frame (wpE (defs₀ (F := F)) Variants.none c none) Set.univ (bodyAt2 t) (fun _ => exit2 V c t) := by
  unfold entry2 exit2 bodyAt2
  simp only [in2_0_block, in2_1_block]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel2_triple c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact body2_triple V c t

end Cert.KernelIdeal.Hand

end
-- ==== Proof.KI.RegDequant.lean ====
import proofs.«151961_j22153441312857_2_alg».proof.Proof.KI.RegDequant0
import proofs.«151961_j22153441312857_2_alg».proof.Proof.KI.RegDequant1
import proofs.«151961_j22153441312857_2_alg».proof.Proof.KI.RegDequant2

/-! The three block-scaled weight regions, gathered. -/
-- ==== Proof.KI.RegGatedRuns.lean ====
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gate/up product region: what its two control cases share -/

/-! ## The windows' blocks -/

/-- What window `w` stages at grid point `t`: the block its index map selects from the array as entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation window's current buffer holds its block at every point, whether or not the point fetched it:
    when the block index does not move the block is the same one. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the gate weight's window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for the up weight's window. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- "This is the first step along the contracted axis": the test guarding the zeroing of both accumulators. -/
abbrev cond3_0 (i : grid3.Coords) : Prop := (Scalar.cmpi .ne (Scalar.extui (Scalar.cmpi .eq (BitVec.ofNat 32 (i 2).val) 0#32)) 0#32) = 1#1
/-- The contracted axis is innermost and has two steps, so the first step is the even positions. -/
theorem hcond3_0 : ∀ t : Fin cfg3.N, cond3_0 (grid3.coords t) ↔ t.val % 2 = 0 :=
  (by decide +kernel : ∀ t : Fin grid3.N, cond3_0 (grid3.coords t) ↔ t.val % 2 = 0)

/-- "This is the last step along the contracted axis": the test guarding the activation and the output store. -/
abbrev cond3_1 (i : grid3.Coords) : Prop := k3_cond2 i = 1#1
/-- The last step is the odd positions. -/
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- On a first step nothing is stored to the output block, -/
theorem idleAt3_3_A : ∀ t : Fin cfg3.N, cond3_0 (grid3.coords t) → ¬cond3_1 (grid3.coords t) → cfg3.idle 3 (grid3.coords t) = true := by decide +kernel
/-- and the block is not written back there. -/
theorem noFlush3_3_A : ∀ t : Fin cfg3.N, cond3_0 (grid3.coords t) → ¬cond3_1 (grid3.coords t) → (cfg3.win 3).flush t = false := by decide +kernel
/-- On a last step the output block is stored. -/
theorem liveAt3_3_B : ∀ t : Fin cfg3.N, ¬cond3_0 (grid3.coords t) → cond3_1 (grid3.coords t) → cfg3.idle 3 (grid3.coords t) = false := by decide +kernel

/-! ## The memrefs the body is called on -/

/-- One staging buffer of the output window, through which contents of the block are stated. -/
abbrev VO3_3 : View sig .tc .vmem S512x1024 .bf16 := (Memref.whole cc3_stg3_0 : Memref sig .tc .vmem S512x1024 .bf16).view
abbrev ms3_0 (t : Fin cfg3.N) : Memref sig .tc .vmem S512x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .bf16 := win3_3.stage (cfg3.slots t 3)
abbrev hs3_3 (t : Fin cfg3.N) : (ms3_3 t).IsWhole := hstage3_3 ((cfg3.slots t 3).cast nbuf3_3)
/-- The gate accumulator and the up accumulator: whole scoped buffers, the same at every point. -/
abbrev scM3_0 : Memref sig .tc .vmem S512x1024 .f32 := Memref.whole cc3_scratch0
abbrev scM3_1 : Memref sig .tc .vmem S512x1024 .f32 := Memref.whole cc3_scratch1
abbrev VS3_0 : View sig .tc .vmem S512x1024 .f32 := scM3_0.view
abbrev VS3_1 : View sig .tc .vmem S512x1024 .f32 := scM3_1.view

/-- The core's scoped buffers other than this call's staging buffers and its two accumulators, each at some contents:
    never opened here. -/
abbrev Rest3 (c : Dev nD) : sProp 𝕄 :=
  Pipeline.scopedRestBut (Ix := Unit) (Name := ℕ) (U := UR sig nD τ) (Lvl := ℕ) (Val := Elt F) spec3 c [cc3_scratch0, cc3_scratch1]

/-- The region's entry invariant with the two accumulators taken out of the scoped rest, each owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Rest3 c) ∗ (∃ r, prngReg c r)) := by
  unfold Pipeline.ΦA
  rw [Pipeline.scopedRest_split_of_list spec3 c [cc3_scratch0, cc3_scratch1] (by decide) (by decide)]
  simp only [scM3_0, scM3_1, owns_whole, bigSepL_cons_cons, bigSepL_singleton]
  try rfl

end Cert.KernelIdeal.Hand

end
-- ==== Proof.KI.RegGatedA.lean ====
import proofs.«151961_j22153441312857_2_alg».proof.Proof.KI.RegGatedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body on a FIRST step of the contracted axis -/

set_option maxHeartbeats 4000000 in
/-- On a first step (the zeroing branch taken, the output branch not taken) the body, run on whole memrefs — the
    three inputs at contents `x0 x1 x2`, the output buffer at contents `xi3` it never touches, both accumulators at
    anything —, reaches its continuation with the inputs and the output buffer as they were and each accumulator
    holding the recorded stores (last first). The recorded stores are the witness of the existence claim. -/
noncomputable def kernelRun3_A (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i)
    (x0 : Vec F S512x2048 .bf16) (x1 : Vec F S1024x2048 .bf16) (x2 : Vec F S1024x2048 .bf16) :
    Σ' (L3 : List (View.Piece (Elt F) S512x1024 .bf16)) (LS0 : List (View.Piece (Elt F) S512x1024 .f32)), { LS1 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__gated_body i arg3 harg3 arg4 harg4 arg5 harg5 arg6 harg6 arg7 harg7 arg8 harg8) K } := by
  refine ⟨[], ?_, ?_, fun xi3 E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.RegGatedB.lean ====
import proofs.«151961_j22153441312857_2_alg».proof.Proof.KI.RegGatedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body on a LAST step of the contracted axis -/

set_option maxHeartbeats 4000000 in
/-- On a last step (the zeroing branch not taken, the output branch taken) the body, run on whole memrefs — the three
    inputs at contents `x0 x1 x2`, the output buffer at anything, the accumulators at the contents `xs0 xs1` the step
    before left —, reaches its continuation with the inputs as they were and the output buffer and each accumulator
    holding the recorded stores (last first). The recorded stores are the witness of the existence claim. -/
noncomputable def kernelRun3_B (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i)
    (x0 : Vec F S512x2048 .bf16) (x1 : Vec F S1024x2048 .bf16) (x2 : Vec F S1024x2048 .bf16) (xs0 : Vec F S512x1024 .f32) (xs1 : Vec F S512x1024 .f32) :
    Σ' (L3 : List (View.Piece (Elt F) S512x1024 .bf16)) (LS0 : List (View.Piece (Elt F) S512x1024 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__gated_body i arg3 harg3 arg4 harg4 arg5 harg5 arg6 harg6 arg7 harg7 arg8 harg8) K } := by
  refine ⟨?_, ?_, ?_, fun E K => ?run⟩
  case run =>
    simp only [cc3__gated_body_eq_skeleton]; unfold cc3__gated_body_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KI.RegGated.lean ====
import proofs.«151961_j22153441312857_2_alg».proof.Proof.KI.RegGatedA
import proofs.«151961_j22153441312857_2_alg».proof.Proof.KI.RegGatedB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The gate/up product region: contents point by point, proof data, body obligation -/

/-! ## What each case leaves -/

/-- A first step stores nothing to the output block: a placeholder nothing reads (the block is neither written back
    at such a point nor read at the next). -/
def out3_A_3 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) : Vec F S512x1024 .bf16 :=
  VO3_3.read (Elt F) (VO3_3.writes (Elt F) VO3_3.junk (kernelRun3_A c i arg3 harg3 arg4 harg4 arg5 harg5 arg6 harg6 arg7 harg7 arg8 harg8 hc0 hc1 x0 x1 x2).1)

/-- On a first step the stores to the gate accumulator cover it, -/
theorem scover3_A_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) (y : S512x1024.Idx) :
    ∃ pc ∈ (kernelRun3_A c i arg3 harg3 arg4 harg4 arg5 harg5 arg6 harg6 arg7 harg7 arg8 harg8 hc0 hc1 x0 x1 x2).2.1, y ∈ pc.1.set :=
  View.cover_of_tiledL (kernelRun3_A c i arg3 harg3 arg4 harg4 arg5 harg5 arg6 harg6 arg7 harg7 arg8 harg8 hc0 hc1 x0 x1 x2).2.1 S512x1024.size (by sl_kernel_rfl) y

/-- so it ends holding them read back. -/
def sout3_A_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) : Vec F S512x1024 .f32 :=
  VS3_0.read (Elt F) (VS3_0.writes (Elt F) VS3_0.junk (kernelRun3_A c i arg3 harg3 arg4 harg4 arg5 harg5 arg6 harg6 arg7 harg7 arg8 harg8 hc0 hc1 x0 x1 x2).2.1)

/-- The same for the up accumulator. -/
theorem scover3_A_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) (y : S512x1024.Idx) :
    ∃ pc ∈ (kernelRun3_A c i arg3 harg3 arg4 harg4 arg5 harg5 arg6 harg6 arg7 harg7 arg8 harg8 hc0 hc1 x0 x1 x2).2.2.1, y ∈ pc.1.set :=
  View.cover_of_tiledL (kernelRun3_A c i arg3 harg3 arg4 harg4 arg5 harg5 arg6 harg6 arg7 harg7 arg8 harg8 hc0 hc1 x0 x1 x2).2.2.1 S512x1024.size (by sl_kernel_rfl) y

def sout3_A_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) : Vec F S512x1024 .f32 :=
  VS3_1.read (Elt F) (VS3_1.writes (Elt F) VS3_1.junk (kernelRun3_A c i arg3 harg3 arg4 harg4 arg5 harg5 arg6 harg6 arg7 harg7 arg8 harg8 hc0 hc1 x0 x1 x2).2.2.1)

/-- On a last step the one store to the output block covers it, -/
theorem cover3_B_3 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) (y : S512x1024.Idx) :
    ∃ pc ∈ (kernelRun3_B c i arg3 harg3 arg4 harg4 arg5 harg5 arg6 harg6 arg7 harg7 arg8 harg8 hc0 hc1 x0 x1 x2 xs0 xs1).1, y ∈ pc.1.set :=
  View.cover_of_tiledL (kernelRun3_B c i arg3 harg3 arg4 harg4 arg5 harg5 arg6 harg6 arg7 harg7 arg8 harg8 hc0 hc1 x0 x1 x2 xs0 xs1).1 S512x1024.size (by sl_kernel_rfl) y

/-- so the block's buffer ends holding it read back. -/
def out3_B_3 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) : Vec F S512x1024 .bf16 :=
  VO3_3.read (Elt F) (VO3_3.writes (Elt F) VO3_3.junk (kernelRun3_B c i arg3 harg3 arg4 harg4 arg5 harg5 arg6 harg6 arg7 harg7 arg8 harg8 hc0 hc1 x0 x1 x2 xs0 xs1).1)

theorem scover3_B_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) (y : S512x1024.Idx) :
    ∃ pc ∈ (kernelRun3_B c i arg3 harg3 arg4 harg4 arg5 harg5 arg6 harg6 arg7 harg7 arg8 harg8 hc0 hc1 x0 x1 x2 xs0 xs1).2.1, y ∈ pc.1.set :=
  View.cover_of_tiledL (kernelRun3_B c i arg3 harg3 arg4 harg4 arg5 harg5 arg6 harg6 arg7 harg7 arg8 harg8 hc0 hc1 x0 x1 x2 xs0 xs1).2.1 S512x1024.size (by sl_kernel_rfl) y

def sout3_B_0 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) : Vec F S512x1024 .f32 :=
  VS3_0.read (Elt F) (VS3_0.writes (Elt F) VS3_0.junk (kernelRun3_B c i arg3 harg3 arg4 harg4 arg5 harg5 arg6 harg6 arg7 harg7 arg8 harg8 hc0 hc1 x0 x1 x2 xs0 xs1).2.1)

theorem scover3_B_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) (y : S512x1024.Idx) :
    ∃ pc ∈ (kernelRun3_B c i arg3 harg3 arg4 harg4 arg5 harg5 arg6 harg6 arg7 harg7 arg8 harg8 hc0 hc1 x0 x1 x2 xs0 xs1).2.2.1, y ∈ pc.1.set :=
  View.cover_of_tiledL (kernelRun3_B c i arg3 harg3 arg4 harg4 arg5 harg5 arg6 harg6 arg7 harg7 arg8 harg8 hc0 hc1 x0 x1 x2 xs0 xs1).2.2.1 S512x1024.size (by sl_kernel_rfl) y

def sout3_B_1 (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) : Vec F S512x1024 .f32 :=
  VS3_1.read (Elt F) (VS3_1.writes (Elt F) VS3_1.junk (kernelRun3_B c i arg3 harg3 arg4 harg4 arg5 harg5 arg6 harg6 arg7 harg7 arg8 harg8 hc0 hc1 x0 x1 x2 xs0 xs1).2.2.1)

/-! ## The two conditions at a point, from the parity of its position -/

theorem hA0 (t : Fin cfg3.N) (h : t.val % 2 = 0) : cond3_0 (grid3.coords t) := (hcond3_0 t).mpr h
theorem hA1 (t : Fin cfg3.N) (h : t.val % 2 = 0) : ¬cond3_1 (grid3.coords t) := fun h' => by
  have := (hcond3_1 t).mp h'; omega
theorem hB0 (t : Fin cfg3.N) (h : ¬t.val % 2 = 0) : ¬cond3_0 (grid3.coords t) := fun h' => h ((hcond3_0 t).mp h')
theorem hB1 (t : Fin cfg3.N) (h : ¬t.val % 2 = 0) : cond3_1 (grid3.coords t) := (hcond3_1 t).mpr (by omega)

/-! ## What the output buffer and the accumulators hold after each point -/

/-- An even position: the first-step case at the point's memrefs and input blocks. -/
def ptA3 (c : Dev nD) (t : Fin cfg3.N) (h : t.val % 2 = 0) : Vec F S512x1024 .bf16 × Vec F S512x1024 .f32 × Vec F S512x1024 .f32 :=
  (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hA0 t h) (hA1 t h) (iblk3 V c 0 t) (iblk3 V c 1 t) (iblk3 V c 2 t),
   sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hA0 t h) (hA1 t h) (iblk3 V c 0 t) (iblk3 V c 1 t) (iblk3 V c 2 t),
   sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hA0 t h) (hA1 t h) (iblk3 V c 0 t) (iblk3 V c 1 t) (iblk3 V c 2 t))

/-- An odd position: the last-step case at the point's memrefs and input blocks, over accumulator contents `xs0 xs1`. -/
def ptB3 (c : Dev nD) (t : Fin cfg3.N) (h : ¬t.val % 2 = 0) (xs0 xs1 : Vec F S512x1024 .f32) : Vec F S512x1024 .bf16 × Vec F S512x1024 .f32 × Vec F S512x1024 .f32 :=
  (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hB0 t h) (hB1 t h) (iblk3 V c 0 t) (iblk3 V c 1 t) (iblk3 V c 2 t) xs0 xs1,
   sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hB0 t h) (hB1 t h) (iblk3 V c 0 t) (iblk3 V c 1 t) (iblk3 V c 2 t) xs0 xs1,
   sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hB0 t h) (hB1 t h) (iblk3 V c 0 t) (iblk3 V c 1 t) (iblk3 V c 2 t) xs0 xs1)

/-- After the body at position `n`: (the output block's buffer, the gate accumulator, the up accumulator). An even
    position restarts both accumulators; an odd one continues from what the position before left in them. -/
def outsAt3 (c : Dev nD) : (n : ℕ) → n < cfg3.N → Vec F S512x1024 .bf16 × Vec F S512x1024 .f32 × Vec F S512x1024 .f32
  | 0, hn => ptA3 V c ⟨0, hn⟩ (Nat.zero_mod _)
  | n + 1, hn =>
    if h : (n + 1) % 2 = 0 then ptA3 V c ⟨n + 1, hn⟩ h
    else ptB3 V c ⟨n + 1, hn⟩ h (outsAt3 c n (Nat.lt_of_succ_lt hn)).2.1 (outsAt3 c n (Nat.lt_of_succ_lt hn)).2.2

theorem outsAt3_A (c : Dev nD) (t : Fin cfg3.N) (h : t.val % 2 = 0) : outsAt3 V c t.val t.isLt = ptA3 V c t h := by
  obtain ⟨n, hn⟩ := t
  cases n with
  | zero => exact rfl
  | succ n => exact (dif_pos h).trans rfl

theorem outsAt3_B (c : Dev nD) (t : Fin cfg3.N) (h : ¬t.val % 2 = 0) :
    outsAt3 V c t.val t.isLt = ptB3 V c t h (outsAt3 V c (t.val - 1) (Nat.lt_of_le_of_lt (Nat.sub_le _ _) t.isLt)).2.1
      (outsAt3 V c (t.val - 1) (Nat.lt_of_le_of_lt (Nat.sub_le _ _) t.isLt)).2.2 := by
  obtain ⟨n, hn⟩ := t
  cases n with
  | zero => exact absurd (Nat.zero_mod _) h
  | succ n => exact (dif_neg h).trans rfl

/-! ## The region invariant -/

/-- Before position `n`: at the start what the launch hands over; afterwards both accumulators at what the position
    before left, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2) ∗ Rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2) ∗ Rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2) ∗ Rest3 c) ∗ (∃ r, prngReg c r)) := by
  cases n with
  | zero => exact absurd rfl hz
  | succ n => rfl

/-! ## The proof data -/

/-- Region 3 on core `c`.  Its arrays start at the entry contents; once the body has run at a point, each input buffer
    still shows its block and the output buffer shows the first component of `outsAt3`; between points the invariant is
    `PhiS3`; the core owes nothing and holds every array whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The input buffers hold their blocks; the parity of the position says which case runs. On an
    even position the accumulators are handed over at anything (at the very first point out of the launch's scoped rest,
    later out of the invariant, their named contents forgotten) and the output buffer goes back untouched; on an odd one
    the accumulators are handed over at what the position before left and the output buffer at anything. Either way
    the invariant takes the accumulators back at this position's contents, which the covering stores determine. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 112 := lt_of_lt_of_eq t.isLt (show cfg3.N = 112 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · rw [Dat.leavesExact_idle (dat3 V c) 3 t (idleAt3_3_A t (hA0 t h0) (hA1 t h0)) (noFlush3_3_A t (hA0 t h0) (hA1 t h0))]
    rw [outsAt3_A V c t h0]
    unfold ptA3 sout3_A_0 sout3_A_1; (try dsimp only)
    by_cases hz : t.val = 0
    · rw [PhiS3_castSucc V c t, PhiS3_zero V c _ _ hz, PhiA3_eq]
      iintro ⟨⟨⟨⟨HS0, HS1⟩, HR⟩, Hg⟩, Ho, ⟨%d0, H0⟩, ⟨%d1, H1⟩, ⟨%d2, H2⟩, ⟨%d3, H3⟩⟩
      iapply ((kernelRun3_A c (grid3.coords t) _ _ _ _ _ _ _ _ _ _ _ _ (hA0 t h0) (hA1 t h0) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _)
            · unfold owns; iexists _; isplitr
              swap; · iexact HS1
              ipureintro; exact View.read_writes_of_cover _ _ _ _ _ (scover3_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun3_A c (grid3.coords t) _ _ _ _ _ _ _ _ _ _ _ _ (hA0 t h0) (hA1 t h0) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _)
            · unfold owns; iexists _; isplitr
              swap; · iexact HS1
              ipureintro; exact View.read_writes_of_cover _ _ _ _ _ (scover3_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [show (dat3 V c).leavesExact 3 t = owns (c : Thread nD τ) (ms3_3 t) fullShare ((dat3 V c).after 3 t) from by
      unfold Dat.leavesExact; rw [liveAt3_3_B t (hB0 t h0) (hB1 t h0)], after3_3]
    rw [outsAt3_B V c t h0]
    unfold ptB3 out3_B_3 sout3_B_0 sout3_B_1; (try dsimp only)
    rw [PhiS3_castSucc V c t, PhiS3_pos V c _ _ hz]
    iintro ⟨⟨⟨⟨HS0, HS1⟩, HR⟩, Hg⟩, Ho, ⟨%d0, H0⟩, ⟨%d1, H1⟩, ⟨%d2, H2⟩, ⟨%d3, H3⟩⟩
    iapply ((kernelRun3_B c (grid3.coords t) _ _ _ _ _ _ _ _ _ _ _ _ (hB0 t h0) (hB1 t h0) (iblk3 V c 0 t) (iblk3 V c 1 t) (iblk3 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          · unfold owns; iexists _; isplitr
            swap; · iexact HS1
            ipureintro; exact View.read_writes_of_cover _ _ _ _ _ (scover3_B_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _ _ _ _)

/-- What the pipeline demands of the body, met at every grid point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's form back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 112 := N_3; omega)

end Cert.KernelIdeal.Hand

end
-- ==== Proof.KI.RegDownRuns.lean ====
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The down projection (pipeline 4): what its three control cases share

The grid is 2 x 4 x 7, the last coordinate fastest: a point's position modulo 7 is the index of the
2048-wide slab of the contracted axis it multiplies. -/

/-- What window `w` stages at grid point `t`: the block its index map selects from the array as entered. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation window's staging buffer holds its block at every point, whenever the proof data's array is
    the entry contents and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the weight window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body -/

/-- "This is the first slab of the contraction": the body then clears the accumulator. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 7 = 0 :=
  (by decide +kernel : ∀ t : Fin grid4.N, cond4_0 (grid4.coords t) ↔ t.val % 7 = 0)

/-- "This is the last slab": the body then copies the accumulator into the output block. -/
abbrev cond4_1 (i : grid4.Coords) : Prop := k4_cond2 i = 1#1
theorem hcond4_1 : ∀ t : Fin cfg4.N, cond4_1 (grid4.coords t) ↔ t.val % 7 = 6 :=
  (by decide +kernel : ∀ t : Fin grid4.N, cond4_1 (grid4.coords t) ↔ t.val % 7 = 6)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Off the last slab nothing is stored into the output block, and the block is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- On the last slab the output block is stored. -/
theorem liveAt4_2 : ∀ t : Fin cfg4.N, cond4_1 (grid4.coords t) → cfg4.idle 2 (grid4.coords t) = false := by decide +kernel

/-! ## The memrefs the body is called with -/

/-- One staging buffer of the output window: its contents are stated through this view. -/
abbrev VO4_2 : View sig .tc .vmem S1024x1024 .f32 := (Memref.whole cc4_stg2_0 : Memref sig .tc .vmem S1024x1024 .f32).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S1024x1024 .f32 := Memref.whole cc4_scratch0
abbrev VS4_0 : View sig .tc .vmem S1024x1024 .f32 := scM4_0.view

/-- The region invariant with the accumulator split off as an owned memref: the accumulator at some contents,
    every other scoped buffer unopened, the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.RegDownA.lean ====
import proofs.«151961_j22153441312857_2_alg».proof.Proof.KI.RegDownRuns
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE FIRST SLAB of a contraction (the accumulator is cleared, then this slab's products are added): what the
    body's stores leave in the output's staging memref (nothing) and in the accumulator, as pieces, last first,
    with the proof that from whole memrefs — the two inputs at their contents, the output at contents handed back
    untouched, the accumulator at anything — the body runs to a continuation holding the inputs and the output as
    they were and the accumulator with its pieces written. -/
noncomputable def kernelRun4_A (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__down_body i arg3 harg3 arg4 harg4 arg5 harg5 arg6 harg6) K } := by
  refine ⟨[], ?_, fun xi2 E K => ?run⟩
  case run =>
    simp only [cc4__down_body_eq_skeleton]; unfold cc4__down_body_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RegDownB.lean ====
import proofs.«151961_j22153441312857_2_alg».proof.Proof.KI.RegDownA
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- A MIDDLE SLAB (this slab's products are added onto what the slab before left): the accumulator comes in at
    the contents `xs0`; the output is handed back untouched. -/
noncomputable def kernelRun4_B (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__down_body i arg3 harg3 arg4 harg4 arg5 harg5 arg6 harg6) K } := by
  refine ⟨[], ?_, fun xi2 E K => ?run⟩
  case run =>
    simp only [cc4__down_body_eq_skeleton]; unfold cc4__down_body_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RegDownC.lean ====
import proofs.«151961_j22153441312857_2_alg».proof.Proof.KI.RegDownB
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE LAST SLAB (its products are added onto what the slab before left, then the accumulator is copied into the
    output block): the accumulator comes in at `xs0`, the output at anything; both end with their pieces written. -/
noncomputable def kernelRun4_C (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__down_body i arg3 harg3 arg4 harg4 arg5 harg5 arg6 harg6) K } := by
  refine ⟨?_, ?_, fun E K => ?run⟩
  case run =>
    simp only [cc4__down_body_eq_skeleton]; unfold cc4__down_body_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.RegDown.lean ====
import proofs.«151961_j22153441312857_2_alg».proof.Proof.KI.RegDownC
import proofs.«151961_j22153441312857_2_alg».proof.Proof.Gen.KernelIdeal.Launch
import proofs.«151961_j22153441312857_2_alg».proof.Proof.Gen.KernelIdeal.Skeleton
import proofs.«151961_j22153441312857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The down projection (pipeline 4): what each point leaves, the proof data, the body obligation -/

/-! ## What each case leaves in the output block and in the accumulator -/

/-- On the first slab nothing is stored into the output block: no pieces, a placeholder nothing consults. -/
def out4_A_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) : Vec F S1024x1024 .f32 :=
  VO4_2.read (Elt F) (VO4_2.writes (Elt F) VO4_2.junk (kernelRun4_A c i arg3 harg3 arg4 harg4 arg5 harg5 arg6 harg6 hc0 hc1 x0 x1).1)

/-- The first slab's stores into the accumulator cover it. -/
theorem scover4_A_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) (y : S1024x1024.Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 S1024x1024.size (by sl_kernel_rfl) y

/-- What the first slab leaves in the accumulator: its pieces read back. -/
def sout4_A_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x2048 .bf16) (x1 : Vec F S1024x2048 .bf16) : Vec F S1024x1024 .f32 :=
  VS4_0.read (Elt F) (VS4_0.writes (Elt F) VS4_0.junk (kernelRun4_A c i arg3 harg3 arg4 harg4 arg5 harg5 arg6 harg6 hc0 hc1 x0 x1).2.1)

/-- On a middle slab nothing is stored into the output block either. -/
def out4_B_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) : Vec F S1024x1024 .f32 :=
  VO4_2.read (Elt F) (VO4_2.writes (Elt F) VO4_2.junk (kernelRun4_B c i arg3 harg3 arg4 harg4 arg5 harg5 arg6 harg6 hc0 hc1 x0 x1 xs0).1)

theorem scover4_B_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) (y : S1024x1024.Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 S1024x1024.size (by sl_kernel_rfl) y

/-- What a middle slab leaves in the accumulator. -/
def sout4_B_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x2048 .bf16) (x1 : Vec F S1024x2048 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 hc0 hc1 x0 x1 xs0).2.1)

/-- The last slab's one store into the output block covers it. -/
theorem cover4_C_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) (y : S1024x1024.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S1024x1024.size (by sl_kernel_rfl) y

/-- What the last slab leaves in the output block. -/
def out4_C_2 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) : Vec F S1024x1024 .f32 :=
  VO4_2.read (Elt F) (VO4_2.writes (Elt F) VO4_2.junk (kernelRun4_C c i arg3 harg3 arg4 harg4 arg5 harg5 arg6 harg6 hc0 hc1 x0 x1 xs0).1)

theorem scover4_C_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) (y : S1024x1024.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S1024x1024.size (by sl_kernel_rfl) y

/-- What the last slab leaves in the accumulator. -/
def sout4_C_0 (c : Dev nD) (i : grid4.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x2048 .bf16) (x1 : Vec F S1024x2048 .bf16) (xs0 : Vec F S1024x1024 .f32) : Vec F S1024x1024 .f32 :=
  VS4_0.read (Elt F) (VS4_0.writes (Elt F) VS4_0.junk (kernelRun4_C c i arg3 harg3 arg4 harg4 arg5 harg5 arg6 harg6 hc0 hc1 x0 x1 xs0).2.1)

/-! ## The accumulation, point by point -/

/-- What the output window's staging buffer and the accumulator hold after the body at position `n`: the case
    the position's residue modulo 7 selects, run on the point's blocks, the accumulator taken (off the first slab)
    at what position `n - 1` left in it. -/
def outsAt4 (c : Dev nD) : (n : ℕ) → n < cfg4.N → Vec F S1024x1024 .f32 × Vec F S1024x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 7 = 0 then
      if h1 : (n + 1) % 7 = 6 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 7 = 6 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- At a first slab. -/
theorem outsAt4_A (c : Dev nD) (t : Fin cfg4.N) (h0 : t.val % 7 = 0) (h1 : ¬t.val % 7 = 6) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- At a middle slab: over what the point before left. -/
theorem outsAt4_B (c : Dev nD) (t : Fin cfg4.N) (h0 : ¬t.val % 7 = 0) (h1 : ¬t.val % 7 = 6) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last slab: over what the point before left. -/
theorem outsAt4_C (c : Dev nD) (t : Fin cfg4.N) (h0 : ¬t.val % 7 = 0) (h1 : t.val % 7 = 6) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class's invariant; afterwards the accumulator at what the point before
    left in it, beside every other scoped buffer unopened and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- Region 4 on core `c`.  Its arrays start at the entry contents; once the body has run at a point, each input buffer
    still shows its block and the output buffer shows the first component of `outsAt4`; between points the invariant is
    `PhiS4`; the core owes nothing and holds every array whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the position's residue modulo 7 says which case
    the point is in; the invariant hands the body the accumulator at what the point before left (at anything at the
    very first point), and takes it back at this point's contents, its stores covering it; off the last slab the
    output's buffer passes through untouched, on the last slab it is taken at anything and returned covered. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 56 := lt_of_lt_of_eq t.isLt (show cfg4.N = 56 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 7 = 0
  · by_cases h1 : t.val % 7 = 6
    · exfalso; omega
    · rw [Dat.leavesExact_idle (dat4 V c) 2 t (idleAt4_2 t (fun h => h1 ((hcond4_1 t).mp h))) (noFlush4_2 t (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun hz => h0 (by rw [hz])
    by_cases h1 : t.val % 7 = 6
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _)
          iexact HR
        iexact Hg
      isplitl [Ho]; · iexact Ho
      isplitl [H0]; · iexact H0
      isplitl [H1]; · iexact H1
      iexists _; iexact H2

/-- What the pipeline demands of the body, met at every grid point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 56 := N_4; omega)

end Cert.KernelIdeal.Hand

end
-- ==== Proof.KI.Run.lean ====
/-
  The run of the whole program as a chain of its eight items — three stretches of host operations and five kernel
  regions — with the contents of every unscoped buffer NAMED at each boundary: the launch memory, then each host stretch
  applied, then each region's output array replaced by what that region's write-backs leave.  From the one run both
  conclusions are read: every argument array ends as launched, and the result buffer ends at the last stretch's
  reshape of region 4's output.
-/
import proofs.«151961_j22153441312857_2_alg».proof.Proof.KI.RegDequant
import proofs.«151961_j22153441312857_2_alg».proof.Proof.KI.RegGated
import proofs.«151961_j22153441312857_2_alg».proof.Proof.KI.RegDown
import proofs.«151961_j22153441312857_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- What core `c` holds in its unscoped buffers when the program starts. -/
abbrev W0 (c : Dev nD) : Valuation τ sig (Elt F) := fun b => m (c, b)
/-- After the first host stretch (the input's two leading axes merged, then rounded to the matmuls' operand format). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After region 0: its windows' arrays at what the pipeline's write-backs leave, every other buffer as it was. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- These contents, indexed by the TensorCore's own references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its windows' arrays at what the pipeline's write-backs leave, every other buffer as it was. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- These contents, indexed by the TensorCore's own references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (the third weight's scales transposed). -/
abbrev W4 (c : Dev nD) : Valuation τ sig (Elt F) := StableHlo.after hostOps2 (W3 m c)
abbrev V4 : (c : Dev nD) → (b : Ref sig .tc) → Buf (Elt F) ((c : Thread nD τ).loc b) := fun c b => W4 m c b

/-- After region 2: its windows' arrays at what the pipeline's write-backs leave, every other buffer as it was. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- These contents, indexed by the TensorCore's own references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After region 3: its windows' arrays at what the pipeline's write-backs leave, every other buffer as it was. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- These contents, indexed by the TensorCore's own references. -/
abbrev V6 : (c : Dev nD) → (b : Ref sig .tc) → Buf (Elt F) ((c : Thread nD τ).loc b) := fun c b => W6 m c b
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-- After region 4: its windows' arrays at what the pipeline's write-backs leave, every other buffer as it was. -/
def W7 (c : Dev nD) : Valuation τ sig (Elt F) :=
  Pipeline.withArrays spec4 c (W6 m c) fun w => (dat4 (V6 m) c).arrAt w cfg4.N
theorem W7_arr (c : Dev nD) (w : Fin cfg4.W) :
    W7 m c (Proc.devRef .tc (Pipeline.arrRef spec4 w)) = (dat4 (V6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
/-- These contents, indexed by the TensorCore's own references. -/
abbrev V7 : (c : Dev nD) → (b : Ref sig .tc) → Buf (Elt F) ((c : Thread nD τ).loc b) := fun c b => W7 m c b
theorem hF4 (c : Dev nD) (w : Fin cfg4.W) : (dat4 (V6 m) c).arrAt w cfg4.N = V7 m c (Pipeline.arrRef spec4 w) :=
  (W7_arr m c w).symm
theorem hrest4 (c : Dev nD) : ∀ b, b ∉ Finset.univ.image (Pipeline.arrRef spec4) → V7 m c b = V6 m c b :=
  fun b hb => W7_of_ne m c b fun w e => hb (Finset.mem_image.mpr ⟨w, Finset.mem_univ _, e⟩)

/-- After the last host stretch (the result split back into its two leading axes). -/
abbrev W8 (c : Dev nD) : Valuation τ sig (Elt F) := StableHlo.after hostOps5 (W7 m c)

/-! ## A host stretch changes only what it writes; a region only its output array -/

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h
theorem W8_of (c : Dev nD) (r : Ref sig .tc) (h : r ∉ hostOps5_W) : W8 m c r = W7 m c r :=
  StableHlo.after_of_writes_sub hostOps5 _ hostOps5_writes h
/-- An input window's array is handed back as it was found. -/
theorem W2_in (c : Dev nD) (w : Fin cfg0.W) (hw : (cfg0.win w).isOut = false) : W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

theorem W3_in (c : Dev nD) (w : Fin cfg1.W) (hw : (cfg1.win w).isOut = false) : W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))
theorem W5_in (c : Dev nD) (w : Fin cfg2.W) (hw : (cfg2.win w).isOut = false) : W5 m c (Proc.devRef .tc (Pipeline.arrRef spec2 w)) = W4 m c (Proc.devRef .tc (Pipeline.arrRef spec2 w)) :=
  (W5_arr m c w).trans (((dat2 (V4 m) c).arrAt_in w hw _).trans (A_eq2 (V4 m) c w))
theorem W6_in (c : Dev nD) (w : Fin cfg3.W) (hw : (cfg3.win w).isOut = false) : W6 m c (Proc.devRef .tc (Pipeline.arrRef spec3 w)) = W5 m c (Proc.devRef .tc (Pipeline.arrRef spec3 w)) :=
  (W6_arr m c w).trans (((dat3 (V5 m) c).arrAt_in w hw _).trans (A_eq3 (V5 m) c w))
theorem W7_in (c : Dev nD) (w : Fin cfg4.W) (hw : (cfg4.win w).isOut = false) : W7 m c (Proc.devRef .tc (Pipeline.arrRef spec4 w)) = W6 m c (Proc.devRef .tc (Pipeline.arrRef spec4 w)) :=
  (W7_arr m c w).trans (((dat4 (V6 m) c).arrAt_in w hw _).trans (A_eq4 (V6 m) c w))

/-! ## The proof data of the five pipelines, each at its region's entry contents -/

/-- None of the five kernels prefetches a table. -/
abbrev adm : (p : Fin 5) → (pcfgs (F := F) p).Adm := fun p => (cfgs p).toPCfg_adm
/-- The five regions' proof data, chosen by the region's number. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V5 m) c
  | ⟨4, _⟩ => fun c => dat4 (V6 m) c
abbrev 𝒱₀ : Variants := Variants.none
/-- Nothing is ever owed between cores here. -/
abbrev L : GSem nD τ sig → Finset Unit := fun _ => ∅
abbrev lv : GSem nD τ sig → Unit → ℕ := fun _ _ => 0
/-- Besides the buffers, every boundary carries the generator register in an unknown state and an empty debt. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Region 0 as a segment: entered with every unscoped buffer at `W1`, left with them at `W2`.  Its windows' arrays are
    split out of the unscoped buffers on entry and put back, at what the write-backs left, on exit; the generator register
    goes into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`.  Its windows' arrays are
    split out of the unscoped buffers on entry and put back, at what the write-backs left, on exit; the generator register
    goes into the kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`.  Its windows' arrays are
    split out of the unscoped buffers on entry and put back, at what the write-backs left, on exit; the generator register
    goes into the kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W5`, left with them at `W6`.  Its windows' arrays are
    split out of the unscoped buffers on entry and put back, at what the write-backs left, on exit; the generator register
    goes into the kernel's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m) c)
    unfold Pipeline.ΦA
    iintro ⟨Hp, -, Hr⟩
    isplitl [Hr]; · iexact Hr
    iexact Hp
  hout c := by
    rw [Pipeline.ownSems0_none]
    refine BIBase.Entails.trans (hout3 (V5 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W6`, left with them at `W7`.  Its windows' arrays are
    split out of the unscoped buffers on entry and put back, at what the write-backs left, on exit; the generator register
    goes into the kernel's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m) c).loose
  hwaits := Pipeline.hwaits_of_owed_zero _ _ _ _ L lv 4 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec4 c (V6 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V6 m) c)
    unfold Pipeline.ΦA
    iintro ⟨Hp, -, Hr⟩
    isplitl [Hr]; · iexact Hr
    iexact Hp
  hout c := by
    rw [Pipeline.ownSems0_none]
    refine BIBase.Entails.trans (hout4 (V6 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V6 m c) (V7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments end as launched -/

/-- `main_arg0` reaches the end as launched: no host operation writes it, and a region hands an input window's array back as found. -/
theorem W8_main_arg0 (c : Dev nD) : W8 m c (Proc.devRef .tc main_arg0) = m ((c : Thread nD τ).loc main_arg0) :=
  (W8_of m c main_arg0 (by decide)).trans <| (W7_of_ne m c main_arg0 (by decide)).trans <| (W6_of_ne m c main_arg0 (by decide)).trans <| (W5_of_ne m c main_arg0 (by decide)).trans <| (W4_of m c main_arg0 (by decide)).trans <| (W3_of_ne m c main_arg0 (by decide)).trans <| (W2_of_ne m c main_arg0 (by decide)).trans <| (W1_of m c main_arg0 (by decide)).trans <| rfl
/-- `main_arg1` reaches the end as launched: no host operation writes it, and a region hands an input window's array back as found. -/
theorem W8_main_arg1 (c : Dev nD) : W8 m c (Proc.devRef .tc main_arg1) = m ((c : Thread nD τ).loc main_arg1) :=
  (W8_of m c main_arg1 (by decide)).trans <| (W7_of_ne m c main_arg1 (by decide)).trans <| (W6_of_ne m c main_arg1 (by decide)).trans <| (W5_of_ne m c main_arg1 (by decide)).trans <| (W4_of m c main_arg1 (by decide)).trans <| (W3_of_ne m c main_arg1 (by decide)).trans <| (W2_in m c 0 rfl).trans <| (W1_of m c main_arg1 (by decide)).trans <| rfl
/-- `main_arg2` reaches the end as launched: no host operation writes it, and a region hands an input window's array back as found. -/
theorem W8_main_arg2 (c : Dev nD) : W8 m c (Proc.devRef .tc main_arg2) = m ((c : Thread nD τ).loc main_arg2) :=
  (W8_of m c main_arg2 (by decide)).trans <| (W7_of_ne m c main_arg2 (by decide)).trans <| (W6_of_ne m c main_arg2 (by decide)).trans <| (W5_of_ne m c main_arg2 (by decide)).trans <| (W4_of m c main_arg2 (by decide)).trans <| (W3_of_ne m c main_arg2 (by decide)).trans <| (W2_in m c 1 rfl).trans <| (W1_of m c main_arg2 (by decide)).trans <| rfl
/-- `main_arg3` reaches the end as launched: no host operation writes it, and a region hands an input window's array back as found. -/
theorem W8_main_arg3 (c : Dev nD) : W8 m c (Proc.devRef .tc main_arg3) = m ((c : Thread nD τ).loc main_arg3) :=
  (W8_of m c main_arg3 (by decide)).trans <| (W7_of_ne m c main_arg3 (by decide)).trans <| (W6_of_ne m c main_arg3 (by decide)).trans <| (W5_of_ne m c main_arg3 (by decide)).trans <| (W4_of m c main_arg3 (by decide)).trans <| (W3_in m c 0 rfl).trans <| (W2_of_ne m c main_arg3 (by decide)).trans <| (W1_of m c main_arg3 (by decide)).trans <| rfl
/-- `main_arg4` reaches the end as launched: no host operation writes it, and a region hands an input window's array back as found. -/
theorem W8_main_arg4 (c : Dev nD) : W8 m c (Proc.devRef .tc main_arg4) = m ((c : Thread nD τ).loc main_arg4) :=
  (W8_of m c main_arg4 (by decide)).trans <| (W7_of_ne m c main_arg4 (by decide)).trans <| (W6_of_ne m c main_arg4 (by decide)).trans <| (W5_of_ne m c main_arg4 (by decide)).trans <| (W4_of m c main_arg4 (by decide)).trans <| (W3_in m c 1 rfl).trans <| (W2_of_ne m c main_arg4 (by decide)).trans <| (W1_of m c main_arg4 (by decide)).trans <| rfl
/-- `main_arg5` reaches the end as launched: no host operation writes it, and a region hands an input window's array back as found. -/
theorem W8_main_arg5 (c : Dev nD) : W8 m c (Proc.devRef .tc main_arg5) = m ((c : Thread nD τ).loc main_arg5) :=
  (W8_of m c main_arg5 (by decide)).trans <| (W7_of_ne m c main_arg5 (by decide)).trans <| (W6_of_ne m c main_arg5 (by decide)).trans <| (W5_in m c 0 rfl).trans <| (W4_of m c main_arg5 (by decide)).trans <| (W3_of_ne m c main_arg5 (by decide)).trans <| (W2_of_ne m c main_arg5 (by decide)).trans <| (W1_of m c main_arg5 (by decide)).trans <| rfl
/-- `main_arg6` reaches the end as launched: no host operation writes it, and a region hands an input window's array back as found. -/
theorem W8_main_arg6 (c : Dev nD) : W8 m c (Proc.devRef .tc main_arg6) = m ((c : Thread nD τ).loc main_arg6) :=
  (W8_of m c main_arg6 (by decide)).trans <| (W7_of_ne m c main_arg6 (by decide)).trans <| (W6_of_ne m c main_arg6 (by decide)).trans <| (W5_of_ne m c main_arg6 (by decide)).trans <| (W4_of m c main_arg6 (by decide)).trans <| (W3_of_ne m c main_arg6 (by decide)).trans <| (W2_of_ne m c main_arg6 (by decide)).trans <| (W1_of m c main_arg6 (by decide)).trans <| rfl

/-! ## @main as segments, and the run -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .region (reg4 m),
    .host (hseg hostOps5 hostOps5_sub hostOps5_fresh (W7 m)) ]
/-- @main is the run of these segments. -/
theorem main_run (c : Dev nD) : main (F := F) c = Pipeline.Seg.run (segs m) := (main_chain c).trans (by chain_rfl)

/-- Each unscoped reference of the TensorCore is one of those whose final contents the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of @main on the TensorCores terminates, nothing
    faulting, and in every final state each unscoped buffer holds the last boundary's contents `W8`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W8 m c) ∗ R c)
          ⊢ iprop((StableHlo.held (c : Thread nD τ) (Pipeline.ucRefs τ sig) (W8 m c) ∗ ∃ r, prngReg c r) ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run m ρ)

end Cert.KernelIdeal.Hand

end
-- ==== Proof.KI.ValDequant0.lean ====
import proofs.«151961_j22153441312857_2_alg».proof.Proof.KI.RegDequant0
import proofs.«151961_j22153441312857_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! # Region 0 as a whole: the rescaled weight

The grid's point `t` handles rows `1024 t … 1024 t + 1023` of the weight, which meet the eight tile rows
`8 t … 8 t + 7` of the scales, so the bands line up and every entry is multiplied by its own tile's scale. -/

theorem zeros0 : (![0, 0] : Fin 2 → Nat) = fun _ => 0 := funext fun a => by fin_cases a <;> rfl

/-- The body's arithmetic at one entry of a band: entry `(r, k)` of the weight band times the scale of the tile
    `(r / 128, k / 128)` of the band of scales (rounding to bf16 does nothing to an extended real). The band is cut
    into `8 × 128 × 32 × 128` to line the tiles up with the `8 × 1 × 32 × 1` scales; row-major positions are kept. -/
theorem pay0_at (x0 : Vec Ideal S1024x4096 .f32) (x1 : Vec Ideal S8x32 .f32) (r : Fin 1024) (k : Fin 4096)
    (a : Fin 8) (b : Fin 32) (ha : a.val = r.val / 128) (hb : b.val = k.val / 128) :
    k0_pay1 x0 x1 (ix2 r k) = x0 (ix2 r k) * x1 (ix2 a b) := by
  have hr := r.isLt
  have hk := k.isLt
  unfold k0_pay1
  rw [truncf_apply]
  refine (shapeCast_apply _ _ (ix2 r k) (ix4 a ⟨r.val % 128, Nat.mod_lt _ (by omega)⟩ b ⟨k.val % 128, Nat.mod_lt _ (by omega)⟩) ?_).trans ?_
  · rw [Shape.rowMajor_val_two, Shape.rowMajor_val_four]
    show ((a.val * 128 + r.val % 128) * 32 + b.val) * 128 + k.val % 128 = r.val * 4096 + k.val
    omega
  rw [mulf_apply]
  congr 1
  · refine shapeCast_apply _ _ _ (ix2 r k) ?_
    rw [Shape.rowMajor_val_two, Shape.rowMajor_val_four]
    show r.val * 4096 + k.val = ((a.val * 128 + r.val % 128) * 32 + b.val) * 128 + k.val % 128
    omega
  · refine (broadcastTo_apply _ _ _ (ix4 a 0 b 0) fun d => ?_).trans ?_
    · match d with
      | ⟨0, _⟩ => rfl
      | ⟨1, _⟩ => rfl
      | ⟨2, _⟩ => rfl
      | ⟨3, _⟩ => rfl
    · refine shapeCast_apply _ _ _ (ix2 a b) ?_
      rw [Shape.rowMajor_val_two, Shape.rowMajor_val_four]
      show a.val * 32 + b.val = ((a.val * 1 + 0) * 32 + b.val) * 1 + 0
      omega

/-- The same at any index of the band. -/
theorem pay0_idx (x0 : Vec Ideal S1024x4096 .f32) (x1 : Vec Ideal S8x32 .f32) (j : S1024x4096.Idx)
    (a : Fin 8) (b : Fin 32) (ha : a.val = (j 0).val / 128) (hb : b.val = (j 1).val / 128) :
    k0_pay1 x0 x1 j = x0 j * x1 (ix2 a b) := by
  obtain ⟨r, k, rfl⟩ : ∃ (r : Fin 1024) (k : Fin 4096), j = ix2 r k := ⟨j 0, j 1, eq_ix2 j⟩
  exact pay0_at x0 x1 r k a b ha hb

/-- An entry of the rescaled weight, from the weight entry and the scale entry that sit where they should. -/
theorem deqRow_entry0 (A : Cert.Spec.A2 14336 4096) (S : Cert.Spec.A2 112 32) (i i0 : S14336x4096.Idx) (i1 : S112x32.Idx)
    (h0 : i0 = i) (h10 : (i1 0).val = (i 0).val / 128) (h11 : (i1 1).val = (i 1).val / 128) :
    A i0 * S i1 = Cert.Spec.deqRow A S i := by
  subst h0
  unfold Cert.Spec.deqRow
  congr 2
  funext a
  match a with
  | ⟨0, _⟩ => exact Fin.ext h10
  | ⟨1, _⟩ => exact Fin.ext h11

/-- How the three windows move over the grid: the weight band and the output band together down the rows, the
    scales with them, none of them sideways. -/
theorem moves0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) ≤ 13 :=
  (by decide +kernel : ∀ t : Fin grid0.N, _)

/-- Every one of the fourteen row bands is some point's. -/
theorem reaches0 : ∀ q : Fin 14, ∃ t : Fin cfg0.N, win0_2.index t = ![q.val, 0] :=
  (by decide +kernel : ∀ q : Fin 14, ∃ t : Fin grid0.N, win0_2.index t = ![q.val, 0])

/-- What point `t` writes back is its band of the rescaled weight. -/
theorem wrote0 (c : Dev nD) (t : Fin cfg0.N) :
    (dat0 (F := Ideal) V c).flushed 2 t
      = ((cfg0.win 2).blk t).view.read (Elt Ideal) (Cert.Spec.deqRow (V c main_arg1) (V c main_arg2)) := by
  show (cfg0.win 2).cut (grid0.coords t) ((dat0 V c).after 2 t) = _
  rw [after0_2]
  unfold out0_2
  rw [View.canon_unit_zero zeros0]
  simp only [View.ld_unit_zero (S := S1024x4096) zeros0, View.ld_unit_zero (S := S8x32) zeros0]
  obtain ⟨e0, e1, e2, e3, e4, e5⟩ := moves0 t
  funext j
  have hj0 : (j 0).val < 1024 := (j 0).isLt
  have hj1 : (j 1).val < 4096 := (j 1).isLt
  show k0_pay1 (iblk0 V c 0 t) (iblk0 V c 1 t) j
    = Cert.Spec.deqRow (V c main_arg1) (V c main_arg2) (((cfg0.win 2).blk t).view.emb j)
  refine (pay0_idx (iblk0 V c 0 t) (iblk0 V c 1 t) j ⟨(j 0).val / 128, by omega⟩ ⟨(j 1).val / 128, by omega⟩ rfl rfl).trans ?_
  refine deqRow_entry0 (V c main_arg1) (V c main_arg2) (((cfg0.win 2).blk t).view.emb j) (((cfg0.win 0).blk t).view.emb j)
    (((cfg0.win 1).blk t).view.emb (ix2 ⟨(j 0).val / 128, by omega⟩ ⟨(j 1).val / 128, by omega⟩)) ?_ ?_ ?_
  · funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 4096 + 1 * (j 1).val = win0_2.index t (1 : Fin 2) * 4096 + 1 * (j 1).val; omega
  · show win0_1.index t (0 : Fin 2) * 8 + 1 * ((j 0).val / 128) = (win0_2.index t (0 : Fin 2) * 1024 + 1 * (j 0).val) / 128
    omega
  · show win0_1.index t (1 : Fin 2) * 32 + 1 * ((j 1).val / 128) = (win0_2.index t (1 : Fin 2) * 4096 + 1 * (j 1).val) / 128
    omega

/-- An entry lies in point `t`'s output band exactly when each coordinate is within the band's range. -/
theorem in_band0 (t : Fin cfg0.N) (i : S14336x4096.Idx) :
    i ∈ ((cfg0.win 2).blk t).view.set ↔ ∀ a : Fin 2, win0_2.index t a * S1024x4096.size a ≤ (i a).val ∧ (i a).val < win0_2.index t a * S1024x4096.size a + S1024x4096.size a := by
  show i ∈ ((View.whole main_v2).slice (win0_2.rect t)).set ↔ _
  rw [View.set_slice_whole, Rect.mem_set_unit]
  exact Iff.rfl

/-- Every entry of the output is written: row `r` by the point whose band is `r / 1024`. -/
theorem all_written0 (i : S14336x4096.Idx) :
    ∃ t : Fin cfg0.N, (cfg0.win 2).flush t = true ∧ i ∈ ((cfg0.win 2).blk t).view.set := by
  have hi0 : (i 0).val < 14336 := (i 0).isLt
  have hi1 : (i 1).val < 4096 := (i 1).isLt
  obtain ⟨t, ht⟩ := reaches0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [in_band0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- The output array after the region: the weight rescaled tile by tile. -/
theorem final0 (c : Dev nD) : (dat0 (F := Ideal) V c).arrAt 2 cfg0.N = Cert.Spec.deqRow (V c main_arg1) (V c main_arg2) :=
  (dat0 V c).arrAt_eq_of_cover 2 _ (fun t _ => wrote0 V c t) all_written0

end Cert.KernelIdeal.Hand

end
-- ==== Proof.KI.ValDequant1.lean ====
import proofs.«151961_j22153441312857_2_alg».proof.Proof.KI.RegDequant1
import proofs.«151961_j22153441312857_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! # Region 1 as a whole: the rescaled weight

The grid's point `t` handles rows `1024 t … 1024 t + 1023` of the weight, which meet the eight tile rows
`8 t … 8 t + 7` of the scales, so the bands line up and every entry is multiplied by its own tile's scale. -/

theorem zeros1 : (![0, 0] : Fin 2 → Nat) = fun _ => 0 := funext fun a => by fin_cases a <;> rfl

/-- The body's arithmetic at one entry of a band: entry `(r, k)` of the weight band times the scale of the tile
    `(r / 128, k / 128)` of the band of scales (rounding to bf16 does nothing to an extended real). The band is cut
    into `8 × 128 × 32 × 128` to line the tiles up with the `8 × 1 × 32 × 1` scales; row-major positions are kept. -/
theorem pay1_at (x0 : Vec Ideal S1024x4096 .f32) (x1 : Vec Ideal S8x32 .f32) (r : Fin 1024) (k : Fin 4096)
    (a : Fin 8) (b : Fin 32) (ha : a.val = r.val / 128) (hb : b.val = k.val / 128) :
    k1_pay1 x0 x1 (ix2 r k) = x0 (ix2 r k) * x1 (ix2 a b) := by
  have hr := r.isLt
  have hk := k.isLt
  unfold k1_pay1
  rw [truncf_apply]
  refine (shapeCast_apply _ _ (ix2 r k) (ix4 a ⟨r.val % 128, Nat.mod_lt _ (by omega)⟩ b ⟨k.val % 128, Nat.mod_lt _ (by omega)⟩) ?_).trans ?_
  · rw [Shape.rowMajor_val_two, Shape.rowMajor_val_four]
    show ((a.val * 128 + r.val % 128) * 32 + b.val) * 128 + k.val % 128 = r.val * 4096 + k.val
    omega
  rw [mulf_apply]
  congr 1
  · refine shapeCast_apply _ _ _ (ix2 r k) ?_
    rw [Shape.rowMajor_val_two, Shape.rowMajor_val_four]
    show r.val * 4096 + k.val = ((a.val * 128 + r.val % 128) * 32 + b.val) * 128 + k.val % 128
    omega
  · refine (broadcastTo_apply _ _ _ (ix4 a 0 b 0) fun d => ?_).trans ?_
    · match d with
      | ⟨0, _⟩ => rfl
      | ⟨1, _⟩ => rfl
      | ⟨2, _⟩ => rfl
      | ⟨3, _⟩ => rfl
    · refine shapeCast_apply _ _ _ (ix2 a b) ?_
      rw [Shape.rowMajor_val_two, Shape.rowMajor_val_four]
      show a.val * 32 + b.val = ((a.val * 1 + 0) * 32 + b.val) * 1 + 0
      omega

/-- The same at any index of the band. -/
theorem pay1_idx (x0 : Vec Ideal S1024x4096 .f32) (x1 : Vec Ideal S8x32 .f32) (j : S1024x4096.Idx)
    (a : Fin 8) (b : Fin 32) (ha : a.val = (j 0).val / 128) (hb : b.val = (j 1).val / 128) :
    k1_pay1 x0 x1 j = x0 j * x1 (ix2 a b) := by
  obtain ⟨r, k, rfl⟩ : ∃ (r : Fin 1024) (k : Fin 4096), j = ix2 r k := ⟨j 0, j 1, eq_ix2 j⟩
  exact pay1_at x0 x1 r k a b ha hb

/-- An entry of the rescaled weight, from the weight entry and the scale entry that sit where they should. -/
theorem deqRow_entry1 (A : Cert.Spec.A2 14336 4096) (S : Cert.Spec.A2 112 32) (i i0 : S14336x4096.Idx) (i1 : S112x32.Idx)
    (h0 : i0 = i) (h10 : (i1 0).val = (i 0).val / 128) (h11 : (i1 1).val = (i 1).val / 128) :
    A i0 * S i1 = Cert.Spec.deqRow A S i := by
  subst h0
  unfold Cert.Spec.deqRow
  congr 2
  funext a
  match a with
  | ⟨0, _⟩ => exact Fin.ext h10
  | ⟨1, _⟩ => exact Fin.ext h11

/-- How the three windows move over the grid: the weight band and the output band together down the rows, the
    scales with them, none of them sideways. -/
theorem moves1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (1 : Fin 2) = 0
    ∧ win1_2.index t (0 : Fin 2) ≤ 13 :=
  (by decide +kernel : ∀ t : Fin grid1.N, _)

/-- Every one of the fourteen row bands is some point's. -/
theorem reaches1 : ∀ q : Fin 14, ∃ t : Fin cfg1.N, win1_2.index t = ![q.val, 0] :=
  (by decide +kernel : ∀ q : Fin 14, ∃ t : Fin grid1.N, win1_2.index t = ![q.val, 0])

/-- What point `t` writes back is its band of the rescaled weight. -/
theorem wrote1 (c : Dev nD) (t : Fin cfg1.N) :
    (dat1 (F := Ideal) V c).flushed 2 t
      = ((cfg1.win 2).blk t).view.read (Elt Ideal) (Cert.Spec.deqRow (V c main_arg3) (V c main_arg4)) := by
  show (cfg1.win 2).cut (grid1.coords t) ((dat1 V c).after 2 t) = _
  rw [after1_2]
  unfold out1_2
  rw [View.canon_unit_zero zeros1]
  simp only [View.ld_unit_zero (S := S1024x4096) zeros1, View.ld_unit_zero (S := S8x32) zeros1]
  obtain ⟨e0, e1, e2, e3, e4, e5⟩ := moves1 t
  funext j
  have hj0 : (j 0).val < 1024 := (j 0).isLt
  have hj1 : (j 1).val < 4096 := (j 1).isLt
  show k1_pay1 (iblk1 V c 0 t) (iblk1 V c 1 t) j
    = Cert.Spec.deqRow (V c main_arg3) (V c main_arg4) (((cfg1.win 2).blk t).view.emb j)
  refine (pay1_idx (iblk1 V c 0 t) (iblk1 V c 1 t) j ⟨(j 0).val / 128, by omega⟩ ⟨(j 1).val / 128, by omega⟩ rfl rfl).trans ?_
  refine deqRow_entry1 (V c main_arg3) (V c main_arg4) (((cfg1.win 2).blk t).view.emb j) (((cfg1.win 0).blk t).view.emb j)
    (((cfg1.win 1).blk t).view.emb (ix2 ⟨(j 0).val / 128, by omega⟩ ⟨(j 1).val / 128, by omega⟩)) ?_ ?_ ?_
  · funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 4096 + 1 * (j 1).val = win1_2.index t (1 : Fin 2) * 4096 + 1 * (j 1).val; omega
  · show win1_1.index t (0 : Fin 2) * 8 + 1 * ((j 0).val / 128) = (win1_2.index t (0 : Fin 2) * 1024 + 1 * (j 0).val) / 128
    omega
  · show win1_1.index t (1 : Fin 2) * 32 + 1 * ((j 1).val / 128) = (win1_2.index t (1 : Fin 2) * 4096 + 1 * (j 1).val) / 128
    omega

/-- An entry lies in point `t`'s output band exactly when each coordinate is within the band's range. -/
theorem in_band1 (t : Fin cfg1.N) (i : S14336x4096.Idx) :
    i ∈ ((cfg1.win 2).blk t).view.set ↔ ∀ a : Fin 2, win1_2.index t a * S1024x4096.size a ≤ (i a).val ∧ (i a).val < win1_2.index t a * S1024x4096.size a + S1024x4096.size a := by
  show i ∈ ((View.whole main_v3).slice (win1_2.rect t)).set ↔ _
  rw [View.set_slice_whole, Rect.mem_set_unit]
  exact Iff.rfl

/-- Every entry of the output is written: row `r` by the point whose band is `r / 1024`. -/
theorem all_written1 (i : S14336x4096.Idx) :
    ∃ t : Fin cfg1.N, (cfg1.win 2).flush t = true ∧ i ∈ ((cfg1.win 2).blk t).view.set := by
  have hi0 : (i 0).val < 14336 := (i 0).isLt
  have hi1 : (i 1).val < 4096 := (i 1).isLt
  obtain ⟨t, ht⟩ := reaches1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [in_band1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 4096 ≤ (i 1).val ∧ (i 1).val < win1_2.index t (1 : Fin 2) * 4096 + 4096; omega

/-- The output array after the region: the weight rescaled tile by tile. -/
theorem final1 (c : Dev nD) : (dat1 (F := Ideal) V c).arrAt 2 cfg1.N = Cert.Spec.deqRow (V c main_arg3) (V c main_arg4) :=
  (dat1 V c).arrAt_eq_of_cover 2 _ (fun t _ => wrote1 V c t) all_written1

end Cert.KernelIdeal.Hand

end
-- ==== Proof.KI.ValDequant2.lean ====
import proofs.«151961_j22153441312857_2_alg».proof.Proof.KI.RegDequant2
import proofs.«151961_j22153441312857_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! # Region 2 as a whole: the rescaled weight, scales handed over transposed

The grid's point `t` handles columns `1024 t … 1024 t + 1023` of the weight. The scales arrive as a `[112, 32]` array whose
row index is the weight's COLUMN tile; the band of eight rows `8 t … 8 t + 7` is transposed inside the body to meet the
band's `32 × 8` tiles, so entry `(r, k)` is multiplied by the scales' entry `(k / 128, r / 128)`. -/

theorem zeros2 : (![0, 0] : Fin 2 → Nat) = fun _ => 0 := funext fun a => by fin_cases a <;> rfl

/-- The body's arithmetic at one entry of a band: entry `(r, k)` of the weight band times the entry `(k / 128, r / 128)`
    of the band of scales (rounding to bf16 does nothing to an extended real). The band is cut into
    `32 × 128 × 8 × 128`, the scales are transposed to `32 × 8` and spread as `32 × 1 × 8 × 1`. -/
theorem pay2_at (x0 : Vec Ideal S4096x1024 .f32) (x1 : Vec Ideal S8x32 .f32) (r : Fin 4096) (k : Fin 1024)
    (a : Fin 32) (b : Fin 8) (ha : a.val = r.val / 128) (hb : b.val = k.val / 128) :
    k2_pay1 x0 x1 (ix2 r k) = x0 (ix2 r k) * x1 (ix2 b a) := by
  have hr := r.isLt
  have hk := k.isLt
  unfold k2_pay1
  rw [truncf_apply]
  refine (shapeCast_apply _ _ (ix2 r k) (ix4 a ⟨r.val % 128, Nat.mod_lt _ (by omega)⟩ b ⟨k.val % 128, Nat.mod_lt _ (by omega)⟩) ?_).trans ?_
  · rw [Shape.rowMajor_val_two, Shape.rowMajor_val_four]
    show ((a.val * 128 + r.val % 128) * 8 + b.val) * 128 + k.val % 128 = r.val * 1024 + k.val
    omega
  rw [mulf_apply]
  congr 1
  · refine shapeCast_apply _ _ _ (ix2 r k) ?_
    rw [Shape.rowMajor_val_two, Shape.rowMajor_val_four]
    show r.val * 1024 + k.val = ((a.val * 128 + r.val % 128) * 8 + b.val) * 128 + k.val % 128
    omega
  · refine (broadcastTo_apply _ _ _ (ix4 a 0 b 0) fun d => ?_).trans ?_
    · match d with
      | ⟨0, _⟩ => rfl
      | ⟨1, _⟩ => rfl
      | ⟨2, _⟩ => rfl
      | ⟨3, _⟩ => rfl
    refine (shapeCast_apply _ _ _ (ix2 a b) ?_).trans ?_
    · rw [Shape.rowMajor_val_two, Shape.rowMajor_val_four]
      show a.val * 8 + b.val = ((a.val * 1 + 0) * 8 + b.val) * 1 + 0
      omega
    refine (transpose_apply _ _ _ (ix2 a b) (ix2 b a) fun d => ?_).trans ?_
    · match d with
      | ⟨0, _⟩ => rfl
      | ⟨1, _⟩ => rfl
    exact congrFun (shapeCast_self _ _) _

/-- The same at any index of the band. -/
theorem pay2_idx (x0 : Vec Ideal S4096x1024 .f32) (x1 : Vec Ideal S8x32 .f32) (j : S4096x1024.Idx)
    (a : Fin 32) (b : Fin 8) (ha : a.val = (j 0).val / 128) (hb : b.val = (j 1).val / 128) :
    k2_pay1 x0 x1 j = x0 j * x1 (ix2 b a) := by
  obtain ⟨r, k, rfl⟩ : ∃ (r : Fin 4096) (k : Fin 1024), j = ix2 r k := ⟨j 0, j 1, eq_ix2 j⟩
  exact pay2_at x0 x1 r k a b ha hb

/-- An entry of the rescaled weight, from the weight entry and the (transposed) scale entry that sit where they should. -/
theorem deqCol_entry2 (A : Cert.Spec.A2 4096 14336) (S : Cert.Spec.A2 112 32) (i i0 : S4096x14336.Idx) (i1 : S112x32.Idx)
    (h0 : i0 = i) (h10 : (i1 0).val = (i 1).val / 128) (h11 : (i1 1).val = (i 0).val / 128) :
    A i0 * S i1 = Cert.Spec.deqCol A S i := by
  subst h0
  unfold Cert.Spec.deqCol
  congr 2
  funext a
  match a with
  | ⟨0, _⟩ => exact Fin.ext h10
  | ⟨1, _⟩ => exact Fin.ext h11

/-- How the three windows move over the grid: the weight band and the output band together along the columns, the
    scales down their rows at the same pace. -/
theorem moves2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (1 : Fin 2)
    ∧ win2_1.index t (1 : Fin 2) = 0
    ∧ win2_2.index t (0 : Fin 2) = 0
    ∧ win2_2.index t (1 : Fin 2) ≤ 13 :=
  (by decide +kernel : ∀ t : Fin grid2.N, _)

/-- Every one of the fourteen column bands is some point's. -/
theorem reaches2 : ∀ q : Fin 14, ∃ t : Fin cfg2.N, win2_2.index t = ![0, q.val] :=
  (by decide +kernel : ∀ q : Fin 14, ∃ t : Fin grid2.N, win2_2.index t = ![0, q.val])

/-- What point `t` writes back is its band of the rescaled weight. -/
theorem wrote2 (c : Dev nD) (t : Fin cfg2.N) :
    (dat2 (F := Ideal) V c).flushed 2 t
      = ((cfg2.win 2).blk t).view.read (Elt Ideal) (Cert.Spec.deqCol (V c main_arg5) (V c main_v4)) := by
  show (cfg2.win 2).cut (grid2.coords t) ((dat2 V c).after 2 t) = _
  rw [after2_2]
  unfold out2_2
  rw [View.canon_unit_zero zeros2]
  simp only [View.ld_unit_zero (S := S4096x1024) zeros2, View.ld_unit_zero (S := S8x32) zeros2]
  obtain ⟨e0, e1, e2, e3, e4, e5⟩ := moves2 t
  funext j
  have hj0 : (j 0).val < 4096 := (j 0).isLt
  have hj1 : (j 1).val < 1024 := (j 1).isLt
  show k2_pay1 (iblk2 V c 0 t) (iblk2 V c 1 t) j
    = Cert.Spec.deqCol (V c main_arg5) (V c main_v4) (((cfg2.win 2).blk t).view.emb j)
  refine (pay2_idx (iblk2 V c 0 t) (iblk2 V c 1 t) j ⟨(j 0).val / 128, by omega⟩ ⟨(j 1).val / 128, by omega⟩ rfl rfl).trans ?_
  refine deqCol_entry2 (V c main_arg5) (V c main_v4) (((cfg2.win 2).blk t).view.emb j) (((cfg2.win 0).blk t).view.emb j)
    (((cfg2.win 1).blk t).view.emb (ix2 ⟨(j 1).val / 128, by omega⟩ ⟨(j 0).val / 128, by omega⟩)) ?_ ?_ ?_
  · funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 1024 + 1 * (j 1).val = win2_2.index t (1 : Fin 2) * 1024 + 1 * (j 1).val; omega
  · show win2_1.index t (0 : Fin 2) * 8 + 1 * ((j 1).val / 128) = (win2_2.index t (1 : Fin 2) * 1024 + 1 * (j 1).val) / 128
    omega
  · show win2_1.index t (1 : Fin 2) * 32 + 1 * ((j 0).val / 128) = (win2_2.index t (0 : Fin 2) * 4096 + 1 * (j 0).val) / 128
    omega

/-- An entry lies in point `t`'s output band exactly when each coordinate is within the band's range. -/
theorem in_band2 (t : Fin cfg2.N) (i : S4096x14336.Idx) :
    i ∈ ((cfg2.win 2).blk t).view.set ↔ ∀ a : Fin 2, win2_2.index t a * S4096x1024.size a ≤ (i a).val ∧ (i a).val < win2_2.index t a * S4096x1024.size a + S4096x1024.size a := by
  show i ∈ ((View.whole main_v5).slice (win2_2.rect t)).set ↔ _
  rw [View.set_slice_whole, Rect.mem_set_unit]
  exact Iff.rfl

/-- Every entry of the output is written: column `k` by the point whose band is `k / 1024`. -/
theorem all_written2 (i : S4096x14336.Idx) :
    ∃ t : Fin cfg2.N, (cfg2.win 2).flush t = true ∧ i ∈ ((cfg2.win 2).blk t).view.set := by
  have hi0 : (i 0).val < 4096 := (i 0).isLt
  have hi1 : (i 1).val < 14336 := (i 1).isLt
  obtain ⟨t, ht⟩ := reaches2 ⟨(i 1).val / 1024, by omega⟩
  have q0 : win2_2.index t (0 : Fin 2) = 0 := congrFun ht 0
  have q1 : win2_2.index t (1 : Fin 2) = (i 1).val / 1024 := congrFun ht 1
  refine ⟨t, flush2_2 t, ?_⟩
  rw [in_band2]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 1024 ≤ (i 1).val ∧ (i 1).val < win2_2.index t (1 : Fin 2) * 1024 + 1024; omega

/-- The output array after the region: the weight rescaled tile by tile, the scales read transposed. -/
theorem final2 (c : Dev nD) : (dat2 (F := Ideal) V c).arrAt 2 cfg2.N = Cert.Spec.deqCol (V c main_arg5) (V c main_v4) :=
  (dat2 V c).arrAt_eq_of_cover 2 _ (fun t _ => wrote2 V c t) all_written2

end Cert.KernelIdeal.Hand

end
-- ==== Proof.KI.ValDequant.lean ====
import proofs.«151961_j22153441312857_2_alg».proof.Proof.KI.ValDequant0
import proofs.«151961_j22153441312857_2_alg».proof.Proof.KI.ValDequant1
import proofs.«151961_j22153441312857_2_alg».proof.Proof.KI.ValDequant2

/-! The three rescaled weights as whole arrays, gathered. -/
-- ==== Proof.KI.Value.lean ====
/-
  What the idealized kernel program leaves in its result buffer, as ONE function of the seven argument arrays.

  Each boundary's contents are followed back to the launch memory: a buffer no item writes is what it was; an input
  window's array is handed back as found; each region's output array is that region's function of its input arrays
  (the three rescaled weights, the gated product, the down projection); the host operations merge and split the two
  leading axes and transpose one scale array.  Composed, the result is `Cert.Spec.layer` of the arguments.
-/
import proofs.«151961_j22153441312857_2_alg».proof.Proof.KI.Run
import proofs.«151961_j22153441312857_2_alg».proof.Proof.KI.ValDequant
import proofs.«151961_j22153441312857_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

/-! ## The three layout operations of the host, read whole -/

/-- Merging the two leading axes is the row-major re-reading. -/
theorem cast_flat (x : Cert.Spec.A3 2 1024 4096) (h : (⟨3, ![2, 1024, 4096]⟩ : Shape).ShapeCasts ⟨2, ![2048, 4096]⟩) :
    shapeCast ⟨2, ![2048, 4096]⟩ x h = Cert.Spec.flat x := by
  funext i
  exact shapeCast_apply x h i _ (by
    rewrite [Shape.rowMajor_val_three, Shape.rowMajor_val_two]
    have h0 : (i 0).val < 2048 := (i 0).isLt
    have h1 : (i 1).val < 4096 := (i 1).isLt
    show ((i 0).val / 1024 * 1024 + (i 0).val % 1024) * 4096 + (i 1).val = (i 0).val * 4096 + (i 1).val
    omega)

/-- Splitting the leading axis back is the row-major re-reading. -/
theorem cast_unflat (y : Cert.Spec.A2 2048 4096) (h : (⟨2, ![2048, 4096]⟩ : Shape).ShapeCasts ⟨3, ![2, 1024, 4096]⟩) :
    shapeCast ⟨3, ![2, 1024, 4096]⟩ y h = Cert.Spec.unflat y := by
  funext j
  exact shapeCast_apply y h j _ (by
    rewrite [Shape.rowMajor_val_two, Shape.rowMajor_val_three]
    rfl)

/-- The host's transpose of the [32, 112] scales. -/
theorem transpose_transp (s : Cert.Spec.A2 32 112) (h : (⟨2, ![32, 112]⟩ : Shape).Transposes [1, 0] ⟨2, ![112, 32]⟩) :
    transpose ⟨2, ![112, 32]⟩ [1, 0] s h = Cert.Spec.transp s := by
  funext i
  exact transpose_apply [1, 0] s h i _ (fun b => match b with
    | ⟨0, _⟩ => rfl
    | ⟨1, _⟩ => rfl)

variable (m : (ℓ : Loc nD τ sig) → Buf (Elt Ideal) ℓ) (c : Dev nD)

/-! ## The regions' input arrays, followed back to the arguments -/

/-- The activations as the gated region finds them: the input with its leading axes merged (the rounding to the
    matmul's operand format is the identity on the extended reals). -/
theorem at_v1 : V5 m c main_v1 = Cert.Spec.flat (m ((c : Thread nD τ).loc main_arg0)) := by
  refine ((W5_of_ne m c main_v1 (by decide)).trans <| (W4_of m c main_v1 (by decide)).trans <| (W3_of_ne m c main_v1 (by decide)).trans <| (W2_of_ne m c main_v1 (by decide))).trans ?_
  show StableHlo.after hostOps0 (W0 m c) (Proc.devRef .tc main_v1) = _
  after_results
  exact cast_flat _ _

/-- The first rescaled weight, as the gated region finds it. -/
theorem at_v2 : V5 m c main_v2 = Cert.Spec.deqRow (m ((c : Thread nD τ).loc main_arg1)) (m ((c : Thread nD τ).loc main_arg2)) := by
  refine ((W5_of_ne m c main_v2 (by decide)).trans <| (W4_of m c main_v2 (by decide)).trans <| (W3_of_ne m c main_v2 (by decide))).trans ?_
  refine ((W2_arr m c 2).trans (final0 (V1 m) c)).trans ?_
  rw [show V1 m c main_arg1 = (m ((c : Thread nD τ).loc main_arg1)) from W1_of m c main_arg1 (by decide),
    show V1 m c main_arg2 = (m ((c : Thread nD τ).loc main_arg2)) from W1_of m c main_arg2 (by decide)]

/-- The second rescaled weight, as the gated region finds it. -/
theorem at_v3 : V5 m c main_v3 = Cert.Spec.deqRow (m ((c : Thread nD τ).loc main_arg3)) (m ((c : Thread nD τ).loc main_arg4)) := by
  refine ((W5_of_ne m c main_v3 (by decide)).trans <| (W4_of m c main_v3 (by decide))).trans ?_
  refine ((W3_arr m c 2).trans (final1 (V2 m) c)).trans ?_
  rw [show V2 m c main_arg3 = (m ((c : Thread nD τ).loc main_arg3)) from (W2_of_ne m c main_arg3 (by decide)).trans <| (W1_of m c main_arg3 (by decide)),
    show V2 m c main_arg4 = (m ((c : Thread nD τ).loc main_arg4)) from (W2_of_ne m c main_arg4 (by decide)).trans <| (W1_of m c main_arg4 (by decide))]

/-- The third rescaled weight, as the down projection finds it. -/
theorem at_v5 : V6 m c main_v5 = Cert.Spec.deqCol (m ((c : Thread nD τ).loc main_arg5)) (Cert.Spec.transp (m ((c : Thread nD τ).loc main_arg6))) := by
  refine ((W6_of_ne m c main_v5 (by decide))).trans ?_
  refine ((W5_arr m c 2).trans (final2 (V4 m) c)).trans ?_
  have e4 : V4 m c main_v4 = Cert.Spec.transp (m ((c : Thread nD τ).loc main_arg6)) := by
    show StableHlo.after hostOps2 (W3 m c) (Proc.devRef .tc main_v4) = _
    after_results
    rw [show W3 m c (Proc.devRef .tc main_arg6) = (m ((c : Thread nD τ).loc main_arg6)) from (W3_of_ne m c main_arg6 (by decide)).trans <| (W2_of_ne m c main_arg6 (by decide)).trans <| (W1_of m c main_arg6 (by decide))]
    exact transpose_transp _ _
  rw [e4, show V4 m c main_arg5 = (m ((c : Thread nD τ).loc main_arg5)) from (W4_of m c main_arg5 (by decide)).trans <| (W3_of_ne m c main_arg5 (by decide)).trans <| (W2_of_ne m c main_arg5 (by decide)).trans <| (W1_of m c main_arg5 (by decide))]

section
variable (f3 : ∀ (V : (c : Dev nD) → (b : Ref sig .tc) → Buf (Elt Ideal) ((c : Thread nD τ).loc b)) (c : Dev nD),
    (dat3 (F := Ideal) V c).arrAt 3 cfg3.N = Cert.Spec.gated (V c main_v1) (V c main_v2) (V c main_v3))
variable (f4 : ∀ (V : (c : Dev nD) → (b : Ref sig .tc) → Buf (Elt Ideal) ((c : Thread nD τ).loc b)) (c : Dev nD),
    (dat4 (F := Ideal) V c).arrAt 2 cfg4.N = Cert.Spec.down (V c main_v6) (V c main_v5))
include f3 f4

/-- THE KERNEL'S RESULT: the result buffer at the last boundary is the layer of the launch contents of the arguments. -/
theorem result_eq : W8 m c (Proc.devRef .tc main_v8)
    = Cert.Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e6 : V6 m c main_v6 = Cert.Spec.gated (Cert.Spec.flat (m ((c : Thread nD τ).loc main_arg0))) (Cert.Spec.deqRow (m ((c : Thread nD τ).loc main_arg1)) (m ((c : Thread nD τ).loc main_arg2))) (Cert.Spec.deqRow (m ((c : Thread nD τ).loc main_arg3)) (m ((c : Thread nD τ).loc main_arg4))) := by
    refine ((W6_arr m c 3).trans (f3 (V5 m) c)).trans ?_
    rw [at_v1, at_v2, at_v3]
  have e7 : W7 m c (Proc.devRef .tc main_v7) = Cert.Spec.down (V6 m c main_v6) (V6 m c main_v5) :=
    (W7_arr m c 2).trans (f4 (V6 m) c)
  show StableHlo.after hostOps5 (W7 m c) (Proc.devRef .tc main_v8) = _
  after_results
  rw [e7, e6, at_v5]
  exact cast_unflat _ _

end

end Cert.KernelIdeal.Hand

end
-- ==== Proof.KI.ValGated.lean ====
import proofs.«151961_j22153441312857_2_alg».proof.Proof.KI.RegGated
import proofs.«151961_j22153441312857_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand.Gated
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Idealize.ShloMosaic.ValueIdx
open Cert.KernelIdeal Cert.KernelIdeal.Gen

/-! # What the gate/up product region computes -/

section Pieces

variable {F : FTy → Type} [FloatOps F]

theorem hz3 : (![0, 0] : Fin 2 → Nat) = fun _ => 0 := funext fun a => by fin_cases a <;> rfl

/-- A last step leaves the gate accumulator at what it held plus this step's product. -/
theorem sout3_B_0_eq (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) :
    sout3_B_0 c i arg3 harg3 arg4 harg4 arg5 harg5 arg6 harg6 arg7 harg7 arg8 harg8 hc0 hc1 x0 x1 x2 xs0 xs1 = k3_pay4 x0 x1 xs0 := by
  unfold sout3_B_0
  rw [View.read_writes_eq_canon _ _ _ (scover3_B_0 c i arg3 harg3 arg4 harg4 arg5 harg5 arg6 harg6 arg7 harg7 arg8 harg8 hc0 hc1 x0 x1 x2 xs0 xs1)]
  unfold kernelRun3_B
  dsimp only
  sl_unfold_words
  rw [View.canon_unit_zero hz3]
  simp only [View.readAt_eq_ld, harg3.read_unread, harg4.read_unread, harg5.read_unread, harg6.read_unread, harg7.read_unread, harg8.read_unread, View.ld_unit_zero (S := S512x2048) hz3, View.ld_unit_zero (S := S1024x2048) hz3, View.ld_unit_zero (S := S512x1024) hz3]

/-- The same for the up accumulator. -/
theorem sout3_B_1_eq (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) :
    sout3_B_1 c i arg3 harg3 arg4 harg4 arg5 harg5 arg6 harg6 arg7 harg7 arg8 harg8 hc0 hc1 x0 x1 x2 xs0 xs1 = k3_pay5 x0 x2 xs1 := by
  unfold sout3_B_1
  rw [View.read_writes_eq_canon _ _ _ (scover3_B_1 c i arg3 harg3 arg4 harg4 arg5 harg5 arg6 harg6 arg7 harg7 arg8 harg8 hc0 hc1 x0 x1 x2 xs0 xs1)]
  unfold kernelRun3_B
  dsimp only
  sl_unfold_words
  rw [View.canon_unit_zero hz3]
  simp only [View.readAt_eq_ld, harg3.read_unread, harg4.read_unread, harg5.read_unread, harg6.read_unread, harg7.read_unread, harg8.read_unread, View.ld_unit_zero (S := S512x2048) hz3, View.ld_unit_zero (S := S1024x2048) hz3, View.ld_unit_zero (S := S512x1024) hz3]

/-- A last step leaves in the output buffer the activation of the two accumulators as it has just left them. -/
theorem out3_B_3_eq (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬cond3_0 i) (hc1 : cond3_1 i) (x0 : Vec F S512x2048 .bf16) (x1 : Vec F S1024x2048 .bf16) (x2 : Vec F S1024x2048 .bf16) (xs0 : Vec F S512x1024 .f32) (xs1 : Vec F S512x1024 .f32) :
    out3_B_3 c i arg3 harg3 arg4 harg4 arg5 harg5 arg6 harg6 arg7 harg7 arg8 harg8 hc0 hc1 x0 x1 x2 xs0 xs1 = k3_pay6 (k3_pay4 x0 x1 xs0) (k3_pay5 x0 x2 xs1) := by
  unfold out3_B_3
  rw [View.read_writes_eq_canon _ _ _ (cover3_B_3 c i arg3 harg3 arg4 harg4 arg5 harg5 arg6 harg6 arg7 harg7 arg8 harg8 hc0 hc1 x0 x1 x2 xs0 xs1)]
  unfold kernelRun3_B
  dsimp only
  sl_unfold_words
  rw [View.canon_unit_zero hz3]
  simp only [View.readAt_eq_ld, View.readCov_unit_zero (S := S512x1024) _ hz3, harg3.read_unread, harg4.read_unread, harg5.read_unread, harg6.read_unread, harg7.read_unread, harg8.read_unread, View.ld_unit_zero (S := S512x2048) hz3, View.ld_unit_zero (S := S1024x2048) hz3, View.ld_unit_zero (S := S512x1024) hz3]

/-- A first step leaves the gate accumulator at zero plus this step's product. -/
theorem sout3_A_0_eq (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) :
    sout3_A_0 c i arg3 harg3 arg4 harg4 arg5 harg5 arg6 harg6 arg7 harg7 arg8 harg8 hc0 hc1 x0 x1 x2 = k3_pay4 x0 x1 (k3_pay1 (F := F)) := by
  unfold sout3_A_0
  rw [View.read_writes_eq_canon _ _ _ (scover3_A_0 c i arg3 harg3 arg4 harg4 arg5 harg5 arg6 harg6 arg7 harg7 arg8 harg8 hc0 hc1 x0 x1 x2)]
  unfold kernelRun3_A
  dsimp only
  sl_unfold_words
  rw [View.canon_cons_unit_zero (S := S512x1024) hz3, View.readCov_unit_zero (S := S512x1024) _ hz3]
  simp only [View.readAt_eq_ld, harg3.read_unread, harg4.read_unread, harg5.read_unread, harg6.read_unread, harg7.read_unread, harg8.read_unread, View.ld_unit_zero (S := S512x2048) hz3, View.ld_unit_zero (S := S1024x2048) hz3, View.ld_unit_zero (S := S512x1024) hz3]

/-- The same for the up accumulator. -/
theorem sout3_A_1_eq (c : Dev nD) (i : grid3.Coords) (arg3 : Memref sig .tc .vmem S512x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : cond3_0 i) (hc1 : ¬cond3_1 i) (x0 : Vec F S512x2048 .bf16) (x1 : Vec F S1024x2048 .bf16) (x2 : Vec F S1024x2048 .bf16) :
    sout3_A_1 c i arg3 harg3 arg4 harg4 arg5 harg5 arg6 harg6 arg7 harg7 arg8 harg8 hc0 hc1 x0 x1 x2 = k3_pay5 x0 x2 (k3_pay2 (F := F)) := by
  unfold sout3_A_1
  rw [View.read_writes_eq_canon _ _ _ (scover3_A_1 c i arg3 harg3 arg4 harg4 arg5 harg5 arg6 harg6 arg7 harg7 arg8 harg8 hc0 hc1 x0 x1 x2)]
  unfold kernelRun3_A
  dsimp only
  sl_unfold_words
  rw [View.canon_cons_unit_zero (S := S512x1024) hz3, View.readCov_unit_zero (S := S512x1024) _ hz3]
  simp only [View.readAt_eq_ld, harg3.read_unread, harg4.read_unread, harg5.read_unread, harg6.read_unread, harg7.read_unread, harg8.read_unread, View.ld_unit_zero (S := S512x2048) hz3, View.ld_unit_zero (S := S1024x2048) hz3, View.ld_unit_zero (S := S512x1024) hz3]

end Pieces

/-! ## The points of the grid -/

section Points

variable {F : FTy → Type} [FloatOps F]
variable (V : (c : Dev nD) → (b : Ref sig .tc) → Buf (Elt F) ((c : Thread nD τ).loc b))

theorem outsAt3_even (c : Dev nD) (n : ℕ) (hn : n < cfg3.N) (h : n % 2 = 0) : outsAt3 V c n hn = ptA3 V c ⟨n, hn⟩ h :=
  outsAt3_A V c ⟨n, hn⟩ h

/-- The position before. -/
def prev3 (t : Fin cfg3.N) : Fin cfg3.N := ⟨t.val - 1, Nat.lt_of_le_of_lt (Nat.sub_le _ _) t.isLt⟩

theorem ptB3_1 (c : Dev nD) (t : Fin cfg3.N) (h : ¬t.val % 2 = 0) (xs0 xs1 : Vec F S512x1024 .f32) :
    (ptB3 V c t h xs0 xs1).1 = k3_pay6 (k3_pay4 (iblk3 V c 0 t) (iblk3 V c 1 t) xs0) (k3_pay5 (iblk3 V c 0 t) (iblk3 V c 2 t) xs1) := by
  unfold ptB3
  dsimp only
  rw [out3_B_3_eq]

theorem ptA3_2 (c : Dev nD) (t : Fin cfg3.N) (h : t.val % 2 = 0) :
    (ptA3 V c t h).2.1 = k3_pay4 (iblk3 V c 0 t) (iblk3 V c 1 t) (k3_pay1 (F := F)) := by
  unfold ptA3
  dsimp only
  rw [sout3_A_0_eq]

theorem ptA3_3 (c : Dev nD) (t : Fin cfg3.N) (h : t.val % 2 = 0) :
    (ptA3 V c t h).2.2 = k3_pay5 (iblk3 V c 0 t) (iblk3 V c 2 t) (k3_pay2 (F := F)) := by
  unfold ptA3
  dsimp only
  rw [sout3_A_1_eq]

/-- After an odd position the output buffer holds the activation of the two accumulators, each of them zero plus the
    product of the position before plus the product of this position. -/
theorem out_odd (c : Dev nD) (t : Fin cfg3.N) (h : ¬t.val % 2 = 0) :
    (outsAt3 V c t.val t.isLt).1 =
      k3_pay6 (k3_pay4 (iblk3 V c 0 t) (iblk3 V c 1 t) (k3_pay4 (iblk3 V c 0 (prev3 t)) (iblk3 V c 1 (prev3 t)) (k3_pay1 (F := F))))
        (k3_pay5 (iblk3 V c 0 t) (iblk3 V c 2 t) (k3_pay5 (iblk3 V c 0 (prev3 t)) (iblk3 V c 2 (prev3 t)) (k3_pay2 (F := F)))) := by
  have h' : (t.val - 1) % 2 = 0 := by omega
  rw [outsAt3_B V c t h, ptB3_1, outsAt3_even V c (t.val - 1) _ h', ptA3_2, ptA3_3]
  rfl

/-! ## Where the blocks sit in their arrays -/

theorem idx3_0 : ∀ t : Fin cfg3.N, win3_0.index t 0 = t.val / 28 ∧ win3_0.index t 1 = t.val % 2 :=
  (by decide +kernel : ∀ t : Fin grid3.N, win3_0.index t 0 = t.val / 28 ∧ win3_0.index t 1 = t.val % 2)
theorem idx3_1 : ∀ t : Fin cfg3.N, win3_1.index t 0 = t.val / 2 % 14 ∧ win3_1.index t 1 = t.val % 2 :=
  (by decide +kernel : ∀ t : Fin grid3.N, win3_1.index t 0 = t.val / 2 % 14 ∧ win3_1.index t 1 = t.val % 2)
theorem idx3_2 : ∀ t : Fin cfg3.N, win3_2.index t 0 = t.val / 2 % 14 ∧ win3_2.index t 1 = t.val % 2 :=
  (by decide +kernel : ∀ t : Fin grid3.N, win3_2.index t 0 = t.val / 2 % 14 ∧ win3_2.index t 1 = t.val % 2)
theorem idx3_3 : ∀ t : Fin cfg3.N, win3_3.index t 0 = t.val / 28 ∧ win3_3.index t 1 = t.val / 2 % 14 :=
  (by decide +kernel : ∀ t : Fin grid3.N, win3_3.index t 0 = t.val / 28 ∧ win3_3.index t 1 = t.val / 2 % 14)

/-- The activation block at a point is rows 512·(t/28) … and columns 2048·(t%2) … of the activation array. -/
theorem iblk3_0_apply (c : Dev nD) (t : Fin cfg3.N) (x : S512x2048.Idx) (k : S2048x4096.Idx)
    (hk0 : (k 0).val = 512 * (t.val / 28) + (x 0).val) (hk1 : (k 1).val = 2048 * (t.val % 2) + (x 1).val) :
    (iblk3 V c 0 t : Vec F S512x2048 .bf16) x = (V c main_v1 : S2048x4096.Idx → Elt F .bf16) k := by
  have hi := idx3_0 t
  unfold iblk3
  rw [View.read_apply]
  show V c main_v1 _ = V c main_v1 _
  congr 1
  funext a
  apply Fin.ext
  match a with
  | ⟨0, _⟩ => show win3_0.index t 0 * 512 + 1 * (x 0).val = (k 0).val; rw [hi.1, hk0]; omega
  | ⟨1, _⟩ => show win3_0.index t 1 * 2048 + 1 * (x 1).val = (k 1).val; rw [hi.2, hk1]; omega

/-- The gate weight block at a point is rows 1024·((t/2)%14) … and columns 2048·(t%2) … of the gate weight. -/
theorem iblk3_1_apply (c : Dev nD) (t : Fin cfg3.N) (x : S1024x2048.Idx) (k : S14336x4096.Idx)
    (hk0 : (k 0).val = 1024 * (t.val / 2 % 14) + (x 0).val) (hk1 : (k 1).val = 2048 * (t.val % 2) + (x 1).val) :
    (iblk3 V c 1 t : Vec F S1024x2048 .bf16) x = (V c main_v2 : S14336x4096.Idx → Elt F .bf16) k := by
  have hi := idx3_1 t
  unfold iblk3
  rw [View.read_apply]
  show V c main_v2 _ = V c main_v2 _
  congr 1
  funext a
  apply Fin.ext
  match a with
  | ⟨0, _⟩ => show win3_1.index t 0 * 1024 + 1 * (x 0).val = (k 0).val; rw [hi.1, hk0]; omega
  | ⟨1, _⟩ => show win3_1.index t 1 * 2048 + 1 * (x 1).val = (k 1).val; rw [hi.2, hk1]; omega

/-- The same for the up weight. -/
theorem iblk3_2_apply (c : Dev nD) (t : Fin cfg3.N) (x : S1024x2048.Idx) (k : S14336x4096.Idx)
    (hk0 : (k 0).val = 1024 * (t.val / 2 % 14) + (x 0).val) (hk1 : (k 1).val = 2048 * (t.val % 2) + (x 1).val) :
    (iblk3 V c 2 t : Vec F S1024x2048 .bf16) x = (V c main_v3 : S14336x4096.Idx → Elt F .bf16) k := by
  have hi := idx3_2 t
  unfold iblk3
  rw [View.read_apply]
  show V c main_v3 _ = V c main_v3 _
  congr 1
  funext a
  apply Fin.ext
  match a with
  | ⟨0, _⟩ => show win3_2.index t 0 * 1024 + 1 * (x 0).val = (k 0).val; rw [hi.1, hk0]; omega
  | ⟨1, _⟩ => show win3_2.index t 1 * 2048 + 1 * (x 1).val = (k 1).val; rw [hi.2, hk1]; omega

end Points

/-! ## The arithmetic, over the extended reals -/

section AtIdeal

variable (V : (c : Dev nD) → (b : Ref sig .tc) → Buf (Elt Ideal) ((c : Thread nD τ).loc b))

/-- The contraction both products share: along axis 1 of each operand. -/
abbrev D3 : DotDims S512x2048 S1024x2048 S512x1024 := dot_S512x2048_S1024x2048_S512x1024_1_1_0_0_n_n

/-- The block both accumulators restart from is zero everywhere. -/
theorem pay1_apply (y : S512x1024.Idx) : k3_pay1 (F := Ideal) y = 0 := by
  unfold k3_pay1
  simp only [shapeCast_self]
  exact Ideal.ofBits_zero_f32

theorem pay2_apply (y : S512x1024.Idx) : k3_pay2 (F := Ideal) y = 0 := by
  unfold k3_pay2
  simp only [shapeCast_self]
  exact Ideal.ofBits_zero_f32

/-- Reading the activation block along a row and the weight block along a row: the operand positions of the product at
    output position (r, n) and contracted position k are (r, k) and (n, k). -/
theorem D3_lhs (r : Fin 512) (n : Fin 1024) (k : Fin 2048) :
    D3.lhsIdx (ix2 r n) ((contrEquiv1 D3 2048 rfl rfl).symm k) = ix2 r k := by
  funext a
  match a with
  | ⟨0, _⟩ => rfl
  | ⟨1, _⟩ => rfl

theorem D3_rhs (r : Fin 512) (n : Fin 1024) (k : Fin 2048) :
    D3.rhsIdx (ix2 r n) ((contrEquiv1 D3 2048 rfl rfl).symm k) = ix2 n k := by
  funext a
  match a with
  | ⟨0, _⟩ => rfl
  | ⟨1, _⟩ => rfl

/-- The product into the zero block, at an output position: the sum over the 2048 contracted positions. -/
theorem mm_apply (x : FVec Ideal S512x2048 .bf16) (w : FVec Ideal S1024x2048 .bf16) (r : Fin 512) (n : Fin 1024) :
    matmul (F := Ideal) D3 none x w (constant S512x1024 .f32 0x00000000#32) (ix2 r n) = ∑ k : Fin 2048, x (ix2 r k) * w (ix2 n k) := by
  refine (Ideal.matmul_constant_zero_apply D3 none x w (ix2 r n)).trans ?_
  refine (Equiv.sum_comp (contrEquiv1 D3 2048 rfl rfl).symm (fun q => x (D3.lhsIdx (ix2 r n) q) * w (D3.rhsIdx (ix2 r n) q))).symm.trans ?_
  refine Finset.sum_congr rfl fun k _ => ?_
  show x (D3.lhsIdx _ _) * w (D3.rhsIdx _ _) = _
  rw [D3_lhs, D3_rhs]

/-- One step of the gate accumulation at an output position: what the accumulator held plus the step's sum. -/
theorem pay4_apply (x : FVec Ideal S512x2048 .bf16) (w : FVec Ideal S1024x2048 .bf16) (acc : FVec Ideal S512x1024 .f32) (r : Fin 512) (n : Fin 1024) :
    k3_pay4 x w acc (ix2 r n) = acc (ix2 r n) + ∑ k : Fin 2048, x (ix2 r k) * w (ix2 n k) := by
  unfold k3_pay4 k3_pay3
  simp only [shapeCast_self]
  exact congrArg (acc (ix2 r n) + ·) (mm_apply x w r n)

/-- The same for the up accumulation. -/
theorem pay5_apply (x : FVec Ideal S512x2048 .bf16) (w : FVec Ideal S1024x2048 .bf16) (acc : FVec Ideal S512x1024 .f32) (r : Fin 512) (n : Fin 1024) :
    k3_pay5 x w acc (ix2 r n) = acc (ix2 r n) + ∑ k : Fin 2048, x (ix2 r k) * w (ix2 n k) := by
  unfold k3_pay5 k3_pay3
  simp only [shapeCast_self]
  exact congrArg (acc (ix2 r n) + ·) (mm_apply x w r n)

/-- The activation at an output position: gate times its logistic, times up; the final rounding is the identity here. -/
theorem pay6_apply (g u : FVec Ideal S512x1024 .f32) (y : S512x1024.Idx) :
    k3_pay6 (F := Ideal) g u y = (g y * Ideal.logistic (g y)) * u y := rfl

/-- A sum over 4096 positions is the sum over the first 2048 plus the sum over the last 2048. -/
theorem sum_halves (f : Fin 4096 → EReal) :
    ∑ k : Fin 4096, f k = ∑ k : Fin 2048, f ⟨k.val, by have := k.isLt; omega⟩ + ∑ k : Fin 2048, f ⟨2048 + k.val, by have := k.isLt; omega⟩ :=
  Fin.sum_univ_add (a := 2048) (b := 2048) f

/-- The two steps of one output block add up, in order onto zero, to the whole inner product: for the gate weight, -/
theorem acc_gate (c : Dev nD) (t : Fin cfg3.N) (h : ¬t.val % 2 = 0) (r : Fin 512) (n : Fin 1024) (i : S2048x14336.Idx)
    (hi0 : (i 0).val = 512 * (t.val / 28) + r.val) (hi1 : (i 1).val = 1024 * (t.val / 2 % 14) + n.val)
    (X : Cert.Spec.A2 2048 4096) (A : Cert.Spec.A2 14336 4096) (hX : X = V c main_v1) (hA : A = V c main_v2) :
    k3_pay4 (iblk3 V c 0 t) (iblk3 V c 1 t) (k3_pay4 (iblk3 V c 0 (prev3 t)) (iblk3 V c 1 (prev3 t)) (k3_pay1 (F := Ideal))) (ix2 r n)
      = ∑ k : Fin 4096, X (ix2 (Cert.Spec.row i) k) * A (ix2 (Cert.Spec.col i) k) := by
  have hp : (prev3 t).val = t.val - 1 := rfl
  subst hX hA
  rw [pay4_apply, pay4_apply, pay1_apply, zero_add, sum_halves]
  congr 1
  · refine Finset.sum_congr rfl fun k _ => ?_
    congr 1
    · exact iblk3_0_apply V c (prev3 t) (ix2 r k) (ix2 (Cert.Spec.row i) ⟨k.val, by have := k.isLt; omega⟩)
        (by show (i 0).val = 512 * ((prev3 t).val / 28) + r.val; rw [hi0, hp]; omega)
        (by show k.val = 2048 * ((prev3 t).val % 2) + k.val; rw [hp]; omega)
    · exact iblk3_1_apply V c (prev3 t) (ix2 n k) (ix2 (Cert.Spec.col i) ⟨k.val, by have := k.isLt; omega⟩)
        (by show (i 1).val = 1024 * ((prev3 t).val / 2 % 14) + n.val; rw [hi1, hp]; omega)
        (by show k.val = 2048 * ((prev3 t).val % 2) + k.val; rw [hp]; omega)
  · refine Finset.sum_congr rfl fun k _ => ?_
    congr 1
    · exact iblk3_0_apply V c t (ix2 r k) (ix2 (Cert.Spec.row i) ⟨2048 + k.val, by have := k.isLt; omega⟩)
        (by show (i 0).val = 512 * (t.val / 28) + r.val; exact hi0)
        (by show 2048 + k.val = 2048 * (t.val % 2) + k.val; omega)
    · exact iblk3_1_apply V c t (ix2 n k) (ix2 (Cert.Spec.col i) ⟨2048 + k.val, by have := k.isLt; omega⟩)
        (by show (i 1).val = 1024 * (t.val / 2 % 14) + n.val; exact hi1)
        (by show 2048 + k.val = 2048 * (t.val % 2) + k.val; omega)

/-- and for the up weight. -/
theorem acc_up (c : Dev nD) (t : Fin cfg3.N) (h : ¬t.val % 2 = 0) (r : Fin 512) (n : Fin 1024) (i : S2048x14336.Idx)
    (hi0 : (i 0).val = 512 * (t.val / 28) + r.val) (hi1 : (i 1).val = 1024 * (t.val / 2 % 14) + n.val)
    (X : Cert.Spec.A2 2048 4096) (A : Cert.Spec.A2 14336 4096) (hX : X = V c main_v1) (hA : A = V c main_v3) :
    k3_pay5 (iblk3 V c 0 t) (iblk3 V c 2 t) (k3_pay5 (iblk3 V c 0 (prev3 t)) (iblk3 V c 2 (prev3 t)) (k3_pay2 (F := Ideal))) (ix2 r n)
      = ∑ k : Fin 4096, X (ix2 (Cert.Spec.row i) k) * A (ix2 (Cert.Spec.col i) k) := by
  have hp : (prev3 t).val = t.val - 1 := rfl
  subst hX hA
  rw [pay5_apply, pay5_apply, pay2_apply, zero_add, sum_halves]
  congr 1
  · refine Finset.sum_congr rfl fun k _ => ?_
    congr 1
    · exact iblk3_0_apply V c (prev3 t) (ix2 r k) (ix2 (Cert.Spec.row i) ⟨k.val, by have := k.isLt; omega⟩)
        (by show (i 0).val = 512 * ((prev3 t).val / 28) + r.val; rw [hi0, hp]; omega)
        (by show k.val = 2048 * ((prev3 t).val % 2) + k.val; rw [hp]; omega)
    · exact iblk3_2_apply V c (prev3 t) (ix2 n k) (ix2 (Cert.Spec.col i) ⟨k.val, by have := k.isLt; omega⟩)
        (by show (i 1).val = 1024 * ((prev3 t).val / 2 % 14) + n.val; rw [hi1, hp]; omega)
        (by show k.val = 2048 * ((prev3 t).val % 2) + k.val; rw [hp]; omega)
  · refine Finset.sum_congr rfl fun k _ => ?_
    congr 1
    · exact iblk3_0_apply V c t (ix2 r k) (ix2 (Cert.Spec.row i) ⟨2048 + k.val, by have := k.isLt; omega⟩)
        (by show (i 0).val = 512 * (t.val / 28) + r.val; exact hi0)
        (by show 2048 + k.val = 2048 * (t.val % 2) + k.val; omega)
    · exact iblk3_2_apply V c t (ix2 n k) (ix2 (Cert.Spec.col i) ⟨2048 + k.val, by have := k.isLt; omega⟩)
        (by show (i 1).val = 1024 * (t.val / 2 % 14) + n.val; exact hi1)
        (by show 2048 + k.val = 2048 * (t.val % 2) + k.val; omega)

/-- What an odd position leaves in the output buffer, at a position of the block, is the layer's value at the position
    of the whole result the block element sits at. -/
theorem out_odd_apply (c : Dev nD) (t : Fin cfg3.N) (h : ¬t.val % 2 = 0) (r : Fin 512) (n : Fin 1024) (i : S2048x14336.Idx)
    (hi0 : (i 0).val = 512 * (t.val / 28) + r.val) (hi1 : (i 1).val = 1024 * (t.val / 2 % 14) + n.val) :
    (outsAt3 V c t.val t.isLt).1 (ix2 r n) = Cert.Spec.gated (V c main_v1) (V c main_v2) (V c main_v3) i := by
  rw [out_odd V c t h, pay6_apply, acc_gate V c t h r n i hi0 hi1 (V c main_v1) (V c main_v2) rfl rfl,
    acc_up V c t h r n i hi0 hi1 (V c main_v1) (V c main_v3) rfl rfl]
  rfl

/-! ## The whole result -/

/-- Every position of the result lies in the block some odd grid position writes back, and what that position writes
    there is the layer's value: so the result array ends holding the layer, entry by entry. -/
theorem final3 (c : Dev nD) : (dat3 (F := Ideal) V c).arrAt 3 cfg3.N = Cert.Spec.gated (V c main_v1) (V c main_v2) (V c main_v3) := by
  funext i
  refine (dat3 V c).arrAt_forall_of_cover 3 (fun i v => v = Cert.Spec.gated (V c main_v1) (V c main_v2) (V c main_v3) i) ?hP ?hcover i
  case hP =>
    intro t hf y
    have h : ¬t.val % 2 = 0 := by have := (flush3_3 t).mp hf; omega
    obtain ⟨r, n, rfl⟩ : ∃ (r : Fin 512) (n : Fin 1024), y = ix2 r n := ⟨y 0, y 1, eq_ix2 y⟩
    show (cfg3.win 3).cut (grid3.coords t) ((dat3 V c).after 3 t) (ix2 r n) = _
    rw [after3_3]
    show (outsAt3 V c t.val t.isLt).1 (ix2 r n) = _
    refine out_odd_apply V c t h r n _ ?_ ?_
    · refine (win3_3.rect_emb_val t (ix2 r n) 0).trans ?_
      rw [(idx3_3 t).1]
      show t.val / 28 * 512 + r.val = _
      omega
    · refine (win3_3.rect_emb_val t (ix2 r n) 1).trans ?_
      rw [(idx3_3 t).2]
      show t.val / 2 % 14 * 1024 + n.val = _
      omega
  case hcover =>
    intro i
    have h0 : (i 0 : Nat) < 2048 := (i 0).isLt
    have h1 : (i 1 : Nat) < 14336 := (i 1).isLt
    have hN : cfg3.N = 112 := N_3
    let t : Fin cfg3.N := ⟨((i 0 : Nat) / 512 * 14 + (i 1 : Nat) / 1024) * 2 + 1, by rw [hN]; omega⟩
    have ht : t.val = ((i 0 : Nat) / 512 * 14 + (i 1 : Nat) / 1024) * 2 + 1 := rfl
    refine ⟨t, (flush3_3 t).mpr (by rw [ht]; omega), ?_⟩
    show i ∈ ((View.whole main_v6).slice (win3_3.rect t)).set
    rw [View.set_slice_whole, Rect.mem_set_unit]
    intro a
    match a with
    | ⟨0, _⟩ =>
      show win3_3.index t 0 * win3_3.size 0 ≤ (i 0 : Nat) ∧ (i 0 : Nat) < win3_3.index t 0 * win3_3.size 0 + win3_3.xsize (grid3.coords t) 0
      rw [(idx3_3 t).1, ht]
      show _ / 28 * 512 ≤ (i 0 : Nat) ∧ (i 0 : Nat) < _ / 28 * 512 + 512
      omega
    | ⟨1, _⟩ =>
      show win3_3.index t 1 * win3_3.size 1 ≤ (i 1 : Nat) ∧ (i 1 : Nat) < win3_3.index t 1 * win3_3.size 1 + win3_3.xsize (grid3.coords t) 1
      rw [(idx3_3 t).2, ht]
      show _ / 2 % 14 * 1024 ≤ (i 1 : Nat) ∧ (i 1 : Nat) < _ / 2 % 14 * 1024 + 1024
      omega

end AtIdeal

end Cert.KernelIdeal.Hand.Gated
end
-- ==== Proof.KI.ValDown.lean ====
import proofs.«151961_j22153441312857_2_alg».proof.Proof.KI.RegDown
import proofs.«151961_j22153441312857_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand.Down
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Idealize.ShloMosaic.ValueIdx
open Cert.KernelIdeal Cert.KernelIdeal.Gen

/-! # The down projection's value: the output array is one inner product per entry

Seven points share an output block; point number 7q + s multiplies the s-th 2048-wide slab of the contracted
axis and adds the products onto what the point before left (the first of the seven onto zero). After the seventh
the accumulator, copied into the output block, holds the sum over all 14336 contracted positions. -/

section Pieces

variable {F : FTy → Type} [FloatOps F]

theorem off00 : (![0, 0] : Fin 2 → Nat) = fun _ => 0 := funext fun a => by fin_cases a <;> rfl

/-- A middle slab leaves in the accumulator the slab's products added onto what it held. -/
theorem sout4_B_eq (c : Dev nD) (i : grid4.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond4_0 i) (hc1 : ¬cond4_1 i)
    (x0 x1 : Vec F S1024x2048 .bf16) (xs : Vec F S1024x1024 .f32) :
    sout4_B_0 c i a3 h3 a4 h4 a5 h5 a6 h6 hc0 hc1 x0 x1 xs = k4_pay2 x0 x1 xs := by
  unfold sout4_B_0
  rw [View.read_writes_eq_canon _ _ _ (scover4_B_0 c i a3 h3 a4 h4 a5 h5 a6 h6 hc0 hc1 x0 x1 xs)]
  unfold kernelRun4_B
  dsimp only
  rw [View.canon_unit_zero off00]
  simp only [View.readAt_eq_ld, h3.read_unread, h4.read_unread, h6.read_unread, View.ld_unit_zero (S := S1024x2048) off00, View.ld_unit_zero (S := S1024x1024) off00]

/-- The first slab leaves the slab's products added onto the cleared accumulator. -/
theorem sout4_A_eq (c : Dev nD) (i : grid4.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond4_0 i) (hc1 : ¬cond4_1 i)
    (x0 x1 : Vec F S1024x2048 .bf16) :
    sout4_A_0 c i a3 h3 a4 h4 a5 h5 a6 h6 hc0 hc1 x0 x1 = k4_pay2 x0 x1 (k4_pay1 (F := F)) := by
  unfold sout4_A_0
  rw [View.read_writes_eq_canon _ _ _ (scover4_A_0 c i a3 h3 a4 h4 a5 h5 a6 h6 hc0 hc1 x0 x1)]
  unfold kernelRun4_A
  dsimp only
  sl_unfold_words
  rw [View.canon_cons_unit_zero (S := S1024x1024) off00, View.readCov_unit_zero (S := S1024x1024) _ off00]
  simp only [View.readAt_eq_ld, h3.read_unread, h4.read_unread, View.ld_unit_zero (S := S1024x2048) off00, View.ld_unit_zero (S := S1024x1024) off00]

/-- The last slab leaves in the accumulator what a middle slab would, -/
theorem sout4_C_eq (c : Dev nD) (i : grid4.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond4_0 i) (hc1 : cond4_1 i)
    (x0 x1 : Vec F S1024x2048 .bf16) (xs : Vec F S1024x1024 .f32) :
    sout4_C_0 c i a3 h3 a4 h4 a5 h5 a6 h6 hc0 hc1 x0 x1 xs = k4_pay2 x0 x1 xs := by
  unfold sout4_C_0
  rw [View.read_writes_eq_canon _ _ _ (scover4_C_0 c i a3 h3 a4 h4 a5 h5 a6 h6 hc0 hc1 x0 x1 xs)]
  unfold kernelRun4_C
  dsimp only
  sl_unfold_words
  rw [View.canon_unit_zero off00]
  simp only [View.readAt_eq_ld, h3.read_unread, h4.read_unread, h6.read_unread, View.ld_unit_zero (S := S1024x2048) off00, View.ld_unit_zero (S := S1024x1024) off00]

/-- and copies the same into the output block. -/
theorem out4_C_eq (c : Dev nD) (i : grid4.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond4_0 i) (hc1 : cond4_1 i)
    (x0 x1 : Vec F S1024x2048 .bf16) (xs : Vec F S1024x1024 .f32) :
    out4_C_2 c i a3 h3 a4 h4 a5 h5 a6 h6 hc0 hc1 x0 x1 xs = k4_pay2 x0 x1 xs := by
  unfold out4_C_2
  rw [View.read_writes_eq_canon _ _ _ (cover4_C_2 c i a3 h3 a4 h4 a5 h5 a6 h6 hc0 hc1 x0 x1 xs)]
  unfold kernelRun4_C
  dsimp only
  sl_unfold_words
  rw [View.canon_unit_zero off00, View.readCov_unit_zero (S := S1024x1024) _ off00]
  simp only [View.readAt_eq_ld, h3.read_unread, h4.read_unread, h6.read_unread, View.ld_unit_zero (S := S1024x2048) off00, View.ld_unit_zero (S := S1024x1024) off00]

end Pieces

/-! ## The payloads at an index, over the extended reals -/

/-- The cleared accumulator is zero everywhere. -/
theorem pay1_apply (i : S1024x1024.Idx) : k4_pay1 (F := Ideal) i = 0 := by
  unfold k4_pay1
  simp only [shapeCast_self]
  exact Ideal.ofBits_zero_f32

/-- One slab's step: entry (a, b) of the accumulator grows by the inner product, over the slab's 2048 positions, of
    row a of the activation block with row b of the weight block. -/
theorem pay2_apply (x0 x1 : Vec Ideal S1024x2048 .bf16) (acc : Vec Ideal S1024x1024 .f32) (a b : Fin 1024) :
    k4_pay2 x0 x1 acc (ix2 a b) = acc (ix2 a b) + ∑ k : Fin 2048, x0 (ix2 a k) * x1 (ix2 b k) := by
  unfold k4_pay2
  simp only [shapeCast_self]
  refine congrArg (acc (ix2 a b) + ·) ?_
  refine (Ideal.matmul_constant_zero_apply (φ₁ := .bf16) (φ₂ := .bf16) dot_S1024x2048_S1024x2048_S1024x1024_1_1_0_0_n_n none x0 x1 (ix2 a b)).trans ?_
  rw [← Equiv.sum_comp (contrEquiv1 dot_S1024x2048_S1024x2048_S1024x1024_1_1_0_0_n_n 2048 rfl rfl).symm]
  refine Finset.sum_congr rfl fun k _ => ?_
  have ck := contrEquiv1_symm_val dot_S1024x2048_S1024x2048_S1024x1024_1_1_0_0_n_n 2048 rfl rfl k
  have hl : dot_S1024x2048_S1024x2048_S1024x1024_1_1_0_0_n_n.lhsIdx (ix2 a b) ((contrEquiv1 _ 2048 rfl rfl).symm k) = ix2 a k := by
    funext ax; apply Fin.ext
    match ax with
    | ⟨0, _⟩ => simp [DotDims.lhsIdx, dot_S1024x2048_S1024x2048_S1024x1024_1_1_0_0_n_n]; rfl
    | ⟨1, _⟩ => simp [DotDims.lhsIdx, dot_S1024x2048_S1024x2048_S1024x1024_1_1_0_0_n_n]; exact ck
  have hr : dot_S1024x2048_S1024x2048_S1024x1024_1_1_0_0_n_n.rhsIdx (ix2 a b) ((contrEquiv1 _ 2048 rfl rfl).symm k) = ix2 b k := by
    funext ax; apply Fin.ext
    match ax with
    | ⟨0, _⟩ => simp [DotDims.rhsIdx, dot_S1024x2048_S1024x2048_S1024x1024_1_1_0_0_n_n]; rfl
    | ⟨1, _⟩ => simp [DotDims.rhsIdx, dot_S1024x2048_S1024x2048_S1024x1024_1_1_0_0_n_n]; exact ck
  rw [hl, hr]

section Value

variable (V : (c : Dev nD) → (b : Ref sig .tc) → Buf (Elt Ideal) ((c : Thread nD τ).loc b))

/-! ## The operands as matrices -/

/-- The activations, [2048, 14336], and the rescaled weight, [4096, 14336], as the region finds them. -/
def Hm (c : Dev nD) : Cert.Spec.A2 2048 14336 := V c main_v6
def Wm (c : Dev nD) : Cert.Spec.A2 4096 14336 := V c main_v5

/-- Their entries at natural-number coordinates (reduced modulo the extents, so that the functions are total:
    every use below is at coordinates inside the extents). -/
def hAt (c : Dev nD) (r n : ℕ) : EReal :=
  Hm V c (ix2 (⟨r % 2048, Nat.mod_lt _ (by norm_num)⟩ : Fin 2048) (⟨n % 14336, Nat.mod_lt _ (by norm_num)⟩ : Fin 14336))
def wAt (c : Dev nD) (d n : ℕ) : EReal :=
  Wm V c (ix2 (⟨d % 4096, Nat.mod_lt _ (by norm_num)⟩ : Fin 4096) (⟨n % 14336, Nat.mod_lt _ (by norm_num)⟩ : Fin 14336))

/-! ## Which blocks a point reads and writes -/

/-- Point u of the 2 x 4 x 7 grid (last coordinate fastest) reads row block u / 28 and slab u % 7 of the
    activations, -/
theorem hidx0 : ∀ u : Fin cfg4.N, win4_0.index u 0 = u.val / 28 ∧ win4_0.index u 1 = u.val % 7 :=
  (by decide +kernel : ∀ u : Fin grid4.N, win4_0.index u 0 = u.val / 28 ∧ win4_0.index u 1 = u.val % 7)
/-- row block (u / 7) % 4 and slab u % 7 of the weight, -/
theorem hidx1 : ∀ u : Fin cfg4.N, win4_1.index u 0 = (u.val / 7) % 4 ∧ win4_1.index u 1 = u.val % 7 :=
  (by decide +kernel : ∀ u : Fin grid4.N, win4_1.index u 0 = (u.val / 7) % 4 ∧ win4_1.index u 1 = u.val % 7)
/-- and works on block (u / 28, (u / 7) % 4) of the output. -/
theorem hidx2 : ∀ u : Fin cfg4.N, win4_2.index u 0 = u.val / 28 ∧ win4_2.index u 1 = (u.val / 7) % 4 :=
  (by decide +kernel : ∀ u : Fin grid4.N, win4_2.index u 0 = u.val / 28 ∧ win4_2.index u 1 = (u.val / 7) % 4)

/-- An entry of the activation block at point u is the activations' entry in row block u / 28, slab u % 7. -/
theorem iblk0_apply (c : Dev nD) (u : Fin cfg4.N) (r : Fin 1024) (k : Fin 2048) :
    (iblk4 V c 0 u : Vec Ideal S1024x2048 .bf16) (ix2 r k)
      = hAt V c ((u.val / 28) * 1024 + r.val) ((u.val % 7) * 2048 + k.val) := by
  have hu : u.val < 56 := lt_of_lt_of_eq u.isLt N_4
  have hr := r.isLt
  have hk := k.isLt
  unfold iblk4 hAt Hm
  rw [View.read_apply]
  show V c main_v6 _ = V c main_v6 _
  congr 1
  funext a
  apply Fin.ext
  match a with
  | ⟨0, _⟩ =>
    show win4_0.index u 0 * 1024 + 1 * r.val = ((u.val / 28) * 1024 + r.val) % 2048
    rw [(hidx0 u).1]; omega
  | ⟨1, _⟩ =>
    show win4_0.index u 1 * 2048 + 1 * k.val = ((u.val % 7) * 2048 + k.val) % 14336
    rw [(hidx0 u).2]; omega

/-- An entry of the weight block at point u is the weight's entry in row block (u / 7) % 4, slab u % 7. -/
theorem iblk1_apply (c : Dev nD) (u : Fin cfg4.N) (r : Fin 1024) (k : Fin 2048) :
    (iblk4 V c 1 u : Vec Ideal S1024x2048 .bf16) (ix2 r k)
      = wAt V c (((u.val / 7) % 4) * 1024 + r.val) ((u.val % 7) * 2048 + k.val) := by
  have hu : u.val < 56 := lt_of_lt_of_eq u.isLt N_4
  have hr := r.isLt
  have hk := k.isLt
  unfold iblk4 wAt Wm
  rw [View.read_apply]
  show V c main_v5 _ = V c main_v5 _
  congr 1
  funext a
  apply Fin.ext
  match a with
  | ⟨0, _⟩ =>
    show win4_1.index u 0 * 1024 + 1 * r.val = (((u.val / 7) % 4) * 1024 + r.val) % 4096
    rw [(hidx1 u).1]; omega
  | ⟨1, _⟩ =>
    show win4_1.index u 1 * 2048 + 1 * k.val = ((u.val % 7) * 2048 + k.val) % 14336
    rw [(hidx1 u).2]; omega

/-! ## One point's addend, and the fold over a block's seven points -/

/-- What point n adds to entry i of its output block: the inner product over the point's slab. -/
def addend (c : Dev nD) (n : ℕ) (i : S1024x1024.Idx) : EReal :=
  ∑ k ∈ Finset.range 2048,
    hAt V c ((n / 28) * 1024 + (i 0).val) ((n % 7) * 2048 + k) * wAt V c (((n / 7) % 4) * 1024 + (i 1).val) ((n % 7) * 2048 + k)

/-- The body's one accumulating store, at an index: what was there plus the point's addend. -/
theorem step_apply (c : Dev nD) (u : Fin cfg4.N) (acc : Vec Ideal S1024x1024 .f32) (i : S1024x1024.Idx) :
    k4_pay2 (iblk4 V c 0 u) (iblk4 V c 1 u) acc i = acc i + addend V c u.val i := by
  obtain ⟨a, b, rfl⟩ : ∃ (a b : Fin 1024), i = ix2 a b := ⟨i 0, i 1, eq_ix2 i⟩
  rw [pay2_apply]
  refine congrArg (acc (ix2 a b) + ·) ?_
  unfold addend
  rw [Finset.sum_range]
  refine Finset.sum_congr rfl fun k _ => ?_
  rw [iblk0_apply, iblk1_apply]

/-- What the first point of a group of seven leaves in the accumulator, and what each later point makes of what
    it finds there. -/
def accInit (c : Dev nD) (n : ℕ) (h : n < cfg4.N) : Vec Ideal S1024x1024 .f32 :=
  k4_pay2 (iblk4 V c 0 ⟨n, h⟩) (iblk4 V c 1 ⟨n, h⟩) (k4_pay1 (F := Ideal))
def accStep (c : Dev nD) (n : ℕ) (h : n < cfg4.N) (acc : Vec Ideal S1024x1024 .f32) : Vec Ideal S1024x1024 .f32 :=
  k4_pay2 (iblk4 V c 0 ⟨n, h⟩) (iblk4 V c 1 ⟨n, h⟩) acc

theorem accInit_apply (c : Dev nD) (n : ℕ) (h : n < cfg4.N) (i : S1024x1024.Idx) :
    accInit V c n h i = 0 + addend V c n i :=
  (step_apply V c ⟨n, h⟩ (k4_pay1 (F := Ideal)) i).trans (congrArg (· + addend V c n i) (pay1_apply i))

theorem accStep_apply (c : Dev nD) (n : ℕ) (h : n < cfg4.N) (acc : Vec Ideal S1024x1024 .f32) (i : S1024x1024.Idx) :
    accStep V c n h acc i = acc i + addend V c n i :=
  step_apply V c ⟨n, h⟩ acc i

/-- At the first point of a group the accumulator is reset. -/
theorem snd_first (c : Dev nD) (n : ℕ) (h : n < cfg4.N) (h0 : n % 7 = 0) :
    (outsAt4 V c n h).2 = accInit V c n h := by
  have h1 : ¬ (⟨n, h⟩ : Fin cfg4.N).val % 7 = 6 := by dsimp only; omega
  have e := outsAt4_A V c ⟨n, h⟩ h0 h1
  dsimp only at e
  rw [e]
  dsimp only
  unfold accInit
  exact sout4_A_eq c (grid4.coords ⟨n, h⟩) (ms4_0 ⟨n, h⟩) (hs4_0 ⟨n, h⟩) (ms4_1 ⟨n, h⟩) (hs4_1 ⟨n, h⟩) (ms4_2 ⟨n, h⟩) (hs4_2 ⟨n, h⟩) scM4_0 (Memref.isWhole_whole _) ((hcond4_0 ⟨n, h⟩).mpr h0) (fun hh => h1 ((hcond4_1 ⟨n, h⟩).mp hh)) (iblk4 V c 0 ⟨n, h⟩) (iblk4 V c 1 ⟨n, h⟩)

/-- At every other point it steps from what the point before left. -/
theorem snd_later (c : Dev nD) (n : ℕ) (h : n + 1 < cfg4.N) (h0 : ¬ (n + 1) % 7 = 0) :
    (outsAt4 V c (n + 1) h).2 = accStep V c (n + 1) h (outsAt4 V c n (Nat.lt_of_succ_lt h)).2 := by
  unfold accStep
  by_cases h1 : (n + 1) % 7 = 6
  · have e := outsAt4_C V c ⟨n + 1, h⟩ h0 h1
    dsimp only at e
    rw [e]
    dsimp only
    exact sout4_C_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) scM4_0 (Memref.isWhole_whole _) (fun hh => h0 ((hcond4_0 ⟨n + 1, h⟩).mp hh)) ((hcond4_1 ⟨n + 1, h⟩).mpr h1) (iblk4 V c 0 ⟨n + 1, h⟩) (iblk4 V c 1 ⟨n + 1, h⟩) (outsAt4 V c n (Nat.lt_of_succ_lt h)).2
  · have e := outsAt4_B V c ⟨n + 1, h⟩ h0 h1
    dsimp only at e
    rw [e]
    dsimp only
    exact sout4_B_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) scM4_0 (Memref.isWhole_whole _) (fun hh => h0 ((hcond4_0 ⟨n + 1, h⟩).mp hh)) (fun hh => h1 ((hcond4_1 ⟨n + 1, h⟩).mp hh)) (iblk4 V c 0 ⟨n + 1, h⟩) (iblk4 V c 1 ⟨n + 1, h⟩) (outsAt4 V c n (Nat.lt_of_succ_lt h)).2

/-- THE FOLD. After point t the accumulator holds, at every entry, the sum of the addends of the points of t's
    group of seven up to t: the first of the group starts from zero, each later one adds onto its predecessor. -/
theorem acc_apply (c : Dev nD) (t : ℕ) (ht : t < cfg4.N) (i : S1024x1024.Idx) :
    (outsAt4 V c t ht).2 i = 0 + ∑ s ∈ Finset.range (t % 7 + 1), addend V c (7 * (t / 7) + s) i := by
  have h' : 7 * (t / 7) + t % 7 < cfg4.N := by rw [Nat.div_add_mod]; exact ht
  have hfold : (outsAt4 V c t ht).2 = Pipeline.accAt (accInit V c) (accStep V c) (7 * (t / 7)) (t % 7) h' :=
    Pipeline.eq_accAt_of_mod (fun n h => (outsAt4 V c n h).2) 7 (accInit V c) (accStep V c)
      (fun n h hm => snd_first V c n h hm) (fun n h hne => snd_later V c n h hne) (by norm_num) t ht h'
  rw [hfold]
  exact Pipeline.accAt_add_apply (accInit V c) (accStep V c) (fun _ => (0 : EReal)) (fun n i => addend V c n i) (7 * (t / 7)) 6
    (fun h i => accInit_apply V c (7 * (t / 7)) h i)
    (fun n h acc i _ _ => accStep_apply V c n h acc i)
    (t % 7) (by omega) h' i

/-- On the last slab the output block receives what the accumulator ends with. -/
theorem out_at_last (c : Dev nD) (t : Fin cfg4.N) (h6 : t.val % 7 = 6) :
    (outsAt4 V c t.val t.isLt).1 = (outsAt4 V c t.val t.isLt).2 := by
  have h0 : ¬ t.val % 7 = 0 := by omega
  rw [outsAt4_C V c t h0 h6]
  dsimp only
  rw [out4_C_eq, sout4_C_eq]

/-! ## The result array -/

/-- The claimed contents of the output array: every entry one inner product over the whole contracted axis. -/
def Gd (c : Dev nD) : Cert.Spec.A2 2048 4096 := Cert.Spec.down (Hm V c) (Wm V c)

theorem hAt_eq (c : Dev nD) (r : Fin 2048) (m : Fin 14336) : hAt V c r.val m.val = Hm V c (ix2 r m) :=
  congrArg (Hm V c) (congrArg₂ (ix2 (n0 := 2048) (n1 := 14336)) (Fin.ext (Nat.mod_eq_of_lt r.isLt)) (Fin.ext (Nat.mod_eq_of_lt m.isLt)))
theorem wAt_eq (c : Dev nD) (d : Fin 4096) (m : Fin 14336) : wAt V c d.val m.val = Wm V c (ix2 d m) :=
  congrArg (Wm V c) (congrArg₂ (ix2 (n0 := 4096) (n1 := 14336)) (Fin.ext (Nat.mod_eq_of_lt d.isLt)) (Fin.ext (Nat.mod_eq_of_lt m.isLt)))

/-- The claimed contents at an entry, over natural-number coordinates. -/
theorem Gd_apply (c : Dev nD) (i : (⟨2, ![2048, 4096]⟩ : Shape).Idx) :
    Gd V c i = ∑ n ∈ Finset.range 14336, hAt V c (i 0).val n * wAt V c (i 1).val n := by
  show ∑ n : Fin 14336, Hm V c (ix2 (Cert.Spec.row i) n) * Wm V c (ix2 (Cert.Spec.col i) n) = _
  rw [Finset.sum_range]
  refine Finset.sum_congr rfl fun n _ => ?_
  rw [← hAt_eq V c (Cert.Spec.row i) n, ← wAt_eq V c (Cert.Spec.col i) n]

/-- A sum over a range of a·b naturals, slab by slab: b consecutive positions per slab. -/
theorem sum_range_slabs {M : Type*} [AddCommMonoid M] (a b : ℕ) (f : ℕ → M) :
    ∑ n ∈ Finset.range (a * b), f n = ∑ s ∈ Finset.range a, ∑ k ∈ Finset.range b, f (k + b * s) := by
  rw [Finset.sum_range, ← Equiv.sum_comp finProdFinEquiv, Fintype.sum_prod_type, Finset.sum_range]
  refine Finset.sum_congr rfl fun s _ => ?_
  rw [Finset.sum_range]
  rfl

/-- The claimed contents read through the output block of point t. -/
theorem blkG_apply (c : Dev nD) (t : Fin cfg4.N) (y : S1024x1024.Idx) :
    ((cfg4.win 2).blk t).view.read (Elt Ideal) (Gd V c) y
      = ∑ n ∈ Finset.range 14336, hAt V c ((t.val / 28) * 1024 + (y 0).val) n * wAt V c (((t.val / 7) % 4) * 1024 + (y 1).val) n := by
  rw [View.read_apply]
  show Gd V c (((cfg4.win 2).blk t).view.emb y) = _
  rw [Gd_apply]
  have e0 : ((((cfg4.win 2).blk t).view.emb y) 0).val = (t.val / 28) * 1024 + (y 0).val := by
    show win4_2.index t 0 * 1024 + 1 * (y 0).val = _
    rw [(hidx2 t).1]; omega
  have e1 : ((((cfg4.win 2).blk t).view.emb y) 1).val = ((t.val / 7) % 4) * 1024 + (y 1).val := by
    show win4_2.index t 1 * 1024 + 1 * (y 1).val = _
    rw [(hidx2 t).2]; omega
  rw [e0, e1]

/-- What a writing point writes back is the claimed contents read through its block: the seven slabs' inner
    products, added in order onto zero, are the inner product over the whole axis. -/
theorem flushed_eq (c : Dev nD) (t : Fin cfg4.N) (hf : (cfg4.win 2).flush t = true) :
    (dat4 V c).flushed 2 t = ((cfg4.win 2).blk t).view.read (Elt Ideal) (Gd V c) := by
  have h6 : t.val % 7 = 6 := (flush4_2 t).mp hf
  have hu : t.val < 56 := lt_of_lt_of_eq t.isLt N_4
  show (cfg4.win 2).cut (grid4.coords t) ((dat4 V c).after 2 t) = _
  rw [after4_2, out_at_last V c t h6]
  funext y
  show (outsAt4 V c t.val t.isLt).2 y = ((cfg4.win 2).blk t).view.read (Elt Ideal) (Gd V c) y
  rw [acc_apply V c t.val t.isLt y, blkG_apply V c t y, zero_add, h6]
  rw [show (14336 : ℕ) = 7 * 2048 from rfl, sum_range_slabs]
  refine Finset.sum_congr rfl fun s hs => ?_
  have hs' : s < 7 := Finset.mem_range.mp hs
  unfold addend
  refine Finset.sum_congr rfl fun k hk => ?_
  have e1 : (7 * (t.val / 7) + s) / 28 = t.val / 28 := by omega
  have e2 : (7 * (t.val / 7) + s) % 7 = s := by omega
  have e3 : ((7 * (t.val / 7) + s) / 7) % 4 = (t.val / 7) % 4 := by omega
  rw [e1, e2, e3, show s * 2048 + k = k + 2048 * s from by omega]

/-- Every entry of the output array lies in the block of a writing point. -/
theorem cover_out (c : Dev nD) (i : ((cfg4.win 2).arr.view.loc (c.tc : Thread nD τ)).2.ty.Idx) :
    ∃ t : Fin cfg4.N, (cfg4.win 2).flush t = true ∧ i ∈ ((cfg4.win 2).blk t).view.set := by
  have h0 : (i 0 : ℕ) < 2048 := (i 0).isLt
  have h1 : (i 1 : ℕ) < 4096 := (i 1).isLt
  have hN : cfg4.N = 56 := N_4
  have hb : ((i 0 : ℕ) / 1024) * 28 + ((i 1 : ℕ) / 1024) * 7 + 6 < cfg4.N := by rw [hN]; omega
  refine ⟨⟨((i 0 : ℕ) / 1024) * 28 + ((i 1 : ℕ) / 1024) * 7 + 6, hb⟩, (flush4_2 _).mpr (by dsimp only; omega), ?_⟩
  show i ∈ ((View.whole main_v7).slice (win4_2.rect ⟨((i 0 : ℕ) / 1024) * 28 + ((i 1 : ℕ) / 1024) * 7 + 6, hb⟩)).set
  rw [View.set_slice_whole, Rect.mem_set_unit]
  intro a
  match a with
  | ⟨0, _⟩ =>
    show win4_2.index ⟨((i 0 : ℕ) / 1024) * 28 + ((i 1 : ℕ) / 1024) * 7 + 6, hb⟩ 0 * 1024 ≤ (i 0 : ℕ)
      ∧ (i 0 : ℕ) < win4_2.index ⟨((i 0 : ℕ) / 1024) * 28 + ((i 1 : ℕ) / 1024) * 7 + 6, hb⟩ 0 * 1024 + 1024
    rw [(hidx2 _).1]; dsimp only; omega
  | ⟨1, _⟩ =>
    show win4_2.index ⟨((i 0 : ℕ) / 1024) * 28 + ((i 1 : ℕ) / 1024) * 7 + 6, hb⟩ 1 * 1024 ≤ (i 1 : ℕ)
      ∧ (i 1 : ℕ) < win4_2.index ⟨((i 0 : ℕ) / 1024) * 28 + ((i 1 : ℕ) / 1024) * 7 + 6, hb⟩ 1 * 1024 + 1024
    rw [(hidx2 _).2]; dsimp only; omega

/-- THE VALUE of the down projection: after the region the output array holds, at every entry (t, d), the inner
    product over all 14336 contracted positions of row t of the activations with row d of the weight. -/
theorem final4 (c : Dev nD) : (dat4 (F := Ideal) V c).arrAt 2 cfg4.N = Cert.Spec.down (V c main_v6) (V c main_v5) :=
  (dat4 V c).arrAt_eq_of_cover 2 (Gd V c) (flushed_eq V c) (cover_out c)

end Value

end Cert.KernelIdeal.Hand.Down
end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.RefAlgebra.lean ====
/-
  Arithmetic on the extended reals restricted to real arguments, as the block quantiser of the reference needs it.

  A block of 128 real entries is divided by its scale and at once multiplied by it again. The scale is the largest
  absolute value of the block divided by 448, plus a small positive constant: a real number that is never zero. For
  a real r and a nonzero real s the extended-real expression (r / s) · s is r, so the round trip changes nothing.
  Finite sums of products of reals, and the gate (g · logistic g) · u, stay real as well.
-/
import Idealize.ShloMosaic.PureOps.Ideal
import proofs.«151961_j22153441312857_2_alg».proof.Proof.LibCoeLift

noncomputable section

namespace Cert.ReferenceIdeal.RefValue

open Idealize.ShloMosaic Cert.Proof.CoeLift

/-- The word 0x43E00000 denotes 448. -/
theorem ofBits_448 : Ideal.ofBits .f32 0x43E00000#32 = ((448 : ℝ) : EReal) := by
  simp [Ideal.ofBits, Ideal.ieee, -EReal.coe_mul]; norm_num

/-- The word 0x3F800000 denotes 1. -/
theorem ofBits_one : Ideal.ofBits .f32 0x3F800000#32 = (1 : EReal) := by
  simp [Ideal.ofBits, Ideal.ieee, -EReal.coe_mul]; norm_num

/-- The word 0x2B8CBCCC denotes a positive real (the single-precision neighbour of 10⁻¹²). -/
theorem ofBits_eps : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

/-- For a real r and a nonzero real s, dividing by s and multiplying by s again gives r back. -/
theorem div_mul_cancel_coe (r s : ℝ) (hs : s ≠ 0) :
    Ideal.div (r : EReal) (s : EReal) * (s : EReal) = (r : EReal) := by
  rw [div_coe_coe r s hs, ← EReal.coe_mul, div_mul_cancel₀ r hs]

/-- A running maximum from -∞ over a nonempty finite family of nonnegative reals is a nonnegative real. -/
theorem fold_max_nonneg {ι : Type} (s : Finset ι) (hs : s.Nonempty) (g : ι → ℝ) (hg : ∀ i, 0 ≤ g i) :
    ∃ c : ℝ, 0 ≤ c ∧ s.fold max (⊥ : EReal) (fun i => ((g i : ℝ) : EReal)) = (c : EReal) := by
  induction hs using Finset.Nonempty.cons_induction with
  | singleton a => exact ⟨g a, hg a, by rw [Finset.fold_singleton, max_bot_right]⟩
  | cons a s ha hs ih =>
    obtain ⟨c, hc0, hc⟩ := ih
    exact ⟨max (g a) c, le_max_of_le_right hc0, by
      rw [Finset.fold_cons, hc]; exact (EReal.coe_strictMono.monotone.map_max).symm⟩

/-- The scale of a nonempty block of reals — its largest absolute value over 448, plus the small constant — is a
    nonzero real. -/
theorem scale_real {n : ℕ} (hn : 0 < n) (f : Fin n → EReal) (hf : ∀ k, ∃ r : ℝ, f k = (r : EReal)) :
    ∃ s : ℝ, s ≠ 0 ∧
      Ideal.div ((Finset.univ : Finset (Fin n)).fold max (Ideal.ofBits .f32 0xFF800000#32) (fun k => max (f k) (-(f k))))
          (Ideal.ofBits .f32 0x43E00000#32) + Ideal.ofBits .f32 0x2B8CBCCC#32 = (s : EReal) := by
  choose r hr using hf
  obtain ⟨e, he, hE⟩ := ofBits_eps
  have hfun : (fun k => max (f k) (-(f k))) = fun k => ((|r k| : ℝ) : EReal) := by
    funext k
    rw [hr k, ← EReal.coe_neg, abs_eq_max_neg]
    exact (EReal.coe_strictMono.monotone.map_max).symm
  obtain ⟨c, hc0, hc⟩ := fold_max_nonneg Finset.univ ⟨⟨0, hn⟩, Finset.mem_univ _⟩ (fun k => |r k|) (fun k => abs_nonneg _)
  have hpos : 0 < c / 448 + e := add_pos_of_nonneg_of_pos (div_nonneg hc0 (by norm_num)) he
  refine ⟨c / 448 + e, hpos.ne', ?_⟩
  rw [hfun, ofBits_neg_inf, hc, ofBits_448, hE, div_coe_coe c 448 (by norm_num), ← EReal.coe_add]

/-- A finite sum of products of reals is a real. -/
theorem real_sum_mul {n : ℕ} (f g : Fin n → EReal) (hf : ∀ k, ∃ r : ℝ, f k = (r : EReal))
    (hg : ∀ k, ∃ r : ℝ, g k = (r : EReal)) : ∃ r : ℝ, ∑ k : Fin n, f k * g k = (r : EReal) := by
  choose a ha using hf
  choose b hb using hg
  refine ⟨∑ k : Fin n, a k * b k, ?_⟩
  rw [← coe_sum]
  exact Finset.sum_congr rfl fun k _ => by rw [ha k, hb k, EReal.coe_mul]

/-- The product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The gate (g · logistic g) · u of two reals is a real. -/
theorem real_gate {g u : EReal} (hg : ∃ r : ℝ, g = (r : EReal)) (hu : ∃ r : ℝ, u = (r : EReal)) :
    ∃ r : ℝ, (g * Ideal.logistic g) * u = (r : EReal) := by
  obtain ⟨a, rfl⟩ := hg
  refine real_mul (real_mul ⟨a, rfl⟩ ⟨(1 + Real.exp (-a))⁻¹, ?_⟩) hu
  exact Ideal.logistic_coe a

end Cert.ReferenceIdeal.RefValue

end
-- ==== Proof.RefBlocks.lean ====
/-
  The reference quantises its activations per block of 128 entries of a row and de-quantises them at once:
  every entry is divided by the scale of its block and then multiplied by the same scale. The scale is a nonzero real
  as soon as the entries of the block are real, so the round trip returns every entry unchanged.
-/
import proofs.«151961_j22153441312857_2_alg».proof.Proof.Gen.ReferenceIdeal.Read
import proofs.«151961_j22153441312857_2_alg».proof.Proof.Spec
import proofs.«151961_j22153441312857_2_alg».proof.Proof.RefAlgebra

noncomputable section

namespace Cert.ReferenceIdeal.RefValue

open Cert.ReferenceIdeal Cert.ReferenceIdeal.Read Idealize.ShloMosaic Idealize.ShloMosaic.ValueIdx

open Cert.ReferenceIdeal.Gen

/-- The scale of one block of a [T, B, 128] array of reals: the block's largest absolute value (a maximum started at
    -∞ over the 128 entries) over 448, plus the small constant. It is a nonzero real. -/
theorem block_scale_real {T B : ℕ} (y : (⟨3, ![T, B, 128]⟩ : Shape).Idx → EReal)
    (hy : ∀ J, ∃ r : ℝ, y J = (r : EReal))
    (h' : (⟨3, ![T, B, 128]⟩ : Shape).ReducesTo [2] (⟨2, ![T, B]⟩ : Shape))
    (h : (⟨3, ![T, B, 128]⟩ : Shape).Reduces [2] (⟨2, ![T, B]⟩ : Shape))
    (hu : 0 < (⟨0, ![]⟩ : Shape).numel) (j : (⟨2, ![T, B]⟩ : Shape).Idx) :
    ∃ s : ℝ, s ≠ 0 ∧
      Ideal.div (Host.reduce (FloatOps.maximumf (F := Ideal) (φ := .f32)) (Host.absf (F := Ideal) (φ := .f32) y)
          (constant (F := Ideal) (⟨0, ![]⟩ : Shape) .f32 0xFF800000#32) h' hu j)
        (Ideal.ofBits .f32 0x43E00000#32) + Ideal.ofBits .f32 0x2B8CBCCC#32 = (s : EReal) := by
  rw [Host.reduce_eq_fold_single (FloatOps.maximumf (F := Ideal) (φ := .f32)) _ _ h' h hu]
  exact scale_real (n := 128) (by norm_num) (fun k => y (h.lift j k)) (fun k => hy _)

/-- The input viewed as [2048, 32, 128] has real entries when the input has. -/
theorem v1_real (x0 : (⟨S2x1024x4096, .f32⟩ : BufTy).Contents (Elt Ideal)) (h0 : Cert.Spec.AllReal x0)
    (J : S2048x32x128.Idx) : ∃ r : ℝ, val_main_v1 (F := Ideal) x0 J = (r : EReal) := by
  rw [val_main_v1_apply, val_main_v0_apply]
  exact h0 _

/-- The first quantiser's scale of block j is a nonzero real. -/
theorem scale1_real (x0 : (⟨S2x1024x4096, .f32⟩ : BufTy).Contents (Elt Ideal)) (h0 : Cert.Spec.AllReal x0)
    (j : S2048x32.Idx) : ∃ s : ℝ, s ≠ 0 ∧ val_main_v7 (F := Ideal) x0 j = (s : EReal) := by
  rw [val_main_v7_apply, val_main_v5_apply, val_main_v4_apply, val_main_cst_0_apply, val_main_v6_apply, val_main_cst_1_apply]
  exact block_scale_real (T := 2048) (B := 32) (val_main_v1 (F := Ideal) x0) (v1_real x0 h0)
    reducesTo_S2048x32x128_S2048x32_d2 (by decide) h_S_ j

/-- The first de-quantised activation is the input with its two leading axes merged: each entry was divided by the
    scale of its block and multiplied by it again. -/
theorem act1_stage (x0 : (⟨S2x1024x4096, .f32⟩ : BufTy).Contents (Elt Ideal)) (h0 : Cert.Spec.AllReal x0) :
    val_main_v16 (F := Ideal) x0 = Cert.Spec.flat x0 := by
  funext i
  obtain ⟨p, q, rfl⟩ : ∃ (p : Fin 2048) (q : Fin 4096), i = ix2 p q := ⟨i 0, i 1, eq_ix2 i⟩
  rw [val_main_v16_apply, val_main_v15_apply, val_main_v12_apply, val_main_v11_apply, val_main_v10_apply,
    val_main_v9_apply, val_main_v8_apply, val_main_v14_apply, val_main_v13_apply]
  have hp : p.val < 2048 := p.isLt
  have hq : q.val < 4096 := q.isLt
  have ea : idx_main_v11 (idx_main_v12 (idx_main_v16 (ix2 p q))) = idx_main_v16 (ix2 p q) := by
    funext a; apply Fin.ext
    match a with
    | ⟨0, _⟩ => dsimp only [idx_main_v11, idx_main_v12, idx_main_v16, ix2]; omega
    | ⟨1, _⟩ => dsimp only [idx_main_v11, idx_main_v12, idx_main_v16, ix2]; omega
    | ⟨2, _⟩ => dsimp only [idx_main_v11, idx_main_v12, idx_main_v16, ix2]; omega
  rw [ea]
  have eb : idx_main_v8 (idx_main_v9 (idx_main_v16 (ix2 p q))) = idx_main_v13 (idx_main_v14 (idx_main_v16 (ix2 p q))) := by
    funext a; apply Fin.ext
    match a with
    | ⟨0, _⟩ => rfl
    | ⟨1, _⟩ => rfl
  rw [eb]
  obtain ⟨s, hs, hS⟩ := scale1_real x0 h0 (idx_main_v13 (idx_main_v14 (idx_main_v16 (ix2 p q))))
  obtain ⟨r, hr⟩ := v1_real x0 h0 (idx_main_v16 (ix2 p q))
  rw [hS, hr]
  refine (div_mul_cancel_coe r s hs).trans ?_
  rw [← hr, val_main_v1_apply, val_main_v0_apply]
  unfold Cert.Spec.flat
  refine congrArg x0 ?_
  funext a; apply Fin.ext
  match a with
  | ⟨0, _⟩ => dsimp only [idx_main_v0, idx_main_v1, idx_main_v16, ix2, ix3]; omega
  | ⟨1, _⟩ => dsimp only [idx_main_v0, idx_main_v1, idx_main_v16, ix2, ix3]; omega
  | ⟨2, _⟩ => dsimp only [idx_main_v0, idx_main_v1, idx_main_v16, ix2, ix3]; omega

/-- The second quantiser does the same operations on the same input as the first. -/
theorem act2_eq_act1 (x0 : (⟨S2x1024x4096, .f32⟩ : BufTy).Contents (Elt Ideal)) :
    val_main_v39 (F := Ideal) x0 = val_main_v16 (F := Ideal) x0 := rfl

/-- The hidden activation viewed as [2048, 112, 128] has real entries when it has as a [2048, 14336] array. -/
theorem v49_real (x0 : (⟨S2x1024x4096, .f32⟩ : BufTy).Contents (Elt Ideal)) (x1 : (⟨S14336x4096, .f32⟩ : BufTy).Contents (Elt Ideal))
    (x2 : (⟨S112x32, .f32⟩ : BufTy).Contents (Elt Ideal)) (x3 : (⟨S14336x4096, .f32⟩ : BufTy).Contents (Elt Ideal))
    (x4 : (⟨S112x32, .f32⟩ : BufTy).Contents (Elt Ideal))
    (hh : Cert.Spec.AllReal (val_main_v48 (F := Ideal) x0 x1 x2 x3 x4)) (J : S2048x112x128.Idx) :
    ∃ r : ℝ, val_main_v49 (F := Ideal) x0 x1 x2 x3 x4 J = (r : EReal) := by
  rw [val_main_v49_apply]
  exact hh _

/-- The third quantiser's scale of block j is a nonzero real. -/
theorem scale3_real (x0 : (⟨S2x1024x4096, .f32⟩ : BufTy).Contents (Elt Ideal)) (x1 : (⟨S14336x4096, .f32⟩ : BufTy).Contents (Elt Ideal))
    (x2 : (⟨S112x32, .f32⟩ : BufTy).Contents (Elt Ideal)) (x3 : (⟨S14336x4096, .f32⟩ : BufTy).Contents (Elt Ideal))
    (x4 : (⟨S112x32, .f32⟩ : BufTy).Contents (Elt Ideal))
    (hh : Cert.Spec.AllReal (val_main_v48 (F := Ideal) x0 x1 x2 x3 x4)) (j : S2048x112.Idx) :
    ∃ s : ℝ, s ≠ 0 ∧ val_main_v55 (F := Ideal) x0 x1 x2 x3 x4 j = (s : EReal) := by
  rw [val_main_v55_apply, val_main_v53_apply, val_main_v52_apply, val_main_cst_6_apply, val_main_v54_apply, val_main_cst_7_apply]
  exact block_scale_real (T := 2048) (B := 112) (val_main_v49 (F := Ideal) x0 x1 x2 x3 x4) (v49_real x0 x1 x2 x3 x4 hh)
    reducesTo_S2048x112x128_S2048x112_d2 (by decide) h_S_ j

/-- The de-quantised hidden activation is the hidden activation, as soon as its entries are real. -/
theorem act3_stage (x0 : (⟨S2x1024x4096, .f32⟩ : BufTy).Contents (Elt Ideal)) (x1 : (⟨S14336x4096, .f32⟩ : BufTy).Contents (Elt Ideal))
    (x2 : (⟨S112x32, .f32⟩ : BufTy).Contents (Elt Ideal)) (x3 : (⟨S14336x4096, .f32⟩ : BufTy).Contents (Elt Ideal))
    (x4 : (⟨S112x32, .f32⟩ : BufTy).Contents (Elt Ideal))
    (hh : Cert.Spec.AllReal (val_main_v48 (F := Ideal) x0 x1 x2 x3 x4)) :
    val_main_v64 (F := Ideal) x0 x1 x2 x3 x4 = val_main_v48 (F := Ideal) x0 x1 x2 x3 x4 := by
  funext i
  obtain ⟨p, q, rfl⟩ : ∃ (p : Fin 2048) (q : Fin 14336), i = ix2 p q := ⟨i 0, i 1, eq_ix2 i⟩
  rw [val_main_v64_apply, val_main_v63_apply, val_main_v60_apply, val_main_v59_apply, val_main_v58_apply,
    val_main_v57_apply, val_main_v56_apply, val_main_v62_apply, val_main_v61_apply]
  have hp : p.val < 2048 := p.isLt
  have hq : q.val < 14336 := q.isLt
  have ea : idx_main_v59 (idx_main_v60 (idx_main_v64 (ix2 p q))) = idx_main_v64 (ix2 p q) := by
    funext a; apply Fin.ext
    match a with
    | ⟨0, _⟩ => dsimp only [idx_main_v59, idx_main_v60, idx_main_v64, ix2]; omega
    | ⟨1, _⟩ => dsimp only [idx_main_v59, idx_main_v60, idx_main_v64, ix2]; omega
    | ⟨2, _⟩ => dsimp only [idx_main_v59, idx_main_v60, idx_main_v64, ix2]; omega
  rw [ea]
  have eb : idx_main_v56 (idx_main_v57 (idx_main_v64 (ix2 p q))) = idx_main_v61 (idx_main_v62 (idx_main_v64 (ix2 p q))) := by
    funext a; apply Fin.ext
    match a with
    | ⟨0, _⟩ => rfl
    | ⟨1, _⟩ => rfl
  rw [eb]
  obtain ⟨s, hs, hS⟩ := scale3_real x0 x1 x2 x3 x4 hh (idx_main_v61 (idx_main_v62 (idx_main_v64 (ix2 p q))))
  obtain ⟨r, hr⟩ := v49_real x0 x1 x2 x3 x4 hh (idx_main_v64 (ix2 p q))
  rw [hS, hr]
  refine (div_mul_cancel_coe r s hs).trans ?_
  rw [← hr, val_main_v49_apply]
  refine congrArg (val_main_v48 (F := Ideal) x0 x1 x2 x3 x4) ?_
  funext a; apply Fin.ext
  match a with
  | ⟨0, _⟩ => dsimp only [idx_main_v49, idx_main_v64, ix2]; omega
  | ⟨1, _⟩ => dsimp only [idx_main_v49, idx_main_v64, ix2]; omega

end Cert.ReferenceIdeal.RefValue

end
-- ==== Proof.RefWeights.lean ====
/-
  The three weight matrices as the reference rescales them.

  The reference views a [N, K] weight as [N/128, 128, K/128, 128], multiplies by the tile scales broadcast from
  [N/128, 1, K/128, 1], and views the product as [N, K] again. Entry (r, k) of the result is therefore the stored
  entry (r, k) times the scale of tile (r / 128, k / 128): splitting r·K + k into the four coordinates and putting
  them together again returns (r, k), and the two coordinates the scale is read at are r / 128 and k / 128.
  No hypothesis on the entries is needed: one product on each side.
-/
import proofs.«151961_j22153441312857_2_alg».proof.Proof.Gen.ReferenceIdeal.Read
import proofs.«151961_j22153441312857_2_alg».proof.Proof.Spec

noncomputable section

namespace Cert.ReferenceIdeal.RefValue

open Cert.ReferenceIdeal Cert.ReferenceIdeal.Read Idealize.ShloMosaic Idealize.ShloMosaic.ValueIdx

/-- The first weight, rescaled: entry (r, k) times the scale of its tile. -/
theorem w1_stage (x1 : (⟨S14336x4096, .f32⟩ : BufTy).Contents (Elt Ideal)) (x2 : (⟨S112x32, .f32⟩ : BufTy).Contents (Elt Ideal)) :
    val_main_v21 (F := Ideal) x1 x2 = Cert.Spec.deqRow x1 x2 := by
  funext i
  obtain ⟨p, q, rfl⟩ : ∃ (p : Fin 14336) (q : Fin 4096), i = ix2 p q := ⟨i 0, i 1, eq_ix2 i⟩
  rw [val_main_v21_apply, val_main_v20_apply, val_main_v17_apply, val_main_v19_apply, val_main_v18_apply]
  have h0 : p.val < 14336 := p.isLt
  have h1 : q.val < 4096 := q.isLt
  have e1 : idx_main_v17 (idx_main_v21 (ix2 p q)) = ix2 p q := by
    funext a; apply Fin.ext
    match a with
    | ⟨0, _⟩ => dsimp only [idx_main_v17, idx_main_v21, ix2]; omega
    | ⟨1, _⟩ => dsimp only [idx_main_v17, idx_main_v21, ix2]; omega
  have e2 : idx_main_v18 (idx_main_v19 (idx_main_v21 (ix2 p q)))
      = ix2 (Cert.Spec.tileOf (q := 112) (Cert.Spec.row (ix2 p q))) (Cert.Spec.tileOf (q := 32) (Cert.Spec.col (ix2 p q))) := by
    funext a; apply Fin.ext
    match a with
    | ⟨0, _⟩ => dsimp only [idx_main_v18, idx_main_v19, idx_main_v21, ix2]; omega
    | ⟨1, _⟩ => dsimp only [idx_main_v18, idx_main_v19, idx_main_v21, ix2]; omega
  rw [e1, e2]
  rfl

/-- The second weight, rescaled the same way. -/
theorem w3_stage (x3 : (⟨S14336x4096, .f32⟩ : BufTy).Contents (Elt Ideal)) (x4 : (⟨S112x32, .f32⟩ : BufTy).Contents (Elt Ideal)) :
    val_main_v44 (F := Ideal) x3 x4 = Cert.Spec.deqRow x3 x4 := by
  funext i
  obtain ⟨p, q, rfl⟩ : ∃ (p : Fin 14336) (q : Fin 4096), i = ix2 p q := ⟨i 0, i 1, eq_ix2 i⟩
  rw [val_main_v44_apply, val_main_v43_apply, val_main_v40_apply, val_main_v42_apply, val_main_v41_apply]
  have h0 : p.val < 14336 := p.isLt
  have h1 : q.val < 4096 := q.isLt
  have e1 : idx_main_v40 (idx_main_v44 (ix2 p q)) = ix2 p q := by
    funext a; apply Fin.ext
    match a with
    | ⟨0, _⟩ => dsimp only [idx_main_v40, idx_main_v44, ix2]; omega
    | ⟨1, _⟩ => dsimp only [idx_main_v40, idx_main_v44, ix2]; omega
  have e2 : idx_main_v41 (idx_main_v42 (idx_main_v44 (ix2 p q)))
      = ix2 (Cert.Spec.tileOf (q := 112) (Cert.Spec.row (ix2 p q))) (Cert.Spec.tileOf (q := 32) (Cert.Spec.col (ix2 p q))) := by
    funext a; apply Fin.ext
    match a with
    | ⟨0, _⟩ => dsimp only [idx_main_v41, idx_main_v42, idx_main_v44, ix2]; omega
    | ⟨1, _⟩ => dsimp only [idx_main_v41, idx_main_v42, idx_main_v44, ix2]; omega
  rw [e1, e2]
  rfl

/-- The third weight is [4096, 14336] and its scales arrive as a [32, 112] array: entry (r, k) is multiplied by the
    scale at (r / 128, k / 128) of that array, which is entry (k / 128, r / 128) of its transpose. -/
theorem w2_stage (x5 : (⟨S4096x14336, .f32⟩ : BufTy).Contents (Elt Ideal)) (x6 : (⟨S32x112, .f32⟩ : BufTy).Contents (Elt Ideal)) :
    val_main_v69 (F := Ideal) x5 x6 = Cert.Spec.deqCol x5 (Cert.Spec.transp x6) := by
  funext i
  obtain ⟨p, q, rfl⟩ : ∃ (p : Fin 4096) (q : Fin 14336), i = ix2 p q := ⟨i 0, i 1, eq_ix2 i⟩
  rw [val_main_v69_apply, val_main_v68_apply, val_main_v65_apply, val_main_v67_apply, val_main_v66_apply]
  have h0 : p.val < 4096 := p.isLt
  have h1 : q.val < 14336 := q.isLt
  have e1 : idx_main_v65 (idx_main_v69 (ix2 p q)) = ix2 p q := by
    funext a; apply Fin.ext
    match a with
    | ⟨0, _⟩ => dsimp only [idx_main_v65, idx_main_v69, ix2]; omega
    | ⟨1, _⟩ => dsimp only [idx_main_v65, idx_main_v69, ix2]; omega
  have e2 : idx_main_v66 (idx_main_v67 (idx_main_v69 (ix2 p q)))
      = ix2 (Cert.Spec.tileOf (q := 32) (Cert.Spec.row (ix2 p q))) (Cert.Spec.tileOf (q := 112) (Cert.Spec.col (ix2 p q))) := by
    funext a; apply Fin.ext
    match a with
    | ⟨0, _⟩ => dsimp only [idx_main_v66, idx_main_v67, idx_main_v69, ix2]; omega
    | ⟨1, _⟩ => dsimp only [idx_main_v66, idx_main_v67, idx_main_v69, ix2]; omega
  rw [e1, e2]
  rfl

end Cert.ReferenceIdeal.RefValue

end
-- ==== Proof.RefGate.lean ====
/-
  The hidden layer of the reference. With the activation round trips removed and the weights rescaled, the two
  dot_generals are the inner products of row t of the merged input with row n of the first and of the second rescaled
  weight (the reference transposes the weight first, so it reads entry (k, n) of the transpose, which is entry (n, k)).
  The outlined silu multiplies g by 1 / (1 + exp(-g)), which is the logistic function of g as the extended reals
  define it; the word it uses for 1 denotes 1.
-/
import proofs.«151961_j22153441312857_2_alg».proof.Proof.Gen.ReferenceIdeal.Read
import proofs.«151961_j22153441312857_2_alg».proof.Proof.Spec
import proofs.«151961_j22153441312857_2_alg».proof.Proof.RefBlocks
import proofs.«151961_j22153441312857_2_alg».proof.Proof.RefWeights

noncomputable section

namespace Cert.ReferenceIdeal.RefValue

open Cert.ReferenceIdeal Cert.ReferenceIdeal.Read Idealize.ShloMosaic Idealize.ShloMosaic.ValueIdx

/-- The gate projection: the inner product of row t of the merged input with row n of the first rescaled weight. -/
theorem g_stage (x0 : (⟨S2x1024x4096, .f32⟩ : BufTy).Contents (Elt Ideal)) (x1 : (⟨S14336x4096, .f32⟩ : BufTy).Contents (Elt Ideal))
    (x2 : (⟨S112x32, .f32⟩ : BufTy).Contents (Elt Ideal)) (h0 : Cert.Spec.AllReal x0) (i : S2048x14336.Idx) :
    val_main_v23 (F := Ideal) x0 x1 x2 i
      = ∑ k : Fin 4096, Cert.Spec.flat x0 (ix2 (Cert.Spec.row i) k) * Cert.Spec.deqRow x1 x2 (ix2 (Cert.Spec.col i) k) := by
  rw [val_main_v23_apply, act1_stage x0 h0]
  refine Finset.sum_congr rfl fun k _ => ?_
  rw [val_main_v22_apply, w1_stage]
  have e1 : lidx_main_v23 i k = ix2 (Cert.Spec.row i) k :=
    funext fun a => Fin.ext (by match a with | ⟨0, _⟩ => rfl | ⟨1, _⟩ => rfl)
  have e2 : idx_main_v22 (ridx_main_v23 i k) = ix2 (Cert.Spec.col i) k :=
    funext fun a => Fin.ext (by match a with | ⟨0, _⟩ => rfl | ⟨1, _⟩ => rfl)
  rw [e1, e2]

/-- The up projection: the same with the second rescaled weight. -/
theorem u_stage (x0 : (⟨S2x1024x4096, .f32⟩ : BufTy).Contents (Elt Ideal)) (x3 : (⟨S14336x4096, .f32⟩ : BufTy).Contents (Elt Ideal))
    (x4 : (⟨S112x32, .f32⟩ : BufTy).Contents (Elt Ideal)) (h0 : Cert.Spec.AllReal x0) (i : S2048x14336.Idx) :
    val_main_v46 (F := Ideal) x0 x3 x4 i
      = ∑ k : Fin 4096, Cert.Spec.flat x0 (ix2 (Cert.Spec.row i) k) * Cert.Spec.deqRow x3 x4 (ix2 (Cert.Spec.col i) k) := by
  rw [val_main_v46_apply, act2_eq_act1, act1_stage x0 h0]
  refine Finset.sum_congr rfl fun k _ => ?_
  rw [val_main_v45_apply, w3_stage]
  have e1 : lidx_main_v46 i k = ix2 (Cert.Spec.row i) k :=
    funext fun a => Fin.ext (by match a with | ⟨0, _⟩ => rfl | ⟨1, _⟩ => rfl)
  have e2 : idx_main_v45 (ridx_main_v46 i k) = ix2 (Cert.Spec.col i) k :=
    funext fun a => Fin.ext (by match a with | ⟨0, _⟩ => rfl | ⟨1, _⟩ => rfl)
  rw [e1, e2]

/-- The hidden activation (g · logistic g) · u. -/
theorem h_stage (x0 : (⟨S2x1024x4096, .f32⟩ : BufTy).Contents (Elt Ideal)) (x1 : (⟨S14336x4096, .f32⟩ : BufTy).Contents (Elt Ideal))
    (x2 : (⟨S112x32, .f32⟩ : BufTy).Contents (Elt Ideal)) (x3 : (⟨S14336x4096, .f32⟩ : BufTy).Contents (Elt Ideal))
    (x4 : (⟨S112x32, .f32⟩ : BufTy).Contents (Elt Ideal)) (h0 : Cert.Spec.AllReal x0) :
    val_main_v48 (F := Ideal) x0 x1 x2 x3 x4
      = Cert.Spec.gated (Cert.Spec.flat x0) (Cert.Spec.deqRow x1 x2) (Cert.Spec.deqRow x3 x4) := by
  funext i
  rw [val_main_v48_apply, val_main_v47_apply, val_main_call0_v5_apply, val_main_call0_v4_apply, val_main_call0_cst_0_apply,
    val_main_call0_v3_apply, val_main_call0_v2_apply, val_main_call0_cst_apply, val_main_call0_v1_apply,
    val_main_call0_v0_apply, g_stage x0 x1 x2 h0 i, u_stage x0 x3 x4 h0 i]
  have e : FloatOps.ofBits (F := Ideal) .f32 0x3F800000#32 = (1 : EReal) := ofBits_one
  rw [e]
  rfl

end Cert.ReferenceIdeal.RefValue

end
-- ==== Proof.RefReal.lean ====
/-
  Under real inputs the gated hidden layer of the specification has real entries: the merged input and the rescaled
  weights are real entry by entry (a product of two reals), each inner product is a finite sum of products of reals,
  and the gate (g · logistic g) · u of two reals is a real.
-/
import proofs.«151961_j22153441312857_2_alg».proof.Proof.Spec
import proofs.«151961_j22153441312857_2_alg».proof.Proof.RefAlgebra

noncomputable section

namespace Cert.ReferenceIdeal.RefValue

open Idealize.ShloMosaic Idealize.ShloMosaic.ValueIdx Cert.Spec

/-- Merging the leading axes of a real array gives a real array. -/
theorem flat_real (x : A3 2 1024 4096) (hx : AllReal x) : AllReal (flat x) := fun _ => hx _

/-- A real weight rescaled by real tile scales is real. -/
theorem deqRow_real (w : A2 14336 4096) (s : A2 112 32) (hw : AllReal w) (hs : AllReal s) : AllReal (deqRow w s) :=
  fun i => real_mul (hw i) (hs _)

/-- The gated layer of real arrays is real. -/
theorem gated_real (x : A2 2048 4096) (a b : A2 14336 4096) (hx : AllReal x) (ha : AllReal a) (hb : AllReal b) :
    AllReal (gated x a b) := fun i =>
  real_gate (real_sum_mul (fun k : Fin 4096 => x (ix2 (row i) k)) (fun k => a (ix2 (col i) k)) (fun _ => hx _) (fun _ => ha _))
    (real_sum_mul (fun k : Fin 4096 => x (ix2 (row i) k)) (fun k => b (ix2 (col i) k)) (fun _ => hx _) (fun _ => hb _))

end Cert.ReferenceIdeal.RefValue

end
-- ==== Proof.RefSide.lean ====
/-
  The reference computes the specified layer.

  Under real inputs the three quantise-then-de-quantise round trips of the reference are the identity, the rescaled
  weights are the stored weights times their tile scales, and what remains is the gated layer followed by the down
  projection: entry (t, d) of the result is the inner product of row t of the hidden activation with row d of the third
  rescaled weight (the reference reads the transposed weight at (n, d), which is entry (d, n)). The last reshape splits
  the row index t = 1024·a + b back into (a, b).
-/
import proofs.«151961_j22153441312857_2_alg».proof.Proof.Gen.ReferenceIdeal.Read
import proofs.«151961_j22153441312857_2_alg».proof.Proof.Spec
import proofs.«151961_j22153441312857_2_alg».proof.Proof.RefGate
import proofs.«151961_j22153441312857_2_alg».proof.Proof.RefReal

noncomputable section

namespace Cert.ReferenceIdeal.RefValue

open Cert.ReferenceIdeal Cert.ReferenceIdeal.Read Idealize.ShloMosaic Idealize.ShloMosaic.ValueIdx

/-- On real inputs the reference's result is the layer of the specification. -/
theorem ref_eq (x0 : (⟨S2x1024x4096, .f32⟩ : BufTy).Contents (Elt Ideal)) (x1 : (⟨S14336x4096, .f32⟩ : BufTy).Contents (Elt Ideal))
    (x2 : (⟨S112x32, .f32⟩ : BufTy).Contents (Elt Ideal)) (x3 : (⟨S14336x4096, .f32⟩ : BufTy).Contents (Elt Ideal))
    (x4 : (⟨S112x32, .f32⟩ : BufTy).Contents (Elt Ideal)) (x5 : (⟨S4096x14336, .f32⟩ : BufTy).Contents (Elt Ideal))
    (x6 : (⟨S32x112, .f32⟩ : BufTy).Contents (Elt Ideal))
    (h0 : Cert.Spec.AllReal x0) (h1 : Cert.Spec.AllReal x1) (h2 : Cert.Spec.AllReal x2) (h3 : Cert.Spec.AllReal x3)
    (h4 : Cert.Spec.AllReal x4) (h5 : Cert.Spec.AllReal x5) (h6 : Cert.Spec.AllReal x6) :
    Cert.ReferenceIdeal.Read.val_main_v72 (F := Ideal) x0 x1 x2 x3 x4 x5 x6 = Cert.Spec.layer x0 x1 x2 x3 x4 x5 x6 := by
  have hH := h_stage x0 x1 x2 x3 x4 h0
  have hreal : Cert.Spec.AllReal (val_main_v48 (F := Ideal) x0 x1 x2 x3 x4) := by
    rw [hH]
    exact gated_real _ _ _ (flat_real x0 h0) (deqRow_real x1 x2 h1 h2) (deqRow_real x3 x4 h3 h4)
  funext i
  obtain ⟨a, b, c, rfl⟩ : ∃ (a : Fin 2) (b : Fin 1024) (c : Fin 4096), i = ix3 a b c := ⟨i 0, i 1, i 2, eq_ix3 i⟩
  rw [val_main_v72_apply, val_main_v71_apply, act3_stage x0 x1 x2 x3 x4 hreal, hH]
  unfold Cert.Spec.layer Cert.Spec.unflat Cert.Spec.down
  have ha : a.val < 2 := a.isLt
  have hb : b.val < 1024 := b.isLt
  have hc : c.val < 4096 := c.isLt
  refine Finset.sum_congr rfl fun k _ => ?_
  rw [val_main_v70_apply, w2_stage]
  refine congrArg₂ (· * ·)
    (congrArg (Cert.Spec.gated (Cert.Spec.flat x0) (Cert.Spec.deqRow x1 x2) (Cert.Spec.deqRow x3 x4)) ?_)
    (congrArg (Cert.Spec.deqCol x5 (Cert.Spec.transp x6)) ?_)
  · funext d; apply Fin.ext
    match d with
    | ⟨0, _⟩ => dsimp only [lidx_main_v71, idx_main_v72, ix2, ix3, Cert.Spec.row]; omega
    | ⟨1, _⟩ => rfl
  · funext d; apply Fin.ext
    match d with
    | ⟨0, _⟩ => dsimp only [idx_main_v70, ridx_main_v71, idx_main_v72, ix2, ix3, Cert.Spec.col]; omega
    | ⟨1, _⟩ => rfl

end Cert.ReferenceIdeal.RefValue

end
-- ==== Proof.RefFinite.lean ====
import proofs.«151961_j22153441312857_2_alg».proof.Pre_finite_inputs
import proofs.«151961_j22153441312857_2_alg».proof.Proof.Gen.Pre_finite_inputs
import proofs.«151961_j22153441312857_2_alg».proof.Proof.Spec
import Idealize.ShloMosaic.Lib.ReduceAll
import Idealize.ShloMosaic.Lib.ValueIdx

/-!
# What the precondition says: every input entry is a real number

The precondition conjoins, for each of the seven inputs, "every entry's absolute value is below +∞". On the extended
reals |x| is max x (-x), which is +∞ at both infinities, so the comparison holds exactly at the real numbers.
-/

noncomputable section

namespace Cert.ReferenceIdeal.RefValue

open Idealize.ShloMosaic Idealize.ShloMosaic.ValueIdx

/-- The scalar shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value is strictly below +∞ is a real number: at -∞ and at +∞ the absolute value
    max x (-x) is +∞ itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot =>
    exfalso
    have e : max (⊥ : EReal) (-⊥) = ⊤ := by simp
    rw [e] at h
    simp [Ideal.cmp] at h
  | coe r => exact ⟨r, rfl⟩
  | top =>
    exfalso
    have e : max (⊤ : EReal) (-⊤) = ⊤ := by simp
    rw [e] at h
    simp [Ideal.cmp] at h

/-- One conjunct of the precondition, for an array of any shape: if the conjunction over all entries of
    "|entry| < +∞" came out true, every entry is a real number. -/
theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
        (cmpf .olt (Host.absf a) (broadcastInDim s ![] hb (constant (F := Ideal) Cert.Pre_finite_inputs.S_ .f32 0x7F800000#32)))
        (constantI Cert.Pre_finite_inputs.S_ 1 1#1) hr h0 ix0 = 1#1) :
    Cert.Spec.AllReal a := by
  intro i
  have e := Host.reduce_andi_all _ _ hr h0 ix0 h i
  exact real_of_abs_lt_inf (a i) e

/-- The precondition, read: all seven inputs have only real entries. -/
theorem finite_of_pre [Cert.Pre_finite_inputs.Facts]
    (a0 : FVec Ideal Cert.Pre_finite_inputs.S2x1024x4096 .f32) (a1 : FVec Ideal Cert.Pre_finite_inputs.S14336x4096 .f32)
    (a2 : FVec Ideal Cert.Pre_finite_inputs.S112x32 .f32) (a3 : FVec Ideal Cert.Pre_finite_inputs.S14336x4096 .f32)
    (a4 : FVec Ideal Cert.Pre_finite_inputs.S112x32 .f32) (a5 : FVec Ideal Cert.Pre_finite_inputs.S4096x14336 .f32)
    (a6 : FVec Ideal Cert.Pre_finite_inputs.S32x112 .f32)
    (h : Cert.Pre_finite_inputs.fn (F := Ideal) a0 a1 a2 a3 a4 a5 a6 = fun _ => 1#1) :
    Cert.Spec.AllReal a0 ∧ Cert.Spec.AllReal a1 ∧ Cert.Spec.AllReal a2 ∧ Cert.Spec.AllReal a3 ∧ Cert.Spec.AllReal a4
      ∧ Cert.Spec.AllReal a5 ∧ Cert.Spec.AllReal a6 := by
  have h0 := congrFun h ix0
  dsimp only [Cert.Pre_finite_inputs.fn, Cert.Pre_finite_inputs.fn_part1] at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6⟩

end Cert.ReferenceIdeal.RefValue

end
-- ==== Proof.lean ====
/-
  The certificate of a gated feed-forward layer with tile-scaled weights, against its plain reference.

  Both programs compute, on the extended reals,
      y = ((x·w1ᵀ) · logistic(x·w1ᵀ) · (x·w3ᵀ)) · w2ᵀ
  where each weight entry is its stored value times the scale of the 128 x 128 tile it lies in.  The kernel program
  rescales the three weights in three grid kernels, forms the gated product in a fourth (two accumulators carried
  over the two halves of the contracted axis) and the down projection in a fifth (one accumulator over seven blocks).
  The reference, in addition, divides each 128-block of its activations by a positive scale and multiplies it back
  at once: that round trip is the identity exactly when the activations are real numbers, which is where the
  finiteness of the inputs is used — and only there.

  Frames: the kernel program's run is the chain of its eight items with every buffer's contents named at each
  boundary (KI/Run.lean, and its copy at the word level); the reference's is its operations' run.  Nothing was
  rewritten by the idealization, so it is preserved trivially.  The algebraic claim puts the kernel's result
  (KI/Value.lean over the regions' value lemmas) and the reference's (RefSide.lean) at one function, `Cert.Spec.layer`.
-/
import proofs.«151961_j22153441312857_2_alg».proof.Defs
import proofs.«151961_j22153441312857_2_alg».proof.Proof.Gen.Kernel
import proofs.«151961_j22153441312857_2_alg».proof.Proof.Gen.KernelIdeal
import proofs.«151961_j22153441312857_2_alg».proof.Proof.Gen.ReferenceIdeal
import proofs.«151961_j22153441312857_2_alg».proof.Proof.Gen.Pre_finite_inputs
import proofs.«151961_j22153441312857_2_alg».proof.Proof.Gen.ReferenceIdeal.Run
import proofs.«151961_j22153441312857_2_alg».proof.Proof.Gen.ReferenceIdeal.Read
import proofs.«151961_j22153441312857_2_alg».proof.Proof.Spec
import proofs.«151961_j22153441312857_2_alg».proof.Proof.KB.Run
import proofs.«151961_j22153441312857_2_alg».proof.Proof.KI.Run
import proofs.«151961_j22153441312857_2_alg».proof.Proof.KI.Value
import proofs.«151961_j22153441312857_2_alg».proof.Proof.KI.ValGated
import proofs.«151961_j22153441312857_2_alg».proof.Proof.KI.ValDown
import proofs.«151961_j22153441312857_2_alg».proof.Proof.RefSide
import proofs.«151961_j22153441312857_2_alg».proof.Proof.RefFinite
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference is a line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- From memories that agree on finite arguments both programs end with the layer of those arguments in their result
    buffers: the kernel's by following its regions' outputs back to the arguments, the reference's because its three
    quantise-dequantise round trips are identities on real numbers. -/
theorem algebraic : Cert.algebraic_KernelIdeal_ReferenceIdeal := by
  intro m ρ m' ρ' hpre hagree
  refine ⟨fun c => Cert.Spec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run m ρ)
    exact ⟨(h c _ (Cert.KernelIdeal.Hand.mem_uc Cert.KernelIdeal.main_v8 (by decide))).trans
        (Cert.KernelIdeal.Hand.result_eq m c Cert.KernelIdeal.Hand.Gated.final3 Cert.KernelIdeal.Hand.Down.final4),
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c),
      (h c _ (Cert.KernelIdeal.Hand.mem_uc Cert.KernelIdeal.main_arg4 (by decide))).trans (Cert.KernelIdeal.Hand.W8_main_arg4 m c),
      (h c _ (Cert.KernelIdeal.Hand.mem_uc Cert.KernelIdeal.main_arg5 (by decide))).trans (Cert.KernelIdeal.Hand.W8_main_arg5 m c),
      (h c _ (Cert.KernelIdeal.Hand.mem_uc Cert.KernelIdeal.main_arg6 (by decide))).trans (Cert.KernelIdeal.Hand.W8_main_arg6 m c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.ReferenceIdeal.RefValue.finite_of_pre _ _ _ _ _ _ _ (hpre c)
    rw [Cert.ReferenceIdeal.Read.val_main_v72_eq, (hagree c).1, (hagree c).2.1, (hagree c).2.2.1, (hagree c).2.2.2.1,
      (hagree c).2.2.2.2.1, (hagree c).2.2.2.2.2.1, (hagree c).2.2.2.2.2.2]
    exact Cert.ReferenceIdeal.RefValue.ref_eq _ _ _ _ _ _ _ h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
